-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v120)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x56x56 : Shape := ⟨4, ![32, 256, 56, 56]⟩
abbrev S1x256x1x1 : Shape := ⟨4, ![1, 256, 1, 1]⟩
abbrev S_ : Shape := ⟨0, ![]⟩

class Facts : Prop where
  bcast_S_S32x256x56x56 : S_.BroadcastsInDim S32x256x56x56 (![] : Fin 0 → Fin S32x256x56x56.rank)
  reducesTo_S32x256x56x56_S_d0_1_2_3 : S32x256x56x56.ReducesTo [0, 1, 2, 3] S_
  h_S_ : 0 < S_.numel
  bcast_S_S1x256x1x1 : S_.BroadcastsInDim S1x256x1x1 (![] : Fin 0 → Fin S1x256x1x1.rank)
  reducesTo_S1x256x1x1_S_d0_1_2_3 : S1x256x1x1.ReducesTo [0, 1, 2, 3] S_

variable [Facts]

def fn {F : FTy → Type} [FloatOps F] (main_arg0 : FVec F S32x256x56x56 .f32) (main_arg1 : FVec F S1x256x1x1 .f32) (main_arg2 : FVec F S1x256x1x1 .f32) : IVec S_ 1 :=
  let main_v0 : FVec F S32x256x56x56 .f32 := Host.absf main_arg0
  let main_cst : FVec F S_ .f32 := constant S_ .f32 0x7F800000#32
  let main_v1 : FVec F S32x256x56x56 .f32 := broadcastInDim S32x256x56x56 ![] bcast_S_S32x256x56x56 main_cst
  let main_v2 : IVec S32x256x56x56 1 := cmpf .olt main_v0 main_v1
  let main_c : IVec S_ 1 := constantI S_ 1 1#1
  let main_v3 : IVec S_ 1 := (fun x v => Host.reduce IntOp.andi x v reducesTo_S32x256x56x56_S_d0_1_2_3 h_S_) main_v2 main_c
  let main_v4 : FVec F S1x256x1x1 .f32 := Host.absf main_arg1
  let main_cst_0 : FVec F S_ .f32 := constant S_ .f32 0x7F800000#32
  let main_v5 : FVec F S1x256x1x1 .f32 := broadcastInDim S1x256x1x1 ![] bcast_S_S1x256x1x1 main_cst_0
  let main_v6 : IVec S1x256x1x1 1 := cmpf .olt main_v4 main_v5
  let main_c_1 : IVec S_ 1 := constantI S_ 1 1#1
  let main_v7 : IVec S_ 1 := (fun x v => Host.reduce IntOp.andi x v reducesTo_S1x256x1x1_S_d0_1_2_3 h_S_) main_v6 main_c_1
  let main_v8 : IVec S_ 1 := andi main_v3 main_v7
  let main_v9 : FVec F S1x256x1x1 .f32 := Host.absf main_arg2
  let main_cst_2 : FVec F S_ .f32 := constant S_ .f32 0x7F800000#32
  let main_v10 : FVec F S1x256x1x1 .f32 := broadcastInDim S1x256x1x1 ![] bcast_S_S1x256x1x1 main_cst_2
  let main_v11 : IVec S1x256x1x1 1 := cmpf .olt main_v9 main_v10
  let main_c_3 : IVec S_ 1 := constantI S_ 1 1#1
  let main_v12 : IVec S_ 1 := (fun x v => Host.reduce IntOp.andi x v reducesTo_S1x256x1x1_S_d0_1_2_3 h_S_) main_v11 main_c_3
  let main_v13 : IVec S_ 1 := andi main_v8 main_v12
  main_v13
-- ==== Kernel.lean ====
abbrev S32x256x56x56 : Shape := ⟨4, ![32, 256, 56, 56]⟩
abbrev S1x256x1x1 : Shape := ⟨4, ![1, 256, 1, 1]⟩
abbrev S1x16 : Shape := ⟨2, ![1, 16]⟩
abbrev S16x16 : Shape := ⟨2, ![16, 16]⟩
abbrev S32x16x56x56 : Shape := ⟨4, ![32, 16, 56, 56]⟩
abbrev S32x16x3136 : Shape := ⟨3, ![32, 16, 3136]⟩
abbrev S16 : Shape := ⟨1, ![16]⟩
abbrev S32x16x16 : Shape := ⟨3, ![32, 16, 16]⟩
abbrev S_ : Shape := ⟨0, ![]⟩
abbrev S16x1 : Shape := ⟨2, ![16, 1]⟩
abbrev S1x16x1x1 : Shape := ⟨4, ![1, 16, 1, 1]⟩
abbrev S1x16x1 : Shape := ⟨3, ![1, 16, 1]⟩
abbrev S1x16x16 : Shape := ⟨3, ![1, 16, 16]⟩

abbrev nBuf : Space → Nat
  | .hbm => 154
  | .vmem => 14
  | .smem => 0
  | _ => 0

abbrev hbmTy0_0 (i : Nat) : BufTy := match i % 128 with
  | 0 => ⟨S32x256x56x56, .f32⟩
  | 1 => ⟨S1x256x1x1, .f32⟩
  | 2 => ⟨S1x256x1x1, .f32⟩
  | 3 => ⟨S1x16, .f32⟩
  | 4 => ⟨S16x16, .f32⟩
  | 5 => ⟨S16, .f32⟩
  | 6 => ⟨S_, .f32⟩
  | 7 => ⟨S16, .f32⟩
  | 8 => ⟨S16, .f32⟩
  | 9 => ⟨S_, .f32⟩
  | 10 => ⟨S16x16, .f32⟩
  | 11 => ⟨S16x16, .f32⟩
  | 12 => ⟨S16x1, .f32⟩
  | 13 => ⟨S1x16, .f32⟩
  | 14 => ⟨S16x16, .f32⟩
  | 15 => ⟨S16x16, .f32⟩
  | 16 => ⟨S16x16, .f32⟩
  | 17 => ⟨S16x16, .f32⟩
  | 18 => ⟨S16x16, .i32⟩
  | 19 => ⟨S16x16, .i32⟩
  | 20 => ⟨S_, .i32⟩
  | 21 => ⟨S16x16, .i32⟩
  | 22 => ⟨S16x16, .i32⟩
  | 23 => ⟨S16x16, .i1⟩
  | 24 => ⟨S16x16, .f32⟩
  | 25 => ⟨S_, .f32⟩
  | 26 => ⟨S16x16, .f32⟩
  | 27 => ⟨S16x16, .f32⟩
  | 28 => ⟨S16x16, .f32⟩
  | 29 => ⟨S16x16, .f32⟩
  | 30 => ⟨S_, .f32⟩
  | 31 => ⟨S_, .f32⟩
  | 32 => ⟨S_, .f32⟩
  | 33 => ⟨S16x16, .f32⟩
  | 34 => ⟨S16x16, .f32⟩
  | 35 => ⟨S16x16, .i32⟩
  | 36 => ⟨S16x16, .i32⟩
  | 37 => ⟨S_, .i32⟩
  | 38 => ⟨S16x16, .i32⟩
  | 39 => ⟨S16x16, .i32⟩
  | 40 => ⟨S16x16, .i1⟩
  | 41 => ⟨S16x16, .f32⟩
  | 42 => ⟨S16x16, .i32⟩
  | 43 => ⟨S16x16, .i32⟩
  | 44 => ⟨S_, .i32⟩
  | 45 => ⟨S16x16, .i32⟩
  | 46 => ⟨S16x16, .i32⟩
  | 47 => ⟨S16x16, .i1⟩
  | 48 => ⟨S16x16, .f32⟩
  | 49 => ⟨S_, .f32⟩
  | 50 => ⟨S16x16, .f32⟩
  | 51 => ⟨S16x16, .f32⟩
  | 52 => ⟨S16x16, .f32⟩
  | 53 => ⟨S16x16, .f32⟩
  | 54 => ⟨S_, .f32⟩
  | 55 => ⟨S16x16, .f32⟩
  | 56 => ⟨S16x16, .f32⟩
  | 57 => ⟨S16x16, .f32⟩
  | 58 => ⟨S16x16, .f32⟩
  | 59 => ⟨S_, .f32⟩
  | 60 => ⟨S16x16, .f32⟩
  | 61 => ⟨S16x16, .f32⟩
  | 62 => ⟨S16x16, .f32⟩
  | 63 => ⟨S16x16, .f32⟩
  | 64 => ⟨S_, .f32⟩
  | 65 => ⟨S16x16, .f32⟩
  | 66 => ⟨S16x16, .f32⟩
  | 67 => ⟨S16x16, .f32⟩
  | 68 => ⟨S16x16, .f32⟩
  | 69 => ⟨S_, .f32⟩
  | 70 => ⟨S16x16, .f32⟩
  | 71 => ⟨S16x16, .f32⟩
  | 72 => ⟨S16x16, .f32⟩
  | 73 => ⟨S16x16, .f32⟩
  | 74 => ⟨S_, .f32⟩
  | 75 => ⟨S16x16, .f32⟩
  | 76 => ⟨S16x16, .f32⟩
  | 77 => ⟨S16x16, .f32⟩
  | 78 => ⟨S16x16, .f32⟩
  | 79 => ⟨S_, .f32⟩
  | 80 => ⟨S16x16, .f32⟩
  | 81 => ⟨S16x16, .f32⟩
  | 82 => ⟨S16x16, .f32⟩
  | 83 => ⟨S16x16, .f32⟩
  | 84 => ⟨S_, .f32⟩
  | 85 => ⟨S16x16, .f32⟩
  | 86 => ⟨S16x16, .f32⟩
  | 87 => ⟨S16x16, .f32⟩
  | 88 => ⟨S16x16, .f32⟩
  | 89 => ⟨S_, .f32⟩
  | 90 => ⟨S16x16, .f32⟩
  | 91 => ⟨S16x16, .f32⟩
  | 92 => ⟨S16x16, .f32⟩
  | 93 => ⟨S16x16, .f32⟩
  | 94 => ⟨S_, .f32⟩
  | 95 => ⟨S16x16, .f32⟩
  | 96 => ⟨S16x16, .f32⟩
  | 97 => ⟨S16x16, .f32⟩
  | 98 => ⟨S16x16, .f32⟩
  | 99 => ⟨S_, .f32⟩
  | 100 => ⟨S16x16, .f32⟩
  | 101 => ⟨S16x16, .f32⟩
  | 102 => ⟨S16x16, .f32⟩
  | 103 => ⟨S16x16, .f32⟩
  | 104 => ⟨S_, .f32⟩
  | 105 => ⟨S16x16, .f32⟩
  | 106 => ⟨S16x16, .f32⟩
  | 107 => ⟨S16x16, .f32⟩
  | 108 => ⟨S16x16, .f32⟩
  | 109 => ⟨S_, .f32⟩
  | 110 => ⟨S16x16, .f32⟩
  | 111 => ⟨S16x16, .f32⟩
  | 112 => ⟨S16x16, .f32⟩
  | 113 => ⟨S16x16, .f32⟩
  | 114 => ⟨S_, .f32⟩
  | 115 => ⟨S16x16, .f32⟩
  | 116 => ⟨S16x16, .f32⟩
  | 117 => ⟨S16x16, .f32⟩
  | 118 => ⟨S16x16, .f32⟩
  | 119 => ⟨S_, .f32⟩
  | 120 => ⟨S16x16, .f32⟩
  | 121 => ⟨S16x16, .f32⟩
  | 122 => ⟨S16x16, .f32⟩
  | 123 => ⟨S16x16, .f32⟩
  | 124 => ⟨S_, .f32⟩
  | 125 => ⟨S16x16, .f32⟩
  | 126 => ⟨S16x16, .f32⟩
  | 127 => ⟨S16x16, .f32⟩
  | _ => ⟨S32x256x56x56, .f32⟩

abbrev hbmTy0_1 (i : Nat) : BufTy := match i % 128 with
  | 0 => ⟨S16x16, .f32⟩
  | 1 => ⟨S_, .f32⟩
  | 2 => ⟨S16x16, .f32⟩
  | 3 => ⟨S16x16, .f32⟩
  | 4 => ⟨S16x16, .f32⟩
  | 5 => ⟨S16x16, .f32⟩
  | 6 => ⟨S_, .f32⟩
  | 7 => ⟨S16x16, .f32⟩
  | 8 => ⟨S16x16, .f32⟩
  | 9 => ⟨S16x16, .f32⟩
  | 10 => ⟨S16x16, .f32⟩
  | 11 => ⟨S_, .f32⟩
  | 12 => ⟨S16x16, .f32⟩
  | 13 => ⟨S16x16, .f32⟩
  | 14 => ⟨S16x16, .f32⟩
  | 15 => ⟨S16x16, .f32⟩
  | 16 => ⟨S_, .f32⟩
  | 17 => ⟨S16x16, .f32⟩
  | 18 => ⟨S16x16, .f32⟩
  | 19 => ⟨S16x16, .f32⟩
  | 20 => ⟨S16x16, .f32⟩
  | 21 => ⟨S_, .f32⟩
  | 22 => ⟨S16x16, .f32⟩
  | 23 => ⟨S16x16, .f32⟩
  | 24 => ⟨S1x16, .f32⟩
  | 25 => ⟨S32x256x56x56, .f32⟩
  | _ => ⟨S32x256x56x56, .f32⟩

abbrev hbmTy (i : Nat) : BufTy := match i / 128 with
  | 0 => hbmTy0_0 i
  | 1 => hbmTy0_1 i
  | _ => ⟨S32x256x56x56, .f32⟩

abbrev bufTy : (tb : Table) → Fin (tcTables nBuf tb) → BufTy
  | .hbm, ⟨i, _⟩ => hbmTy i
  | .local _ .vmem, ⟨0, _⟩ => ⟨S32x16x56x56, .f32⟩
  | .local _ .vmem, ⟨1, _⟩ => ⟨S32x16x56x56, .f32⟩
  | .local _ .vmem, ⟨2, _⟩ => ⟨S1x16, .f32⟩
  | .local _ .vmem, ⟨3, _⟩ => ⟨S16x16, .f32⟩
  | .local _ .vmem, ⟨4, _⟩ => ⟨S32x16x56x56, .f32⟩
  | .local _ .vmem, ⟨5, _⟩ => ⟨S32x16x56x56, .f32⟩
  | .local _ .vmem, ⟨6, _⟩ => ⟨S1x16, .f32⟩
  | .local _ .vmem, ⟨7, _⟩ => ⟨S16x16, .f32⟩
  | .local _ .vmem, ⟨8, _⟩ => ⟨S1x16x1x1, .f32⟩
  | .local _ .vmem, ⟨9, _⟩ => ⟨S1x16x1x1, .f32⟩
  | .local _ .vmem, ⟨10, _⟩ => ⟨S1x16x1x1, .f32⟩
  | .local _ .vmem, ⟨11, _⟩ => ⟨S1x16x1x1, .f32⟩
  | .local _ .vmem, ⟨12, _⟩ => ⟨S32x16x56x56, .f32⟩
  | .local _ .vmem, ⟨13, _⟩ => ⟨S32x16x56x56, .f32⟩
  | _, _ => ⟨S32x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_cst : Ref sig .tc := ⟨.hbm, 30, rfl⟩
abbrev main_call0_v1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_9 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_10 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_11 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_12 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_13 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_14 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_15 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_16 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_17 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_18 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_19 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_20 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_cst_21 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_22 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_cst_23 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x16x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![16], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_5 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage1_0 : Fin 2 → Memref sig .tc .vmem S32x16x56x56 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x16x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x16x1x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S32x16x56x56 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S1x16_S1x16_0_0 : ∀ a, (![0, 0] : Fin 2 → Nat) a + S1x16.size a ≤ S1x16.size a
  h_S1x16 : 0 < S1x16.numel
  inb_S16x16_S16x16_0_0 : ∀ a, (![0, 0] : Fin 2 → Nat) a + S16x16.size a ≤ S16x16.size a
  h_S16x16 : 0 < S16x16.numel
  inb_S32x16x56x56_S32x16x56x56_0_0_0_0 : ∀ a, (![0, 0, 0, 0] : Fin 4 → Nat) a + S32x16x56x56.size a ≤ S32x16x56x56.size a
  h_S32x16x56x56 : 0 < S32x16x56x56.numel
  shapeCasts_S32x16x56x56_S32x16x3136 : S32x16x56x56.ShapeCasts S32x16x3136
  reduces_S32x16x3136_S16 : S32x16x3136.Reduces [0, 2] S16
  shapeCasts_S1x16_S1x16 : S1x16.ShapeCasts S1x16
  shapeCasts_S16_S1x16 : S16.ShapeCasts S1x16
  shapeCasts_S16x16_S16x16 : S16x16.ShapeCasts S16x16
  reduces_S32x16x16_S16x16 : S32x16x16.Reduces [0] S16x16
  shapeCasts_S1x16_S16 : S1x16.ShapeCasts S16
  bcast_S_S16 : S_.BroadcastsInDim S16 (![] : Fin 0 → Fin S16.rank)
  bcast_S_S16x16 : S_.BroadcastsInDim S16x16 (![] : Fin 0 → Fin S16x16.rank)
  bcast_S16_S16x1_0 : S16.BroadcastsInDim S16x1 (![0] : Fin 1 → Fin S16x1.rank)
  bcast_S16_S1x16_1 : S16.BroadcastsInDim S1x16 (![1] : Fin 1 → Fin S1x16.rank)
  bcast_S16x1_S16x16_0_1 : S16x1.BroadcastsInDim S16x16 (![0, 1] : Fin 2 → Fin S16x16.rank)
  bcast_S1x16_S16x16_0_1 : S1x16.BroadcastsInDim S16x16 (![0, 1] : Fin 2 → Fin S16x16.rank)
  reducesTo_S16x16_S_d0_1 : S16x16.ReducesTo [0, 1] S_
  h_S_ : 0 < S_.numel
  shapeCasts_S1x16_S1x16x1 : S1x16.ShapeCasts S1x16x1
  broadcasts_S1x16x1_S32x16x3136 : S1x16x1.Broadcasts S32x16x3136
  shapeCasts_S16x16_S1x16x16 : S16x16.ShapeCasts S1x16x16
  shapeCasts_S1x16x16_S1x16x16 : S1x16x16.ShapeCasts S1x16x16
  broadcasts_S1x16x16_S32x16x16 : S1x16x16.Broadcasts S32x16x16
  shapeCasts_S32x16x3136_S32x16x56x56 : S32x16x3136.ShapeCasts S32x16x56x56
  inb_S1x16x1x1_S1x16x1x1_0_0_0_0 : ∀ a, (![0, 0, 0, 0] : Fin 4 → Nat) a + S1x16x1x1.size a ≤ S1x16x1x1.size a
  h_S1x16x1x1 : 0 < S1x16x1x1.numel
  broadcasts_S1x16x1x1_S32x16x56x56 : S1x16x1x1.Broadcasts S32x16x56x56
  dot_S32x16x3136_S32x16x3136_S32x16x16_2_2_1_1_0_0_wf : DotDims.WF S32x16x3136 S32x16x3136 S32x16x16 [2] [2] [1] [1] [0] [0]
  dot_S16x16_S16x16_S16x16_1_0_0_1_n_n_wf : DotDims.WF S16x16 S16x16 S16x16 [1] [0] [0] [1] [] []
  dot_S32x16x16_S32x16x3136_S32x16x3136_2_1_1_2_0_0_wf : DotDims.WF S32x16x16 S32x16x3136 S32x16x3136 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x16x56x56.size a ≤ S32x256x56x56.size a
  hwx0_0 : ∀ i : grid0.Coords, EltTy.bits .f32 = 32 ∨ (Rect.block (s := S32x256x56x56) S32x16x56x56.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16.size a ≤ S1x16.size a
  hwx0_1 : ∀ i : grid0.Coords, EltTy.bits .f32 = 32 ∨ (Rect.block (s := S1x16) S1x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x16.size a ≤ S16x16.size a
  hwx0_2 : ∀ i : grid0.Coords, EltTy.bits .f32 = 32 ∨ (Rect.block (s := S16x16) S16x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x16x56x56.size a ≤ S32x256x56x56.size a
  hwx1_0 : ∀ i : grid1.Coords, EltTy.bits .f32 = 32 ∨ (Rect.block (s := S32x256x56x56) S32x16x56x56.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x16x1x1.size a ≤ S1x256x1x1.size a
  hwx1_3 : ∀ i : grid1.Coords, EltTy.bits .f32 = 32 ∨ (Rect.block (s := S1x256x1x1) S1x16x1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x16x1x1.size a ≤ S1x256x1x1.size a
  hwx1_4 : ∀ i : grid1.Coords, EltTy.bits .f32 = 32 ∨ (Rect.block (s := S1x256x1x1) S1x16x1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S32x16x56x56.size a ≤ S32x256x56x56.size a
  hwx1_5 : ∀ i : grid1.Coords, EltTy.bits .f32 = 32 ∨ (Rect.block (s := S32x256x56x56) S32x16x56x56.size (cc1_transform_5 i) (hinb1_5 i)).WholeWords (EltTy.packing .f32)

variable [Facts₀]

def dot_S32x16x3136_S32x16x3136_S32x16x16_2_2_1_1_0_0 : DotDims S32x16x3136 S32x16x3136 S32x16x16 where
  lhsContracting := [2]
  rhsContracting := [2]
  lhsNonContracting := [1]
  rhsNonContracting := [1]
  lhsBatch := [0]
  rhsBatch := [0]
  wf := dot_S32x16x3136_S32x16x3136_S32x16x16_2_2_1_1_0_0_wf
def dot_S16x16_S16x16_S16x16_1_0_0_1_n_n : DotDims S16x16 S16x16 S16x16 where
  lhsContracting := [1]
  rhsContracting := [0]
  lhsNonContracting := [0]
  rhsNonContracting := [1]
  lhsBatch := []
  rhsBatch := []
  wf := dot_S16x16_S16x16_S16x16_1_0_0_1_n_n_wf
def dot_S32x16x16_S32x16x3136_S32x16x3136_2_1_1_2_0_0 : DotDims S32x16x16 S32x16x3136 S32x16x3136 where
  lhsContracting := [2]
  rhsContracting := [1]
  lhsNonContracting := [1]
  rhsNonContracting := [2]
  lhsBatch := [0]
  rhsBatch := [0]
  wf := dot_S32x16x16_S32x16x3136_S32x16x3136_2_1_1_2_0_0_wf

abbrev win0_0 : Pipeline.Window sig grid0 :=
  Pipeline.Window.ofSpec (Memref.whole main_arg0) S32x16x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x16.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S16x16.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S32x16x56x56.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v119) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v118) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1x16x1x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S1x16x1x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v120) S32x16x56x56.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S32x256x56x56 : Shape := ⟨4, ![32, 256, 56, 56]⟩
abbrev S1x256x1x1 : Shape := ⟨4, ![1, 256, 1, 1]⟩
abbrev S32x16x16x56x56 : Shape := ⟨5, ![32, 16, 16, 56, 56]⟩
abbrev S16x32x16x56x56 : Shape := ⟨5, ![16, 32, 16, 56, 56]⟩
abbrev S16x1605632 : Shape := ⟨2, ![16, 1605632]⟩
abbrev S_ : Shape := ⟨0, ![]⟩
abbrev S16 : Shape := ⟨1, ![16]⟩
abbrev S16x1 : Shape := ⟨2, ![16, 1]⟩
abbrev S1605632x16 : Shape := ⟨2, ![1605632, 16]⟩
abbrev S16x16 : Shape := ⟨2, ![16, 16]⟩

abbrev nBuf : Space → Nat
  | .hbm => 161
  | .vmem => 0
  | .smem => 0
  | _ => 0

abbrev hbmTy0_0 (i : Nat) : BufTy := match i % 128 with
  | 0 => ⟨S32x256x56x56, .f32⟩
  | 1 => ⟨S1x256x1x1, .f32⟩
  | 2 => ⟨S1x256x1x1, .f32⟩
  | 3 => ⟨S32x16x16x56x56, .f32⟩
  | 4 => ⟨S16x32x16x56x56, .f32⟩
  | 5 => ⟨S16x1605632, .f32⟩
  | 6 => ⟨S_, .f32⟩
  | 7 => ⟨S16, .f32⟩
  | 8 => ⟨S16x1, .f32⟩
  | 9 => ⟨S_, .f32⟩
  | 10 => ⟨S16x1, .f32⟩
  | 11 => ⟨S16x1, .f32⟩
  | 12 => ⟨S16x1605632, .f32⟩
  | 13 => ⟨S16x1605632, .f32⟩
  | 14 => ⟨S1605632x16, .f32⟩
  | 15 => ⟨S16x16, .f32⟩
  | 16 => ⟨S_, .f32⟩
  | 17 => ⟨S16x16, .f32⟩
  | 18 => ⟨S16x16, .f32⟩
  | 19 => ⟨S16x16, .i32⟩
  | 20 => ⟨S16x16, .i32⟩
  | 21 => ⟨S_, .i32⟩
  | 22 => ⟨S16x16, .i32⟩
  | 23 => ⟨S16x16, .i32⟩
  | 24 => ⟨S16x16, .i1⟩
  | 25 => ⟨S16x16, .f32⟩
  | 26 => ⟨S_, .f32⟩
  | 27 => ⟨S16x16, .f32⟩
  | 28 => ⟨S16x16, .f32⟩
  | 29 => ⟨S16x16, .f32⟩
  | 30 => ⟨S16x16, .f32⟩
  | 31 => ⟨S_, .f32⟩
  | 32 => ⟨S_, .f32⟩
  | 33 => ⟨S_, .f32⟩
  | 34 => ⟨S16x16, .f32⟩
  | 35 => ⟨S16x16, .f32⟩
  | 36 => ⟨S16x16, .i32⟩
  | 37 => ⟨S16x16, .i32⟩
  | 38 => ⟨S_, .i32⟩
  | 39 => ⟨S16x16, .i32⟩
  | 40 => ⟨S16x16, .i32⟩
  | 41 => ⟨S16x16, .i1⟩
  | 42 => ⟨S16x16, .f32⟩
  | 43 => ⟨S16x16, .i32⟩
  | 44 => ⟨S16x16, .i32⟩
  | 45 => ⟨S_, .i32⟩
  | 46 => ⟨S16x16, .i32⟩
  | 47 => ⟨S16x16, .i32⟩
  | 48 => ⟨S16x16, .i1⟩
  | 49 => ⟨S16x16, .f32⟩
  | 50 => ⟨S_, .f32⟩
  | 51 => ⟨S16x16, .f32⟩
  | 52 => ⟨S16x16, .f32⟩
  | 53 => ⟨S16x16, .f32⟩
  | 54 => ⟨S16x16, .f32⟩
  | 55 => ⟨S_, .f32⟩
  | 56 => ⟨S16x16, .f32⟩
  | 57 => ⟨S16x16, .f32⟩
  | 58 => ⟨S16x16, .f32⟩
  | 59 => ⟨S16x16, .f32⟩
  | 60 => ⟨S_, .f32⟩
  | 61 => ⟨S16x16, .f32⟩
  | 62 => ⟨S16x16, .f32⟩
  | 63 => ⟨S16x16, .f32⟩
  | 64 => ⟨S16x16, .f32⟩
  | 65 => ⟨S_, .f32⟩
  | 66 => ⟨S16x16, .f32⟩
  | 67 => ⟨S16x16, .f32⟩
  | 68 => ⟨S16x16, .f32⟩
  | 69 => ⟨S16x16, .f32⟩
  | 70 => ⟨S_, .f32⟩
  | 71 => ⟨S16x16, .f32⟩
  | 72 => ⟨S16x16, .f32⟩
  | 73 => ⟨S16x16, .f32⟩
  | 74 => ⟨S16x16, .f32⟩
  | 75 => ⟨S_, .f32⟩
  | 76 => ⟨S16x16, .f32⟩
  | 77 => ⟨S16x16, .f32⟩
  | 78 => ⟨S16x16, .f32⟩
  | 79 => ⟨S16x16, .f32⟩
  | 80 => ⟨S_, .f32⟩
  | 81 => ⟨S16x16, .f32⟩
  | 82 => ⟨S16x16, .f32⟩
  | 83 => ⟨S16x16, .f32⟩
  | 84 => ⟨S16x16, .f32⟩
  | 85 => ⟨S_, .f32⟩
  | 86 => ⟨S16x16, .f32⟩
  | 87 => ⟨S16x16, .f32⟩
  | 88 => ⟨S16x16, .f32⟩
  | 89 => ⟨S16x16, .f32⟩
  | 90 => ⟨S_, .f32⟩
  | 91 => ⟨S16x16, .f32⟩
  | 92 => ⟨S16x16, .f32⟩
  | 93 => ⟨S16x16, .f32⟩
  | 94 => ⟨S16x16, .f32⟩
  | 95 => ⟨S_, .f32⟩
  | 96 => ⟨S16x16, .f32⟩
  | 97 => ⟨S16x16, .f32⟩
  | 98 => ⟨S16x16, .f32⟩
  | 99 => ⟨S16x16, .f32⟩
  | 100 => ⟨S_, .f32⟩
  | 101 => ⟨S16x16, .f32⟩
  | 102 => ⟨S16x16, .f32⟩
  | 103 => ⟨S16x16, .f32⟩
  | 104 => ⟨S16x16, .f32⟩
  | 105 => ⟨S_, .f32⟩
  | 106 => ⟨S16x16, .f32⟩
  | 107 => ⟨S16x16, .f32⟩
  | 108 => ⟨S16x16, .f32⟩
  | 109 => ⟨S16x16, .f32⟩
  | 110 => ⟨S_, .f32⟩
  | 111 => ⟨S16x16, .f32⟩
  | 112 => ⟨S16x16, .f32⟩
  | 113 => ⟨S16x16, .f32⟩
  | 114 => ⟨S16x16, .f32⟩
  | 115 => ⟨S_, .f32⟩
  | 116 => ⟨S16x16, .f32⟩
  | 117 => ⟨S16x16, .f32⟩
  | 118 => ⟨S16x16, .f32⟩
  | 119 => ⟨S16x16, .f32⟩
  | 120 => ⟨S_, .f32⟩
  | 121 => ⟨S16x16, .f32⟩
  | 122 => ⟨S16x16, .f32⟩
  | 123 => ⟨S16x16, .f32⟩
  | 124 => ⟨S16x16, .f32⟩
  | 125 => ⟨S_, .f32⟩
  | 126 => ⟨S16x16, .f32⟩
  | 127 => ⟨S16x16, .f32⟩
  | _ => ⟨S32x256x56x56, .f32⟩

abbrev hbmTy0_1 (i : Nat) : BufTy := match i % 128 with
  | 0 => ⟨S16x16, .f32⟩
  | 1 => ⟨S16x16, .f32⟩
  | 2 => ⟨S_, .f32⟩
  | 3 => ⟨S16x16, .f32⟩
  | 4 => ⟨S16x16, .f32⟩
  | 5 => ⟨S16x16, .f32⟩
  | 6 => ⟨S16x16, .f32⟩
  | 7 => ⟨S_, .f32⟩
  | 8 => ⟨S16x16, .f32⟩
  | 9 => ⟨S16x16, .f32⟩
  | 10 => ⟨S16x16, .f32⟩
  | 11 => ⟨S16x16, .f32⟩
  | 12 => ⟨S_, .f32⟩
  | 13 => ⟨S16x16, .f32⟩
  | 14 => ⟨S16x16, .f32⟩
  | 15 => ⟨S16x16, .f32⟩
  | 16 => ⟨S16x16, .f32⟩
  | 17 => ⟨S_, .f32⟩
  | 18 => ⟨S16x16, .f32⟩
  | 19 => ⟨S16x16, .f32⟩
  | 20 => ⟨S16x16, .f32⟩
  | 21 => ⟨S16x16, .f32⟩
  | 22 => ⟨S_, .f32⟩
  | 23 => ⟨S16x16, .f32⟩
  | 24 => ⟨S16x16, .f32⟩
  | 25 => ⟨S16x1605632, .f32⟩
  | 26 => ⟨S16x32x16x56x56, .f32⟩
  | 27 => ⟨S32x16x16x56x56, .f32⟩
  | 28 => ⟨S32x256x56x56, .f32⟩
  | 29 => ⟨S32x256x56x56, .f32⟩
  | 30 => ⟨S32x256x56x56, .f32⟩
  | 31 => ⟨S32x256x56x56, .f32⟩
  | 32 => ⟨S32x256x56x56, .f32⟩
  | _ => ⟨S32x256x56x56, .f32⟩

abbrev hbmTy (i : Nat) : BufTy := match i / 128 with
  | 0 => hbmTy0_0 i
  | 1 => hbmTy0_1 i
  | _ => ⟨S32x256x56x56, .f32⟩

abbrev bufTy : (tb : Table) → Fin (tcTables nBuf tb) → BufTy
  | .hbm, ⟨i, _⟩ => hbmTy i
  | _, _ => ⟨S32x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_cst : Ref sig .tc := ⟨.hbm, 31, rfl⟩
abbrev main_call0_v1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_10 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_11 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_12 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_13 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_14 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_15 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_16 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_17 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_18 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_19 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_cst_20 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_cst_21 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_22 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_cst_23 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_cst_24 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩

abbrev nD : Nat := 1
abbrev τ : Topo := Topo.v7x

variable {F : FTy → Type} [FloatOps F]

class Facts₀ : Prop where
  shapeCasts_S32x256x56x56_S32x16x16x56x56 : S32x256x56x56.ShapeCasts S32x16x16x56x56
  transposes_S32x16x16x56x56_S16x32x16x56x56_2_0_1_3_4 : S32x16x16x56x56.Transposes [2, 0, 1, 3, 4] S16x32x16x56x56
  shapeCasts_S16x32x16x56x56_S16x1605632 : S16x32x16x56x56.ShapeCasts S16x1605632
  reducesTo_S16x1605632_S16_d1 : S16x1605632.ReducesTo [1] S16
  h_S_ : 0 < S_.numel
  bcast_S16_S16x1_0 : S16.BroadcastsInDim S16x1 (![0] : Fin 1 → Fin S16x1.rank)
  bcast_S_S16x1 : S_.BroadcastsInDim S16x1 (![] : Fin 0 → Fin S16x1.rank)
  bcast_S16x1_S16x1605632_0_1 : S16x1.BroadcastsInDim S16x1605632 (![0, 1] : Fin 2 → Fin S16x1605632.rank)
  transposes_S16x1605632_S1605632x16_1_0 : S16x1605632.Transposes [1, 0] S1605632x16
  bcast_S_S16x16 : S_.BroadcastsInDim S16x16 (![] : Fin 0 → Fin S16x16.rank)
  reducesTo_S16x16_S_d0_1 : S16x16.ReducesTo [0, 1] S_
  shapeCasts_S16x1605632_S16x32x16x56x56 : S16x1605632.ShapeCasts S16x32x16x56x56
  transposes_S16x32x16x56x56_S32x16x16x56x56_1_2_0_3_4 : S16x32x16x56x56.Transposes [1, 2, 0, 3, 4] S32x16x16x56x56
  shapeCasts_S32x16x16x56x56_S32x256x56x56 : S32x16x16x56x56.ShapeCasts S32x256x56x56
  bcast_S1x256x1x1_S32x256x56x56_0_1_2_3 : S1x256x1x1.BroadcastsInDim S32x256x56x56 (![0, 1, 2, 3] : Fin 4 → Fin S32x256x56x56.rank)
  dot_S16x1605632_S1605632x16_S16x16_1_0_0_1_n_n_wf : DotDims.WF S16x1605632 S1605632x16 S16x16 [1] [0] [0] [1] [] []
  dot_S16x16_S16x16_S16x16_1_0_0_1_n_n_wf : DotDims.WF S16x16 S16x16 S16x16 [1] [0] [0] [1] [] []
  dot_S16x16_S16x1605632_S16x1605632_1_0_0_1_n_n_wf : DotDims.WF S16x16 S16x1605632 S16x1605632 [1] [0] [0] [1] [] []

variable [Facts₀]

def dot_S16x1605632_S1605632x16_S16x16_1_0_0_1_n_n : DotDims S16x1605632 S1605632x16 S16x16 where
  lhsContracting := [1]
  rhsContracting := [0]
  lhsNonContracting := [0]
  rhsNonContracting := [1]
  lhsBatch := []
  rhsBatch := []
  wf := dot_S16x1605632_S1605632x16_S16x16_1_0_0_1_n_n_wf
def dot_S16x16_S16x16_S16x16_1_0_0_1_n_n : DotDims S16x16 S16x16 S16x16 where
  lhsContracting := [1]
  rhsContracting := [0]
  lhsNonContracting := [0]
  rhsNonContracting := [1]
  lhsBatch := []
  rhsBatch := []
  wf := dot_S16x16_S16x16_S16x16_1_0_0_1_n_n_wf
def dot_S16x16_S16x1605632_S16x1605632_1_0_0_1_n_n : DotDims S16x16 S16x1605632 S16x1605632 where
  lhsContracting := [1]
  rhsContracting := [0]
  lhsNonContracting := [0]
  rhsNonContracting := [1]
  lhsBatch := []
  rhsBatch := []
  wf := dot_S16x16_S16x1605632_S16x1605632_1_0_0_1_n_n_wf

class Facts : Prop extends Facts₀ where

variable [Facts]
-- ==== Proof.Spec.lean ====
/-
  The mathematics of group whitening, stated once for both programs, over the extended reals.

  The input `x` is an array [32, 256, 56, 56]. Its 256 channels are read as 16 blocks of 16: channel `16·o + g` is
  GROUP `g` of BLOCK `o`. A SAMPLE of group `g` is an entry `x[n, 16·o + g, h, w]`; there are 32·16·3136 = 1605632
  samples per group, indexed either by (n, o, k) with k = 56·h + w, or flat by j = (16·n + o)·3136 + k.

  * `gsum x g`      — the sum of group g's samples;
  * `gcross x g g'` — the sum over sample positions of the product of group g's and group g''s samples;
  * `covOfSums`     — from those two, mean = gsum / M and  gcross / M − mean ⊗ mean + ε·I  (M = 1605632), as the
                       host operations spell it;
  * `ns`            — ten Newton–Schulz trips  T = ½(3I − Z·Y), Y ← Y·T, Z ← T·Z  from Y = A/‖A‖, Z = I, and the result
                       Z/√‖A‖, as the host operations spell them (‖A‖ the Frobenius norm);
  * `whiten`        — the output: at (n, c, h, w), with c = 16·o + g,
                       (∑_{g'} D[g, g'] · (x[n, 16·o + g', h, w] − mean[g'])) · weight[c] + bias[c].
-/
import Idealize.ShloMosaic.PureOps.Ideal
import Idealize.ShloMosaic.PureOps.Ideal.Laws
import Idealize.ShloMosaic.Lib.ValueIdx

noncomputable section

namespace Cert.GroupWhiten

open Idealize.ShloMosaic Idealize.ShloMosaic.ValueIdx

abbrev SX : Shape := ⟨4, ![32, 256, 56, 56]⟩
abbrev SW : Shape := ⟨4, ![1, 256, 1, 1]⟩
abbrev SG : Shape := ⟨2, ![16, 16]⟩
abbrev SRow : Shape := ⟨2, ![1, 16]⟩
abbrev SCol : Shape := ⟨2, ![16, 1]⟩
abbrev SV : Shape := ⟨1, ![16]⟩
abbrev S0 : Shape := ⟨0, ![]⟩

/-! ## Samples of a group -/

/-- Channel `16·o + g`: group `g` of block `o`. -/
def chan (o g : Fin 16) : Fin 256 := ⟨16 * o.val + g.val, by have := o.isLt; have := g.isLt; omega⟩

/-- The row and the column of position `k` of a 56×56 image stored row by row. -/
def rowOf (k : Fin 3136) : Fin 56 := ⟨k.val / 56, by have := k.isLt; omega⟩
def colOf (k : Fin 3136) : Fin 56 := ⟨k.val % 56, Nat.mod_lt _ (by decide)⟩

/-- Group `g`'s sample at image `n`, block `o`, position `k`. -/
def samp (x : SX.Idx → EReal) (g : Fin 16) (n : Fin 32) (o : Fin 16) (k : Fin 3136) : EReal :=
  x (ix4 n (chan o g) (rowOf k) (colOf k))

/-- The flat position of sample (n, o, k): `(16·n + o)·3136 + k`. -/
def flat (n : Fin 32) (o : Fin 16) (k : Fin 3136) : Fin 1605632 :=
  ⟨(16 * n.val + o.val) * 3136 + k.val, by have := n.isLt; have := o.isLt; have := k.isLt; omega⟩

/-- Group `g`'s sample at flat position `j`. -/
def fsamp (x : SX.Idx → EReal) (g : Fin 16) (j : Fin 1605632) : EReal :=
  x (ix4 (⟨j.val / 50176, by have := j.isLt; omega⟩ : Fin 32)
         (⟨16 * (j.val / 3136 % 16) + g.val, by have := g.isLt; have : j.val / 3136 % 16 < 16 := Nat.mod_lt _ (by decide); omega⟩ : Fin 256)
         (⟨j.val / 56 % 56, Nat.mod_lt _ (by decide)⟩ : Fin 56)
         (⟨j.val % 56, Nat.mod_lt _ (by decide)⟩ : Fin 56))

/-- The sum of group `g`'s samples. -/
def gsum (x : SX.Idx → EReal) (g : Fin 16) : EReal := ∑ o : Fin 16, ∑ n : Fin 32, ∑ k : Fin 3136, samp x g n o k

/-- The sum over sample positions of the products of two groups' samples. -/
def gcross (x : SX.Idx → EReal) (g g' : Fin 16) : EReal :=
  ∑ o : Fin 16, ∑ n : Fin 32, ∑ k : Fin 3136, samp x g n o k * samp x g' n o k

/-- The two sums as the arrays the first pass leaves: a [1,16] row and a [16,16] matrix. -/
def sumRow (x : SX.Idx → EReal) : SRow.Idx → EReal := fun i => gsum x (i 1)
def crossMat (x : SX.Idx → EReal) : SG.Idx → EReal := fun i => gcross x (i 0) (i 1)

/-! ## The host operations between the two passes, as functions of vectors at the ideal values -/

theorem bc0 : S0.BroadcastsInDim SG (![] : Fin 0 → Fin SG.rank) := by decide
theorem bc0v : S0.BroadcastsInDim SV (![] : Fin 0 → Fin SV.rank) := by decide
theorem bcVCol : SV.BroadcastsInDim SCol (![0] : Fin 1 → Fin SCol.rank) := by decide
theorem bcVRow : SV.BroadcastsInDim SRow (![1] : Fin 1 → Fin SRow.rank) := by decide
theorem bcColG : SCol.BroadcastsInDim SG (![0, 1] : Fin 2 → Fin SG.rank) := by decide
theorem bcRowG : SRow.BroadcastsInDim SG (![0, 1] : Fin 2 → Fin SG.rank) := by decide
theorem castRowV : SRow.ShapeCasts SV := by decide
theorem castVRow : SV.ShapeCasts SRow := by decide
theorem redG0 : SG.ReducesTo [0, 1] S0 := by decide
theorem pos0 : 0 < S0.numel := by decide
theorem dotGG_wf : DotDims.WF SG SG SG [1] [0] [0] [1] [] [] := by decide

/-- The plain 16×16 matrix product's dimension numbers. -/
def dotGG : DotDims SG SG SG where
  lhsContracting := [1]
  rhsContracting := [0]
  lhsNonContracting := [0]
  rhsNonContracting := [1]
  lhsBatch := []
  rhsBatch := []
  wf := dotGG_wf

/-- A 16×16 matrix filled with the f32 of pattern `b`. -/
def splat (b : BitVec 32) : FVec Ideal SG .f32 := broadcastInDim SG ![] bc0 (constant (F := Ideal) S0 .f32 b)

/-- The 16×16 identity as jnp.eye lowers it: 1 where the row index equals the column index. -/
def eye : FVec Ideal SG .f32 :=
  uitofp .f32 (cmpi .eq (addi (iotaInDim SG 32 0) (broadcastInDim SG ![] bc0 (constantI S0 32 0#32))) (iotaInDim SG 32 1))

/-- The 16×16 matrix product on the host. -/
def mm (A B : FVec Ideal SG .f32) : FVec Ideal SG .f32 := Host.dotGeneral (F := Ideal) dotGG none A B

/-- The mean per group from the row of sums: the row read as a vector, divided by M = 1605632 (pattern 0x49C40000). -/
def meanVec (s : FVec Ideal SRow .f32) : FVec Ideal SV .f32 :=
  Host.divf (F := Ideal) (shapeCast SV s castRowV) (broadcastInDim SV ![] bc0v (constant (F := Ideal) S0 .f32 0x49C40000#32))

/-- The mean as the [1,16] row the second pass reads. -/
def meanRow (s : FVec Ideal SRow .f32) : FVec Ideal SRow .f32 := shapeCast SRow (meanVec s) castVRow

/-- The covariance from the two sums:  q / M − mean ⊗ mean + ε·I  (ε the f32 pattern 0x3727C5AC). -/
def covOfSums (s : FVec Ideal SRow .f32) (q : FVec Ideal SG .f32) : FVec Ideal SG .f32 :=
  addf (subf (Host.divf (F := Ideal) q (splat 0x49C40000#32))
          (mulf (broadcastInDim SG ![0, 1] bcColG (broadcastInDim SCol ![0] bcVCol (meanVec s)))
                (broadcastInDim SG ![0, 1] bcRowG (broadcastInDim SRow ![1] bcVRow (meanVec s)))))
       (mulf (splat 0x3727C5AC#32) eye)

/-- The Frobenius norm: the square root of the sum of the squares of all entries. -/
def frob (A : FVec Ideal SG .f32) : FVec Ideal S0 .f32 :=
  Host.sqrt (F := Ideal) (Host.reduceAdd (F := Ideal) (mulf A A) (constant (F := Ideal) S0 .f32 0x00000000#32) redG0 pos0)

/-- One Newton–Schulz trip's three products, over an identity `I` given as a parameter:
    T = ½ (3·I − Z·Y),  Y' = Y·T,  Z' = T·Z. -/
def nsT (I Y Z : FVec Ideal SG .f32) : FVec Ideal SG .f32 :=
  mulf (splat 0x3F000000#32) (subf (mulf (splat 0x40400000#32) I) (mm Z Y))
def nsY (I Y Z : FVec Ideal SG .f32) : FVec Ideal SG .f32 := mm Y (nsT I Y Z)
def nsZ (I Y Z : FVec Ideal SG .f32) : FVec Ideal SG .f32 := mm (nsT I Y Z) Z

/-- `k` trips from (Y, Z). -/
def nsIter (I : FVec Ideal SG .f32) : ℕ → FVec Ideal SG .f32 × FVec Ideal SG .f32 → FVec Ideal SG .f32 × FVec Ideal SG .f32
  | 0, p => p
  | k + 1, p => (nsY I (nsIter I k p).1 (nsIter I k p).2, nsZ I (nsIter I k p).1 (nsIter I k p).2)

/-- The start: Y₀ = A / ‖A‖ (the norm broadcast to the matrix). -/
def nsStart (A : FVec Ideal SG .f32) : FVec Ideal SG .f32 :=
  Host.divf (F := Ideal) A (broadcastInDim SG ![] bc0 (frob A))

/-- The end: Z / √‖A‖. -/
def nsFinish (A Z : FVec Ideal SG .f32) : FVec Ideal SG .f32 :=
  Host.divf (F := Ideal) Z (broadcastInDim SG ![] bc0 (Host.sqrt (F := Ideal) (frob A)))

/-- Ten trips: the inverse square root the programs apply. -/
def ns (A : FVec Ideal SG .f32) : FVec Ideal SG .f32 := nsFinish A (nsIter eye 10 (nsStart A, eye)).2

/-! ## The output -/

/-- The block and the group of channel `c`. -/
def blockOf (c : Fin 256) : Fin 16 := ⟨c.val / 16, by have := c.isLt; omega⟩
def groupOf (c : Fin 256) : Fin 16 := ⟨c.val % 16, Nat.mod_lt _ (by decide)⟩

/-- The whitened, scaled and shifted output from the mean per group `mu` and the 16×16 matrix `D`. -/
def whiten (x : SX.Idx → EReal) (mu : Fin 16 → EReal) (D : SG.Idx → EReal) (w b : SW.Idx → EReal) : SX.Idx → EReal :=
  fun p => (∑ g' : Fin 16, D (ix2 (groupOf (p 1)) g') * (x (ix4 (p 0) (chan (blockOf (p 1)) g') (p 2) (p 3)) - mu g'))
    * w (ix4 (0 : Fin 1) (p 1) (0 : Fin 1) (0 : Fin 1)) + b (ix4 (0 : Fin 1) (p 1) (0 : Fin 1) (0 : Fin 1))

end Cert.GroupWhiten

end
-- ==== Proof.KRun.lean ====
/-
  The idealized kernel's run with its result array named. Every weakly fair execution of @main terminates; the
  final memory holds, at the result buffer, what the second pass's write-backs leave (the contents `W5` at that buffer:
  the fold of both passes and of the host operations between them from the launch memory), and the three argument
  arrays as launched. The two passes and the host stretches are run as the segments of @main, each pass through its
  proof data over the contents it is entered from.
-/
import proofs.«155110_j49271864820158_1_alg».proof.Proof.Gen.KernelIdeal.Frame

set_option maxRecDepth 16384

noncomputable section

namespace Cert.KernelIdeal.RunVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last boundary's contents, the arguments unchanged. -/
theorem run_out : θ_run defs (onTc (τ := τ) (main (F := F))) ⟨m, fun _ => 0, ρ⟩ (fun r => ∀ c : Dev nD,
      r.2.mem ((c.tc : Thread nD τ).loc main_v120) = W5 m ρ c (Proc.devRef .tc main_v120)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v120 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.RunVal

end
-- ==== Proof.KApplyPay.lean ====
/-
  The second pass's body at one element. From the block of `x` (32 images × 16 groups × 56 × 56), the row of means,
  the 16×16 matrix `D` and the block's 16 weights and biases, the stored value at (n, g, h, w) is
      (∑_{c} D[g, c] · (x[n, c, h, w] − mean[c])) · weight[g] + bias[g] :
  the block is read as [32, 16, 3136] (position 56·h + w), the mean is repeated along images and positions, `D` along
  images, and the batched matrix product over the 16 groups is a plain sum at the ideal values.
-/
import proofs.«155110_j49271864820158_1_alg».proof.Proof.Spec
import proofs.«155110_j49271864820158_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.ApplyVal

open Cert.KernelIdeal Cert.KernelIdeal.Gen Idealize.ShloMosaic Idealize.ShloMosaic.ValueIdx

/-- Position 56·h + w of a 56×56 image. -/
def pos (h w : Fin 56) : Fin 3136 := ⟨56 * h.val + w.val, by have := h.isLt; have := w.isLt; omega⟩

/-- The block read as [32, 16, 3136]: position k is row k / 56, column k % 56. -/
theorem cast_flat (x : FVec Ideal S32x16x56x56 .f32) (n : Fin 32) (g : Fin 16) (h w : Fin 56) :
    shapeCast S32x16x3136 x shapeCasts_S32x16x56x56_S32x16x3136 (ix3 n g (pos h w)) = x (ix4 n g h w) := by
  refine shapeCast_apply x _ (ix3 n g (pos h w)) (ix4 n g h w) ?_
  rw [Shape.rowMajor_val_four, Shape.rowMajor_val_three]
  show ((n.val * 16 + g.val) * 56 + h.val) * 56 + w.val = (n.val * 16 + g.val) * 3136 + (56 * h.val + w.val)
  omega

/-- And back: [32, 16, 3136] read as [32, 16, 56, 56]. -/
theorem cast_back (y : FVec Ideal S32x16x3136 .f32) (n : Fin 32) (g : Fin 16) (h w : Fin 56) :
    shapeCast S32x16x56x56 y shapeCasts_S32x16x3136_S32x16x56x56 (ix4 n g h w) = y (ix3 n g (pos h w)) := by
  refine shapeCast_apply y _ (ix4 n g h w) (ix3 n g (pos h w)) ?_
  rw [Shape.rowMajor_val_four, Shape.rowMajor_val_three]
  show (n.val * 16 + g.val) * 3136 + (56 * h.val + w.val) = ((n.val * 16 + g.val) * 56 + h.val) * 56 + w.val
  omega

/-- The row of means as a [1, 16, 1] column repeated over images and positions: at (n, c, k) it is mean[c]. -/
theorem mean_rep (x1 : FVec Ideal S1x16 .f32) (n : Fin 32) (c : Fin 16) (k : Fin 3136) :
    broadcastTo S32x16x3136 (shapeCast S1x16x1 (shapeCast S1x16 x1 shapeCasts_S1x16_S1x16) shapeCasts_S1x16_S1x16x1)
      broadcasts_S1x16x1_S32x16x3136 (ix3 n c k) = x1 (ix2 (0 : Fin 1) c) := by
  refine (broadcastTo_apply _ _ (ix3 n c k) (ix3 (0 : Fin 1) c (0 : Fin 1)) (fun a => by
    match a with
    | ⟨0, _⟩ => rfl
    | ⟨1, _⟩ => rfl
    | ⟨2, _⟩ => rfl)).trans ?_
  rw [shapeCast_self]
  refine shapeCast_apply x1 _ (ix3 (0 : Fin 1) c (0 : Fin 1)) (ix2 (0 : Fin 1) c) ?_
  rw [Shape.rowMajor_val_two, Shape.rowMajor_val_three]
  show 0 * 16 + c.val = (0 * 16 + c.val) * 1 + 0
  omega

/-- The matrix repeated over the images: at (n, g, c) it is D[g, c]. -/
theorem mat_rep (x2 : FVec Ideal S16x16 .f32) (n : Fin 32) (g c : Fin 16) :
    broadcastTo S32x16x16 (shapeCast S1x16x16 (shapeCast S1x16x16 (shapeCast S16x16 x2 shapeCasts_S16x16_S16x16) shapeCasts_S16x16_S1x16x16) shapeCasts_S1x16x16_S1x16x16)
      broadcasts_S1x16x16_S32x16x16 (ix3 n g c) = x2 (ix2 g c) := by
  refine (broadcastTo_apply _ _ (ix3 n g c) (ix3 (0 : Fin 1) g c) (fun a => by
    match a with
    | ⟨0, _⟩ => rfl
    | ⟨1, _⟩ => rfl
    | ⟨2, _⟩ => rfl)).trans ?_
  rw [shapeCast_self, shapeCast_self]
  refine shapeCast_apply x2 _ (ix3 (0 : Fin 1) g c) (ix2 g c) ?_
  rw [Shape.rowMajor_val_two, Shape.rowMajor_val_three]
  show g.val * 16 + c.val = (0 * 16 + g.val) * 16 + c.val
  omega

/-- A [1, 16, 1, 1] vector repeated over the block: at (n, g, h, w) it is the vector at g. -/
theorem chan_rep (x3 : FVec Ideal S1x16x1x1 .f32) (n : Fin 32) (g : Fin 16) (h w : Fin 56) :
    broadcastTo S32x16x56x56 x3 broadcasts_S1x16x1x1_S32x16x56x56 (ix4 n g h w) = x3 (ix4 (0 : Fin 1) g (0 : Fin 1) (0 : Fin 1)) :=
  broadcastTo_apply _ _ (ix4 n g h w) (ix4 (0 : Fin 1) g (0 : Fin 1) (0 : Fin 1)) (fun a => by
    match a with
    | ⟨0, _⟩ => rfl
    | ⟨1, _⟩ => rfl
    | ⟨2, _⟩ => rfl
    | ⟨3, _⟩ => rfl)

/-- The batched product's dimension numbers: batch axis 0, the left operand's axis 2 against the right operand's axis 1. -/
abbrev DB : DotDims S32x16x16 S32x16x3136 S32x16x3136 := dot_S32x16x16_S32x16x3136_S32x16x3136_2_1_1_2_0_0

theorem lhsB0 (i : S32x16x3136.Idx) (q : DB.contr.Idx) : (DB.lhsIdx i q 0).val = (i 0).val := by
  unfold DotDims.lhsIdx
  rw [dif_pos (show (0 : Fin S32x16x16.rank) ∈ DB.lhsBatch by decide)]
  rfl
theorem lhsB1 (i : S32x16x3136.Idx) (q : DB.contr.Idx) : (DB.lhsIdx i q 1).val = (i 1).val := by
  unfold DotDims.lhsIdx
  rw [dif_neg (show ¬(1 : Fin S32x16x16.rank) ∈ DB.lhsBatch by decide), dif_pos (show (1 : Fin S32x16x16.rank) ∈ DB.lhsNonContracting by decide)]
  rfl
theorem lhsB2 (i : S32x16x3136.Idx) (q : DB.contr.Idx) : (DB.lhsIdx i q 2).val = (q ⟨0, by decide⟩).val :=
  DB.lhsIdx_val_of_single rfl i q
theorem rhsB0 (i : S32x16x3136.Idx) (q : DB.contr.Idx) : (DB.rhsIdx i q 0).val = (i 0).val := by
  unfold DotDims.rhsIdx
  rw [dif_pos (show (0 : Fin S32x16x3136.rank) ∈ DB.rhsBatch by decide)]
  rfl
theorem rhsB1 (i : S32x16x3136.Idx) (q : DB.contr.Idx) : (DB.rhsIdx i q 1).val = (q ⟨0, by decide⟩).val :=
  DB.rhsIdx_val_of_single rfl i q
theorem rhsB2 (i : S32x16x3136.Idx) (q : DB.contr.Idx) : (DB.rhsIdx i q 2).val = (i 2).val := by
  unfold DotDims.rhsIdx
  rw [dif_neg (show ¬(2 : Fin S32x16x3136.rank) ∈ DB.rhsBatch by decide), dif_pos (show (2 : Fin S32x16x3136.rank) ∈ DB.rhsNonContracting by decide)]
  rfl

/-- The batched product into a zero tile at (n, g, k): the sum over the 16 groups c of L[n, g, c] · R[n, c, k]. -/
theorem bmm_apply (L : FVec Ideal S32x16x16 .f32) (R : FVec Ideal S32x16x3136 .f32) (n : Fin 32) (g : Fin 16) (k : Fin 3136) :
    matmul DB none L R (constant S32x16x3136 .f32 0x00000000#32) (ix3 n g k) = ∑ c : Fin 16, L (ix3 n g c) * R (ix3 n c k) := by
  refine (Ideal.matmul_constant_zero_apply DB none L R (ix3 n g k)).trans ?_
  rw [← Equiv.sum_comp (contrEquiv1 DB 16 rfl rfl).symm]
  refine Finset.sum_congr rfl fun c _ => ?_
  have hk := contrEquiv1_symm_val DB 16 rfl rfl c
  have el : DB.lhsIdx (ix3 n g k) ((contrEquiv1 DB 16 rfl rfl).symm c) = ix3 n g c := funext fun a => Fin.ext (by
    match a with
    | ⟨0, _⟩ => exact lhsB0 _ _
    | ⟨1, _⟩ => exact lhsB1 _ _
    | ⟨2, _⟩ => exact (lhsB2 _ _).trans hk)
  have er : DB.rhsIdx (ix3 n g k) ((contrEquiv1 DB 16 rfl rfl).symm c) = ix3 n c k := funext fun a => Fin.ext (by
    match a with
    | ⟨0, _⟩ => exact rhsB0 _ _
    | ⟨1, _⟩ => exact (rhsB1 _ _).trans hk
    | ⟨2, _⟩ => exact rhsB2 _ _)
  rw [el, er]

/-- The body's stored value at (n, g, h, w). -/
theorem pay_apply (x0 : FVec Ideal S32x16x56x56 .f32) (x1 : FVec Ideal S1x16 .f32) (x2 : FVec Ideal S16x16 .f32)
    (x3 x4 : FVec Ideal S1x16x1x1 .f32) (n : Fin 32) (g : Fin 16) (h w : Fin 56) :
    k1_pay1 x0 x1 x2 x3 x4 (ix4 n g h w)
      = (∑ c : Fin 16, x2 (ix2 g c) * (x0 (ix4 n c h w) - x1 (ix2 (0 : Fin 1) c)))
          * x3 (ix4 (0 : Fin 1) g (0 : Fin 1) (0 : Fin 1)) + x4 (ix4 (0 : Fin 1) g (0 : Fin 1) (0 : Fin 1)) := by
  unfold k1_pay1
  refine (addf_apply _ _ _).trans ?_
  refine congrArg₂ (· + ·) ?_ (chan_rep x4 n g h w)
  refine (mulf_apply _ _ _).trans ?_
  refine congrArg₂ (· * ·) ?_ (chan_rep x3 n g h w)
  refine (cast_back _ n g h w).trans ?_
  refine (bmm_apply _ _ n g (pos h w)).trans ?_
  refine Finset.sum_congr rfl fun c _ => ?_
  refine congrArg₂ (· * ·) (mat_rep x2 n g c) ?_
  refine (subf_apply _ _ _).trans ?_
  exact congrArg₂ (· - ·) (cast_flat x0 n c h w) (mean_rep x1 n c (pos h w))

end Cert.KernelIdeal.ApplyVal

end
-- ==== Proof.KApply.lean ====
/-
  The second pass's result array as one function of the arrays the pass is entered with. Point `t` of its grid of
  16 handles channels 16·t … 16·t + 15 of every image: its blocks of `x`, weight, bias and of the result sit at block
  index (0, t, 0, 0), the row of means and the matrix at (0, 0). What point `t` writes back is block `t` of
  `whiten x mean D weight bias`; the 16 blocks tile the array (channel c is in block c / 16), so the array ends holding
  that function.
-/
import proofs.«155110_j49271864820158_1_alg».proof.Proof.KApplyPay
import proofs.«155110_j49271864820158_1_alg».proof.Proof.Gen.KernelIdeal.Frame
import Idealize.ShloMosaic.Lib.Pipeline.Value

set_option maxRecDepth 16384

noncomputable section

namespace Cert.KernelIdeal.ApplyVal

open Cert.KernelIdeal Cert.KernelIdeal.Gen Idealize.ShloMosaic Idealize.ShloMosaic.TcCoe Idealize.ShloMosaic.ValueIdx Cert.GroupWhiten
open Idealize.ShloMosaic.Pipeline (Dat)

variable (V : (c : Dev nD) → (b : Ref sig .tc) → Buf (Elt Ideal) ((c : Thread nD τ).loc b))

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The whole result as one function of the arrays the pass is entered with. -/
def G (c : Dev nD) : S32x256x56x56.Idx → EReal :=
  whiten (V c main_arg0) (fun g => V c main_v119 (ix2 (0 : Fin 1) g)) (V c main_v118) (V c main_arg1) (V c main_arg2)

/-- A grid point as a block number below 16. -/
def tb (t : Fin cfg1.N) : Fin 16 := ⟨t.val, lt_of_lt_of_eq t.isLt N_1⟩

/-- The index maps, decided over the grid: the blocks of `x`, weight, bias and the result move along the channel axis
    with the point; the means and the matrix stay. -/
theorem idx_facts : ∀ t : Fin cfg1.N,
    (win1_0.index t (0 : Fin 4) = 0 ∧ win1_0.index t (1 : Fin 4) = t.val ∧ win1_0.index t (2 : Fin 4) = 0 ∧ win1_0.index t (3 : Fin 4) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 4) = 0 ∧ win1_3.index t (1 : Fin 4) = t.val ∧ win1_3.index t (2 : Fin 4) = 0 ∧ win1_3.index t (3 : Fin 4) = 0)
    ∧ (win1_4.index t (0 : Fin 4) = 0 ∧ win1_4.index t (1 : Fin 4) = t.val ∧ win1_4.index t (2 : Fin 4) = 0 ∧ win1_4.index t (3 : Fin 4) = 0)
    ∧ (win1_5.index t (0 : Fin 4) = 0 ∧ win1_5.index t (1 : Fin 4) = t.val ∧ win1_5.index t (2 : Fin 4) = 0 ∧ win1_5.index t (3 : Fin 4) = 0) :=
  (by decide +kernel : ∀ t : Fin grid1.N, _)

/-- The block of `x` at point `t`: channel g of the block is channel 16·t + g of the array. -/
theorem blk_x (c : Dev nD) (t : Fin cfg1.N) (n : Fin 32) (g : Fin 16) (h w : Fin 56) :
    iblk1 V c 0 t (ix4 n g h w) = V c main_arg0 (ix4 n (chan (tb t) g) h w) := by
  obtain ⟨⟨e0, e1, e2, e3⟩, -⟩ := idx_facts t
  unfold iblk1
  rw [View.read_apply]
  show V c main_arg0 (((cfg1.win 0).blk t).view.emb (ix4 n g h w)) = V c main_arg0 (ix4 n (chan (tb t) g) h w)
  refine congrArg (V c main_arg0) (funext fun a => Fin.ext ?_)
  match a with
  | ⟨0, _⟩ => show win1_0.index t (0 : Fin 4) * 32 + 1 * n.val = n.val; omega
  | ⟨1, _⟩ => show win1_0.index t (1 : Fin 4) * 16 + 1 * g.val = 16 * t.val + g.val; omega
  | ⟨2, _⟩ => show win1_0.index t (2 : Fin 4) * 56 + 1 * h.val = h.val; omega
  | ⟨3, _⟩ => show win1_0.index t (3 : Fin 4) * 56 + 1 * w.val = w.val; omega

/-- The row of means is read whole at every point. -/
theorem blk_mean (c : Dev nD) (t : Fin cfg1.N) (g : Fin 16) :
    iblk1 V c 1 t (ix2 (0 : Fin 1) g) = V c main_v119 (ix2 (0 : Fin 1) g) := by
  obtain ⟨-, ⟨e0, e1⟩, -⟩ := idx_facts t
  unfold iblk1
  rw [View.read_apply]
  show V c main_v119 (((cfg1.win 1).blk t).view.emb (ix2 (0 : Fin 1) g)) = V c main_v119 (ix2 (0 : Fin 1) g)
  refine congrArg (V c main_v119) (funext fun a => Fin.ext ?_)
  match a with
  | ⟨0, _⟩ => show win1_1.index t (0 : Fin 2) * 1 + 1 * 0 = 0; omega
  | ⟨1, _⟩ => show win1_1.index t (1 : Fin 2) * 16 + 1 * g.val = g.val; omega

/-- The matrix is read whole at every point. -/
theorem blk_mat (c : Dev nD) (t : Fin cfg1.N) (g g' : Fin 16) :
    iblk1 V c 2 t (ix2 g g') = V c main_v118 (ix2 g g') := by
  obtain ⟨-, -, ⟨e0, e1⟩, -⟩ := idx_facts t
  unfold iblk1
  rw [View.read_apply]
  show V c main_v118 (((cfg1.win 2).blk t).view.emb (ix2 g g')) = V c main_v118 (ix2 g g')
  refine congrArg (V c main_v118) (funext fun a => Fin.ext ?_)
  match a with
  | ⟨0, _⟩ => show win1_2.index t (0 : Fin 2) * 16 + 1 * g.val = g.val; omega
  | ⟨1, _⟩ => show win1_2.index t (1 : Fin 2) * 16 + 1 * g'.val = g'.val; omega

/-- The block of weights at point `t`. -/
theorem blk_w (c : Dev nD) (t : Fin cfg1.N) (g : Fin 16) :
    iblk1 V c 3 t (ix4 (0 : Fin 1) g (0 : Fin 1) (0 : Fin 1)) = V c main_arg1 (ix4 (0 : Fin 1) (chan (tb t) g) (0 : Fin 1) (0 : Fin 1)) := by
  obtain ⟨-, -, -, ⟨e0, e1, e2, e3⟩, -⟩ := idx_facts t
  unfold iblk1
  rw [View.read_apply]
  show V c main_arg1 (((cfg1.win 3).blk t).view.emb (ix4 (0 : Fin 1) g (0 : Fin 1) (0 : Fin 1))) = V c main_arg1 (ix4 (0 : Fin 1) (chan (tb t) g) (0 : Fin 1) (0 : Fin 1))
  refine congrArg (V c main_arg1) (funext fun a => Fin.ext ?_)
  match a with
  | ⟨0, _⟩ => show win1_3.index t (0 : Fin 4) * 1 + 1 * 0 = 0; omega
  | ⟨1, _⟩ => show win1_3.index t (1 : Fin 4) * 16 + 1 * g.val = 16 * t.val + g.val; omega
  | ⟨2, _⟩ => show win1_3.index t (2 : Fin 4) * 1 + 1 * 0 = 0; omega
  | ⟨3, _⟩ => show win1_3.index t (3 : Fin 4) * 1 + 1 * 0 = 0; omega

/-- The block of biases at point `t`. -/
theorem blk_b (c : Dev nD) (t : Fin cfg1.N) (g : Fin 16) :
    iblk1 V c 4 t (ix4 (0 : Fin 1) g (0 : Fin 1) (0 : Fin 1)) = V c main_arg2 (ix4 (0 : Fin 1) (chan (tb t) g) (0 : Fin 1) (0 : Fin 1)) := by
  obtain ⟨-, -, -, -, ⟨e0, e1, e2, e3⟩, -⟩ := idx_facts t
  unfold iblk1
  rw [View.read_apply]
  show V c main_arg2 (((cfg1.win 4).blk t).view.emb (ix4 (0 : Fin 1) g (0 : Fin 1) (0 : Fin 1))) = V c main_arg2 (ix4 (0 : Fin 1) (chan (tb t) g) (0 : Fin 1) (0 : Fin 1))
  refine congrArg (V c main_arg2) (funext fun a => Fin.ext ?_)
  match a with
  | ⟨0, _⟩ => show win1_4.index t (0 : Fin 4) * 1 + 1 * 0 = 0; omega
  | ⟨1, _⟩ => show win1_4.index t (1 : Fin 4) * 16 + 1 * g.val = 16 * t.val + g.val; omega
  | ⟨2, _⟩ => show win1_4.index t (2 : Fin 4) * 1 + 1 * 0 = 0; omega
  | ⟨3, _⟩ => show win1_4.index t (3 : Fin 4) * 1 + 1 * 0 = 0; omega

theorem group_chan (o g : Fin 16) : groupOf (chan o g) = g := Fin.ext (by
  show (16 * o.val + g.val) % 16 = g.val
  have := g.isLt; omega)
theorem block_chan (o g : Fin 16) : blockOf (chan o g) = o := Fin.ext (by
  show (16 * o.val + g.val) / 16 = o.val
  have := g.isLt; omega)

/-- The output function at channel 16·o + g: the group is g, the block is o. -/
theorem whiten_chan (x : SX.Idx → EReal) (mu : Fin 16 → EReal) (D : SG.Idx → EReal) (wt bs : SW.Idx → EReal)
    (o g : Fin 16) (n : Fin 32) (h w : Fin 56) :
    whiten x mu D wt bs (ix4 n (chan o g) h w)
      = (∑ g' : Fin 16, D (ix2 g g') * (x (ix4 n (chan o g') h w) - mu g'))
          * wt (ix4 (0 : Fin 1) (chan o g) (0 : Fin 1) (0 : Fin 1)) + bs (ix4 (0 : Fin 1) (chan o g) (0 : Fin 1) (0 : Fin 1)) := by
  unfold whiten
  show (∑ g' : Fin 16, D (ix2 (groupOf (chan o g)) g') * (x (ix4 n (chan (blockOf (chan o g)) g') h w) - mu g'))
      * wt (ix4 (0 : Fin 1) (chan o g) (0 : Fin 1) (0 : Fin 1)) + bs (ix4 (0 : Fin 1) (chan o g) (0 : Fin 1) (0 : Fin 1)) = _
  rw [group_chan, block_chan]

/-- Where the result's block at point `t` sits in the array. -/
theorem emb_out (t : Fin cfg1.N) (n : Fin 32) (g : Fin 16) (h w : Fin 56) :
    ((cfg1.win 5).blk t).view.emb (ix4 n g h w) = ix4 n (chan (tb t) g) h w := by
  obtain ⟨-, -, -, -, -, ⟨e0, e1, e2, e3⟩⟩ := idx_facts t
  refine funext fun a => Fin.ext ?_
  match a with
  | ⟨0, _⟩ => show win1_5.index t (0 : Fin 4) * 32 + 1 * n.val = n.val; omega
  | ⟨1, _⟩ => show win1_5.index t (1 : Fin 4) * 16 + 1 * g.val = 16 * t.val + g.val; omega
  | ⟨2, _⟩ => show win1_5.index t (2 : Fin 4) * 56 + 1 * h.val = h.val; omega
  | ⟨3, _⟩ => show win1_5.index t (3 : Fin 4) * 56 + 1 * w.val = w.val; omega

/-- What point `t` writes back is block `t` of the whole-array function. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz4]
  simp only [View.ld_unit_zero (S := S32x16x56x56) hz4, View.ld_unit_zero (S := S1x16) hz2, View.ld_unit_zero (S := S16x16) hz2,
    View.ld_unit_zero (S := S1x16x1x1) hz4]
  funext y
  obtain ⟨n, g, h, w, rfl⟩ : ∃ (n : Fin 32) (g : Fin 16) (h w : Fin 56), y = ix4 n g h w := ⟨y 0, y 1, y 2, y 3, eq_ix4 y⟩
  refine (pay_apply _ _ _ _ _ n g h w).trans ?_
  rw [View.read_apply]
  show _ = G V c (((cfg1.win 5).blk t).view.emb (ix4 n g h w))
  rw [emb_out t n g h w]
  unfold G
  rw [whiten_chan, blk_w V c t g, blk_b V c t g]
  refine congrArg₂ (· + ·) (congrArg₂ (· * ·) (Finset.sum_congr rfl fun g' _ => ?_) rfl) rfl
  rw [blk_mat V c t g g', blk_x V c t n g' h w, blk_mean V c t g']

/-- Every element of the array is in the block of the point its channel's block names. -/
theorem cover (i : S32x256x56x56.Idx) :
    ∃ t : Fin cfg1.N, (cfg1.win 5).flush t = true ∧ i ∈ ((cfg1.win 5).blk t).view.set := by
  have h0 : (i 0).val < 32 := (i 0).isLt
  have h1 : (i 1).val < 256 := (i 1).isLt
  have h2 : (i 2).val < 56 := (i 2).isLt
  have h3 : (i 3).val < 56 := (i 3).isLt
  have hN : cfg1.N = 16 := N_1
  let t : Fin cfg1.N := ⟨(i 1).val / 16, by rw [hN]; omega⟩
  obtain ⟨-, -, -, -, -, ⟨e0, e1, e2, e3⟩⟩ := idx_facts t
  refine ⟨t, flush1_5 t, ?_⟩
  show i ∈ ((View.whole main_v120).slice (win1_5.rect t)).set
  rw [View.set_slice_whole, Rect.mem_set_unit]
  intro a
  match a with
  | ⟨0, _⟩ => show win1_5.index t (0 : Fin 4) * 32 ≤ (i 0).val ∧ (i 0).val < win1_5.index t (0 : Fin 4) * 32 + 32; omega
  | ⟨1, _⟩ => show win1_5.index t (1 : Fin 4) * 16 ≤ (i 1).val ∧ (i 1).val < win1_5.index t (1 : Fin 4) * 16 + 16
              have : (t : Fin cfg1.N).val = (i 1).val / 16 := rfl
              omega
  | ⟨2, _⟩ => show win1_5.index t (2 : Fin 4) * 56 ≤ (i 2).val ∧ (i 2).val < win1_5.index t (2 : Fin 4) * 56 + 56; omega
  | ⟨3, _⟩ => show win1_5.index t (3 : Fin 4) * 56 ≤ (i 3).val ∧ (i 3).val < win1_5.index t (3 : Fin 4) * 56 + 56; omega

/-- The result array after the second pass. -/
theorem final_out (c : Dev nD) : (dat1 V c).arrAt 5 cfg1.N = G V c :=
  (dat1 V c).arrAt_eq_of_cover 5 (G V c) (fun t _ => flushed_eq V c t) (cover)

end Cert.KernelIdeal.ApplyVal

end
-- ==== Proof.KHostA.lean ====
/-
  The first stretch of host operations between the two passes (24 operations), read at the buffers the later
  stretches use: from the row of sums and the matrix of cross sums it leaves the mean per group (a vector of 16) and
  the covariance  q / M − mean ⊗ mean + ε·I.  Stated for any contents W before the stretch.
-/
import proofs.«155110_j49271864820158_1_alg».proof.Proof.Spec
import proofs.«155110_j49271864820158_1_alg».proof.Proof.Gen.KernelIdeal.Launch

set_option maxRecDepth 2144

noncomputable section

namespace Cert.KernelIdeal.HostVal

open Idealize.ShloMosaic Idealize.ShloMosaic.ValueIdx Cert.GroupWhiten
open Cert.KernelIdeal Cert.KernelIdeal.Gen Idealize.ShloMosaic.StableHlo Idealize.ShloMosaic.TcCoe

variable (W : Valuation τ sig (Elt Ideal))

/-- The mean per group: the row of sums read as a vector, divided by M. -/
theorem ops1_mean : (after (hostOps1 (F := Ideal)) W (Proc.devRef .tc main_v3) : FVec Ideal S16 .f32)
    = meanVec (W (Proc.devRef .tc main_v0_0)) := by
  after_results_simp
  rfl

/-- The covariance from the two sums. -/
theorem ops1_cov : (after (hostOps1 (F := Ideal)) W (Proc.devRef .tc main_v20) : FVec Ideal S16x16 .f32)
    = covOfSums (W (Proc.devRef .tc main_v0_0)) (W (Proc.devRef .tc main_v0_1)) := by
  after_results_simp
  rfl

/-- The stretch leaves the first argument as it was. -/
theorem ops1_arg0 : after (hostOps1 (F := Ideal)) W (Proc.devRef .tc main_arg0) = W (Proc.devRef .tc main_arg0) := by
  after_results_simp

/-- The stretch leaves the second argument as it was. -/
theorem ops1_arg1 : after (hostOps1 (F := Ideal)) W (Proc.devRef .tc main_arg1) = W (Proc.devRef .tc main_arg1) := by
  after_results_simp

/-- The stretch leaves the third argument as it was. -/
theorem ops1_arg2 : after (hostOps1 (F := Ideal)) W (Proc.devRef .tc main_arg2) = W (Proc.devRef .tc main_arg2) := by
  after_results_simp

end Cert.KernelIdeal.HostVal

end
-- ==== Proof.KHostB.lean ====
/-
  The second stretch (4 operations, the called function that takes the Frobenius norm): from the matrix A it leaves
  the square root of the sum of the squares of A's entries. Stated for any contents W before the stretch.
-/
import proofs.«155110_j49271864820158_1_alg».proof.Proof.Spec
import proofs.«155110_j49271864820158_1_alg».proof.Proof.Gen.KernelIdeal.Launch

set_option maxRecDepth 2144

noncomputable section

namespace Cert.KernelIdeal.HostVal

open Idealize.ShloMosaic Idealize.ShloMosaic.ValueIdx Cert.GroupWhiten
open Cert.KernelIdeal Cert.KernelIdeal.Gen Idealize.ShloMosaic.StableHlo Idealize.ShloMosaic.TcCoe

variable (W : Valuation τ sig (Elt Ideal))

/-- The Frobenius norm of the matrix the stretch reads. -/
theorem ops2_frob : (after (hostOps1_1 (F := Ideal)) W (Proc.devRef .tc main_v21) : FVec Ideal S_ .f32)
    = frob (W (Proc.devRef .tc main_v20)) := by
  after_results_simp
  rfl

/-- The stretch leaves the covariance as it was. -/
theorem ops2_v20 : after (hostOps1_1 (F := Ideal)) W (Proc.devRef .tc main_v20) = W (Proc.devRef .tc main_v20) := by
  after_results_simp

/-- The stretch leaves the mean vector as it was. -/
theorem ops2_v3 : after (hostOps1_1 (F := Ideal)) W (Proc.devRef .tc main_v3) = W (Proc.devRef .tc main_v3) := by
  after_results_simp

/-- The stretch leaves the first argument as it was. -/
theorem ops2_arg0 : after (hostOps1_1 (F := Ideal)) W (Proc.devRef .tc main_arg0) = W (Proc.devRef .tc main_arg0) := by
  after_results_simp

/-- The stretch leaves the second argument as it was. -/
theorem ops2_arg1 : after (hostOps1_1 (F := Ideal)) W (Proc.devRef .tc main_arg1) = W (Proc.devRef .tc main_arg1) := by
  after_results_simp

/-- The stretch leaves the third argument as it was. -/
theorem ops2_arg2 : after (hostOps1_1 (F := Ideal)) W (Proc.devRef .tc main_arg2) = W (Proc.devRef .tc main_arg2) := by
  after_results_simp

end Cert.KernelIdeal.HostVal

end
-- ==== Proof.KHostC.lean ====
/-
  The third stretch of host operations (120 operations) cut into consecutive segments: the contents after the whole
  stretch are the contents after its segments one by one, and a buffer no operation of the stretch writes keeps its
  contents through every segment.
-/
import proofs.«155110_j49271864820158_1_alg».proof.Proof.Spec
import proofs.«155110_j49271864820158_1_alg».proof.Proof.Gen.KernelIdeal.Frame

set_option maxRecDepth 2144

noncomputable section

namespace Cert.KernelIdeal.HostVal

open Idealize.ShloMosaic Idealize.ShloMosaic.ValueIdx Cert.GroupWhiten
open Cert.KernelIdeal Cert.KernelIdeal.Gen Idealize.ShloMosaic.StableHlo Idealize.ShloMosaic.TcCoe

variable (W : Valuation τ sig (Elt Ideal))

/-- Operations `i, …, i + n − 1` of the third stretch. -/
def seg (i n : ℕ) : List (HloOp τ sig (Elt Ideal)) := ((hostOps1_2 (F := Ideal)).drop i).take n

/-- The contents after the operations from `i` on are those after the operations from `i + n` on, started from the
    contents after operations `i, …, i + n − 1`. -/
theorem after_cut (i n : ℕ) :
    after ((hostOps1_2 (F := Ideal)).drop i) W = after ((hostOps1_2 (F := Ideal)).drop (i + n)) (after (seg i n) W) := by
  rw [seg, ← after_append, ← List.drop_drop, List.take_append_drop]

/-- A buffer that no operation of the stretch writes keeps its contents through a segment. -/
theorem keep_seg {b : DevRef τ sig} (hb : ∀ op ∈ (hostOps1_2 (F := Ideal)), b ∉ op.writes) (i n : ℕ) :
    after (seg i n) W b = W b :=
  after_of_forall_not_mem _ _ fun op h => hb op (List.mem_of_mem_drop (List.mem_of_mem_take h))

/-- A buffer that no operation past the first sixteen writes keeps its contents through a segment past them. -/
theorem keep_seg16 {b : DevRef τ sig} (hb : ∀ op ∈ (hostOps1_2 (F := Ideal)).drop 16, b ∉ op.writes) (j n : ℕ) :
    after (seg (16 + j) n) W b = W b :=
  after_of_forall_not_mem _ _ fun op h => hb op (by
    have h' := List.mem_of_mem_take h
    rw [← List.drop_drop] at h'
    exact List.mem_of_mem_drop h')

/-- No operation of the stretch writes the norm's buffer. -/
theorem nw_v21 : ∀ op ∈ (hostOps1_2 (F := Ideal)), (Proc.devRef .tc main_v21) ∉ op.writes :=
  List.forall_iff_forall_mem.mp (by
    simp only [hostOps1_2, List.Forall, nullary_writes, unary_writes, binary_writes, reshape_writes, Finset.mem_singleton]
    repeat' apply And.intro
    all_goals exact devRef_ne_of_ne (by decide))

/-- No operation of the stretch writes the mean vector's buffer. -/
theorem nw_v3 : ∀ op ∈ (hostOps1_2 (F := Ideal)), (Proc.devRef .tc main_v3) ∉ op.writes :=
  List.forall_iff_forall_mem.mp (by
    simp only [hostOps1_2, List.Forall, nullary_writes, unary_writes, binary_writes, reshape_writes, Finset.mem_singleton]
    repeat' apply And.intro
    all_goals exact devRef_ne_of_ne (by decide))

/-- No operation of the stretch writes the first argument. -/
theorem nw_arg0 : ∀ op ∈ (hostOps1_2 (F := Ideal)), (Proc.devRef .tc main_arg0) ∉ op.writes :=
  List.forall_iff_forall_mem.mp (by
    simp only [hostOps1_2, List.Forall, nullary_writes, unary_writes, binary_writes, reshape_writes, Finset.mem_singleton]
    repeat' apply And.intro
    all_goals exact devRef_ne_of_ne (by decide))

/-- No operation of the stretch writes the second argument. -/
theorem nw_arg1 : ∀ op ∈ (hostOps1_2 (F := Ideal)), (Proc.devRef .tc main_arg1) ∉ op.writes :=
  List.forall_iff_forall_mem.mp (by
    simp only [hostOps1_2, List.Forall, nullary_writes, unary_writes, binary_writes, reshape_writes, Finset.mem_singleton]
    repeat' apply And.intro
    all_goals exact devRef_ne_of_ne (by decide))

/-- No operation of the stretch writes the third argument. -/
theorem nw_arg2 : ∀ op ∈ (hostOps1_2 (F := Ideal)), (Proc.devRef .tc main_arg2) ∉ op.writes :=
  List.forall_iff_forall_mem.mp (by
    simp only [hostOps1_2, List.Forall, nullary_writes, unary_writes, binary_writes, reshape_writes, Finset.mem_singleton]
    repeat' apply And.intro
    all_goals exact devRef_ne_of_ne (by decide))

/-- No operation past the first sixteen writes the identity matrix the trips read. -/
theorem nw_v29 : ∀ op ∈ (hostOps1_2 (F := Ideal)).drop 16, (Proc.devRef .tc main_v29) ∉ op.writes :=
  List.forall_iff_forall_mem.mp (by
    simp only [hostOps1_2, List.drop_succ_cons, List.drop_zero, List.Forall, nullary_writes, unary_writes, binary_writes, reshape_writes, Finset.mem_singleton]
    repeat' apply And.intro
    all_goals exact devRef_ne_of_ne (by decide))

end Cert.KernelIdeal.HostVal

end
-- ==== Proof.KHostS.lean ====
/-
  The two ends of the third stretch, read over any contents W before them.
  The start (operations 0, …, 15) divides the matrix by its norm, read from the norm's buffer and broadcast to the
  matrix's shape, and builds two copies of the identity. The end (operations 116, …, 119) divides the last trip's Z by the
  square root of the norm and reads the mean vector as a row.
-/
import proofs.«155110_j49271864820158_1_alg».proof.Proof.Spec
import proofs.«155110_j49271864820158_1_alg».proof.Proof.KHostC

set_option maxRecDepth 2144

noncomputable section

namespace Cert.KernelIdeal.HostVal

open Idealize.ShloMosaic Idealize.ShloMosaic.ValueIdx Cert.GroupWhiten
open Cert.KernelIdeal Cert.KernelIdeal.Gen Idealize.ShloMosaic.StableHlo Idealize.ShloMosaic.TcCoe

variable (W : Valuation τ sig (Elt Ideal))

/-- A 16×16 matrix divided entry by entry by a scalar (the scalar broadcast to the matrix's shape). -/
def divBy (A : FVec Ideal SG .f32) (n : FVec Ideal S0 .f32) : FVec Ideal SG .f32 :=
  Host.divf (F := Ideal) A (broadcastInDim SG ![] bc0 n)

/-- A 16×16 matrix divided entry by entry by the square root of a scalar. -/
def divBySqrt (Z : FVec Ideal SG .f32) (n : FVec Ideal S0 .f32) : FVec Ideal SG .f32 := divBy Z (Host.sqrt (F := Ideal) n)

/-- A vector of 16 read as a [1,16] row. -/
def meanRowOf (v : FVec Ideal SV .f32) : FVec Ideal SRow .f32 := shapeCast SRow v castVRow

/-- The start of Newton–Schulz is the matrix over its Frobenius norm. -/
theorem nsStart_eq (A : FVec Ideal SG .f32) : nsStart A = divBy A (frob A) := rfl
/-- The end of Newton–Schulz is the last Z over the square root of the Frobenius norm. -/
theorem nsFinish_eq (A Z : FVec Ideal SG .f32) : nsFinish A Z = divBySqrt Z (frob A) := rfl

/-- The start's Y: the matrix over the norm read from its buffer. -/
theorem start_Y : (after (seg 0 16) W (Proc.devRef .tc main_v23) : FVec Ideal S16x16 .f32)
    = divBy (W (Proc.devRef .tc main_v20)) (W (Proc.devRef .tc main_v21)) := by
  simp only [seg, hostOps1_2, List.drop_succ_cons, List.drop_zero, List.take_succ_cons, List.take_zero, List.take_nil]
  after_results_simp
  rfl

/-- The identity the trips read. -/
theorem start_I : (after (seg 0 16) W (Proc.devRef .tc main_v29) : FVec Ideal S16x16 .f32) = eye := by
  simp only [seg, hostOps1_2, List.drop_succ_cons, List.drop_zero, List.take_succ_cons, List.take_zero, List.take_nil]
  after_results_simp
  rfl

/-- The start's Z: the identity. -/
theorem start_Z : (after (seg 0 16) W (Proc.devRef .tc main_v35) : FVec Ideal S16x16 .f32) = eye := by
  simp only [seg, hostOps1_2, List.drop_succ_cons, List.drop_zero, List.take_succ_cons, List.take_zero, List.take_nil]
  after_results_simp
  rfl

/-- The end's matrix: the last Z over the square root of the norm read from its buffer. -/
theorem end_D : (after ((hostOps1_2 (F := Ideal)).drop 116) W (Proc.devRef .tc main_v118) : FVec Ideal S16x16 .f32)
    = divBySqrt (W (Proc.devRef .tc main_v115)) (W (Proc.devRef .tc main_v21)) := by
  simp only [hostOps1_2, List.drop_succ_cons, List.drop_zero]
  after_results_simp
  rfl

/-- The end's row: the mean vector read as a [1,16] row. -/
theorem end_M : (after ((hostOps1_2 (F := Ideal)).drop 116) W (Proc.devRef .tc main_v119) : FVec Ideal S1x16 .f32)
    = meanRowOf (W (Proc.devRef .tc main_v3)) := by
  simp only [hostOps1_2, List.drop_succ_cons, List.drop_zero]
  after_results_simp
  rfl

end Cert.KernelIdeal.HostVal

end
-- ==== Proof.KHostT1.lean ====
/-
  Newton–Schulz trips 1, …, 5 of the third stretch, each read over any contents W before it: ten operations that from
  the matrices Y, Z of the trip before and the identity I leave  Y·T  and  T·Z  with  T = ½(3·I − Z·Y).
-/
import proofs.«155110_j49271864820158_1_alg».proof.Proof.Spec
import proofs.«155110_j49271864820158_1_alg».proof.Proof.KHostC

set_option maxRecDepth 2144

noncomputable section

namespace Cert.KernelIdeal.HostVal

open Idealize.ShloMosaic Idealize.ShloMosaic.ValueIdx Cert.GroupWhiten
open Cert.KernelIdeal Cert.KernelIdeal.Gen Idealize.ShloMosaic.StableHlo Idealize.ShloMosaic.TcCoe

variable (W : Valuation τ sig (Elt Ideal))

/-- Trip 1 (operations 16, …, 25): from Y, Z and the identity I it leaves  Y·T  and  T·Z,  T = ½(3·I − Z·Y). -/
theorem trip1_Y : (after (seg 16 10) W (Proc.devRef .tc main_v42) : FVec Ideal S16x16 .f32)
    = nsY (W (Proc.devRef .tc main_v29)) (W (Proc.devRef .tc main_v23)) (W (Proc.devRef .tc main_v35)) := by
  simp only [seg, hostOps1_2, List.drop_succ_cons, List.drop_zero, List.take_succ_cons, List.take_zero, List.take_nil]
  after_results_simp
  rfl
theorem trip1_Z : (after (seg 16 10) W (Proc.devRef .tc main_v43) : FVec Ideal S16x16 .f32)
    = nsZ (W (Proc.devRef .tc main_v29)) (W (Proc.devRef .tc main_v23)) (W (Proc.devRef .tc main_v35)) := by
  simp only [seg, hostOps1_2, List.drop_succ_cons, List.drop_zero, List.take_succ_cons, List.take_zero, List.take_nil]
  after_results_simp
  rfl

/-- Trip 2 (operations 26, …, 35): from Y, Z and the identity I it leaves  Y·T  and  T·Z,  T = ½(3·I − Z·Y). -/
theorem trip2_Y : (after (seg 26 10) W (Proc.devRef .tc main_v50) : FVec Ideal S16x16 .f32)
    = nsY (W (Proc.devRef .tc main_v29)) (W (Proc.devRef .tc main_v42)) (W (Proc.devRef .tc main_v43)) := by
  simp only [seg, hostOps1_2, List.drop_succ_cons, List.drop_zero, List.take_succ_cons, List.take_zero, List.take_nil]
  after_results_simp
  rfl
theorem trip2_Z : (after (seg 26 10) W (Proc.devRef .tc main_v51) : FVec Ideal S16x16 .f32)
    = nsZ (W (Proc.devRef .tc main_v29)) (W (Proc.devRef .tc main_v42)) (W (Proc.devRef .tc main_v43)) := by
  simp only [seg, hostOps1_2, List.drop_succ_cons, List.drop_zero, List.take_succ_cons, List.take_zero, List.take_nil]
  after_results_simp
  rfl

/-- Trip 3 (operations 36, …, 45): from Y, Z and the identity I it leaves  Y·T  and  T·Z,  T = ½(3·I − Z·Y). -/
theorem trip3_Y : (after (seg 36 10) W (Proc.devRef .tc main_v58) : FVec Ideal S16x16 .f32)
    = nsY (W (Proc.devRef .tc main_v29)) (W (Proc.devRef .tc main_v50)) (W (Proc.devRef .tc main_v51)) := by
  simp only [seg, hostOps1_2, List.drop_succ_cons, List.drop_zero, List.take_succ_cons, List.take_zero, List.take_nil]
  after_results_simp
  rfl
theorem trip3_Z : (after (seg 36 10) W (Proc.devRef .tc main_v59) : FVec Ideal S16x16 .f32)
    = nsZ (W (Proc.devRef .tc main_v29)) (W (Proc.devRef .tc main_v50)) (W (Proc.devRef .tc main_v51)) := by
  simp only [seg, hostOps1_2, List.drop_succ_cons, List.drop_zero, List.take_succ_cons, List.take_zero, List.take_nil]
  after_results_simp
  rfl

/-- Trip 4 (operations 46, …, 55): from Y, Z and the identity I it leaves  Y·T  and  T·Z,  T = ½(3·I − Z·Y). -/
theorem trip4_Y : (after (seg 46 10) W (Proc.devRef .tc main_v66) : FVec Ideal S16x16 .f32)
    = nsY (W (Proc.devRef .tc main_v29)) (W (Proc.devRef .tc main_v58)) (W (Proc.devRef .tc main_v59)) := by
  simp only [seg, hostOps1_2, List.drop_succ_cons, List.drop_zero, List.take_succ_cons, List.take_zero, List.take_nil]
  after_results_simp
  rfl
theorem trip4_Z : (after (seg 46 10) W (Proc.devRef .tc main_v67) : FVec Ideal S16x16 .f32)
    = nsZ (W (Proc.devRef .tc main_v29)) (W (Proc.devRef .tc main_v58)) (W (Proc.devRef .tc main_v59)) := by
  simp only [seg, hostOps1_2, List.drop_succ_cons, List.drop_zero, List.take_succ_cons, List.take_zero, List.take_nil]
  after_results_simp
  rfl

/-- Trip 5 (operations 56, …, 65): from Y, Z and the identity I it leaves  Y·T  and  T·Z,  T = ½(3·I − Z·Y). -/
theorem trip5_Y : (after (seg 56 10) W (Proc.devRef .tc main_v74) : FVec Ideal S16x16 .f32)
    = nsY (W (Proc.devRef .tc main_v29)) (W (Proc.devRef .tc main_v66)) (W (Proc.devRef .tc main_v67)) := by
  simp only [seg, hostOps1_2, List.drop_succ_cons, List.drop_zero, List.take_succ_cons, List.take_zero, List.take_nil]
  after_results_simp
  rfl
theorem trip5_Z : (after (seg 56 10) W (Proc.devRef .tc main_v75) : FVec Ideal S16x16 .f32)
    = nsZ (W (Proc.devRef .tc main_v29)) (W (Proc.devRef .tc main_v66)) (W (Proc.devRef .tc main_v67)) := by
  simp only [seg, hostOps1_2, List.drop_succ_cons, List.drop_zero, List.take_succ_cons, List.take_zero, List.take_nil]
  after_results_simp
  rfl

end Cert.KernelIdeal.HostVal

end
-- ==== Proof.KHostT2.lean ====
/-
  Newton–Schulz trips 6, …, 10 of the third stretch, each read over any contents W before it: ten operations that from
  the matrices Y, Z of the trip before and the identity I leave  Y·T  and  T·Z  with  T = ½(3·I − Z·Y).
-/
import proofs.«155110_j49271864820158_1_alg».proof.Proof.Spec
import proofs.«155110_j49271864820158_1_alg».proof.Proof.KHostC

set_option maxRecDepth 2144

noncomputable section

namespace Cert.KernelIdeal.HostVal

open Idealize.ShloMosaic Idealize.ShloMosaic.ValueIdx Cert.GroupWhiten
open Cert.KernelIdeal Cert.KernelIdeal.Gen Idealize.ShloMosaic.StableHlo Idealize.ShloMosaic.TcCoe

variable (W : Valuation τ sig (Elt Ideal))

/-- Trip 6 (operations 66, …, 75): from Y, Z and the identity I it leaves  Y·T  and  T·Z,  T = ½(3·I − Z·Y). -/
theorem trip6_Y : (after (seg 66 10) W (Proc.devRef .tc main_v82) : FVec Ideal S16x16 .f32)
    = nsY (W (Proc.devRef .tc main_v29)) (W (Proc.devRef .tc main_v74)) (W (Proc.devRef .tc main_v75)) := by
  simp only [seg, hostOps1_2, List.drop_succ_cons, List.drop_zero, List.take_succ_cons, List.take_zero, List.take_nil]
  after_results_simp
  rfl
theorem trip6_Z : (after (seg 66 10) W (Proc.devRef .tc main_v83) : FVec Ideal S16x16 .f32)
    = nsZ (W (Proc.devRef .tc main_v29)) (W (Proc.devRef .tc main_v74)) (W (Proc.devRef .tc main_v75)) := by
  simp only [seg, hostOps1_2, List.drop_succ_cons, List.drop_zero, List.take_succ_cons, List.take_zero, List.take_nil]
  after_results_simp
  rfl

/-- Trip 7 (operations 76, …, 85): from Y, Z and the identity I it leaves  Y·T  and  T·Z,  T = ½(3·I − Z·Y). -/
theorem trip7_Y : (after (seg 76 10) W (Proc.devRef .tc main_v90) : FVec Ideal S16x16 .f32)
    = nsY (W (Proc.devRef .tc main_v29)) (W (Proc.devRef .tc main_v82)) (W (Proc.devRef .tc main_v83)) := by
  simp only [seg, hostOps1_2, List.drop_succ_cons, List.drop_zero, List.take_succ_cons, List.take_zero, List.take_nil]
  after_results_simp
  rfl
theorem trip7_Z : (after (seg 76 10) W (Proc.devRef .tc main_v91) : FVec Ideal S16x16 .f32)
    = nsZ (W (Proc.devRef .tc main_v29)) (W (Proc.devRef .tc main_v82)) (W (Proc.devRef .tc main_v83)) := by
  simp only [seg, hostOps1_2, List.drop_succ_cons, List.drop_zero, List.take_succ_cons, List.take_zero, List.take_nil]
  after_results_simp
  rfl

/-- Trip 8 (operations 86, …, 95): from Y, Z and the identity I it leaves  Y·T  and  T·Z,  T = ½(3·I − Z·Y). -/
theorem trip8_Y : (after (seg 86 10) W (Proc.devRef .tc main_v98) : FVec Ideal S16x16 .f32)
    = nsY (W (Proc.devRef .tc main_v29)) (W (Proc.devRef .tc main_v90)) (W (Proc.devRef .tc main_v91)) := by
  simp only [seg, hostOps1_2, List.drop_succ_cons, List.drop_zero, List.take_succ_cons, List.take_zero, List.take_nil]
  after_results_simp
  rfl
theorem trip8_Z : (after (seg 86 10) W (Proc.devRef .tc main_v99) : FVec Ideal S16x16 .f32)
    = nsZ (W (Proc.devRef .tc main_v29)) (W (Proc.devRef .tc main_v90)) (W (Proc.devRef .tc main_v91)) := by
  simp only [seg, hostOps1_2, List.drop_succ_cons, List.drop_zero, List.take_succ_cons, List.take_zero, List.take_nil]
  after_results_simp
  rfl

/-- Trip 9 (operations 96, …, 105): from Y, Z and the identity I it leaves  Y·T  and  T·Z,  T = ½(3·I − Z·Y). -/
theorem trip9_Y : (after (seg 96 10) W (Proc.devRef .tc main_v106) : FVec Ideal S16x16 .f32)
    = nsY (W (Proc.devRef .tc main_v29)) (W (Proc.devRef .tc main_v98)) (W (Proc.devRef .tc main_v99)) := by
  simp only [seg, hostOps1_2, List.drop_succ_cons, List.drop_zero, List.take_succ_cons, List.take_zero, List.take_nil]
  after_results_simp
  rfl
theorem trip9_Z : (after (seg 96 10) W (Proc.devRef .tc main_v107) : FVec Ideal S16x16 .f32)
    = nsZ (W (Proc.devRef .tc main_v29)) (W (Proc.devRef .tc main_v98)) (W (Proc.devRef .tc main_v99)) := by
  simp only [seg, hostOps1_2, List.drop_succ_cons, List.drop_zero, List.take_succ_cons, List.take_zero, List.take_nil]
  after_results_simp
  rfl

/-- Trip 10 (operations 106, …, 115): from Y, Z and the identity I it leaves  Y·T  and  T·Z,  T = ½(3·I − Z·Y). -/
theorem trip10_Y : (after (seg 106 10) W (Proc.devRef .tc main_v114) : FVec Ideal S16x16 .f32)
    = nsY (W (Proc.devRef .tc main_v29)) (W (Proc.devRef .tc main_v106)) (W (Proc.devRef .tc main_v107)) := by
  simp only [seg, hostOps1_2, List.drop_succ_cons, List.drop_zero, List.take_succ_cons, List.take_zero, List.take_nil]
  after_results_simp
  rfl
theorem trip10_Z : (after (seg 106 10) W (Proc.devRef .tc main_v115) : FVec Ideal S16x16 .f32)
    = nsZ (W (Proc.devRef .tc main_v29)) (W (Proc.devRef .tc main_v106)) (W (Proc.devRef .tc main_v107)) := by
  simp only [seg, hostOps1_2, List.drop_succ_cons, List.drop_zero, List.take_succ_cons, List.take_zero, List.take_nil]
  after_results_simp
  rfl

end Cert.KernelIdeal.HostVal

end
-- ==== Proof.KHost.lean ====
/-
  The host operations between the two passes, from any contents W before them: three stretches in a row (24 operations
  for the mean and the covariance, 4 for the Frobenius norm, 120 for ten Newton–Schulz trips with their start and end).
  After them the buffer the second pass reads as its 16×16 matrix holds `ns` of the covariance of the two sums, the
  buffer it reads as its row of means holds the mean row, and the three arguments are as they were.

  The third stretch is never read as one composed term (each trip reads both matrices of the trip before, twice): it
  is cut into its start, its ten trips and its end, each read over any contents, and the ten trips are chained through
  `nsIter` one step at a time.
-/
import proofs.«155110_j49271864820158_1_alg».proof.Proof.Spec
import proofs.«155110_j49271864820158_1_alg».proof.Proof.KHostA
import proofs.«155110_j49271864820158_1_alg».proof.Proof.KHostB
import proofs.«155110_j49271864820158_1_alg».proof.Proof.KHostC
import proofs.«155110_j49271864820158_1_alg».proof.Proof.KHostS
import proofs.«155110_j49271864820158_1_alg».proof.Proof.KHostT1
import proofs.«155110_j49271864820158_1_alg».proof.Proof.KHostT2

set_option maxRecDepth 2144

noncomputable section

namespace Cert.KernelIdeal.HostVal

open Idealize.ShloMosaic Idealize.ShloMosaic.ValueIdx Cert.GroupWhiten
open Cert.KernelIdeal Cert.KernelIdeal.Gen Idealize.ShloMosaic.StableHlo Idealize.ShloMosaic.TcCoe

/-- One more trip: the first matrix after `j + 1` trips from the pair after `j`. -/
theorem nsIter_succ_fst (I : FVec Ideal SG .f32) (j : ℕ) (p : FVec Ideal SG .f32 × FVec Ideal SG .f32) :
    (nsIter I (j + 1) p).1 = nsY I (nsIter I j p).1 (nsIter I j p).2 := rfl
/-- One more trip: the second matrix after `j + 1` trips from the pair after `j`. -/
theorem nsIter_succ_snd (I : FVec Ideal SG .f32) (j : ℕ) (p : FVec Ideal SG .f32 × FVec Ideal SG .f32) :
    (nsIter I (j + 1) p).2 = nsZ I (nsIter I j p).1 (nsIter I j p).2 := rfl

/-- The contents after the start of the third stretch and its first `k` trips, from the contents `V` before it. -/
def stage (V : Valuation τ sig (Elt Ideal)) : ℕ → Valuation τ sig (Elt Ideal)
  | 0 => after (seg 0 16) V
  | k + 1 => after (seg (16 + 10 * k) 10) (stage V k)

variable (V : Valuation τ sig (Elt Ideal))

theorem stage_zero : stage V 0 = after (seg 0 16) V := rfl
theorem stage_succ (k : ℕ) : stage V (k + 1) = after (seg (16 + 10 * k) 10) (stage V k) := rfl

/-- The whole stretch is its operations from `16 + 10·k` on, started from the contents after the start and `k` trips. -/
theorem cut_stage (k : ℕ) :
    after (hostOps1_2 (F := Ideal)) V = after ((hostOps1_2 (F := Ideal)).drop (16 + 10 * k)) (stage V k) := by
  induction k with
  | zero =>
    show after ((hostOps1_2 (F := Ideal)).drop 0) V = after ((hostOps1_2 (F := Ideal)).drop (0 + 16)) (after (seg 0 16) V)
    exact after_cut V 0 16
  | succ k ih =>
    have e : 16 + 10 * (k + 1) = 16 + 10 * k + 10 := by omega
    rw [ih, after_cut (stage V k) (16 + 10 * k) 10, stage_succ, e]

/-- A buffer no operation of the stretch writes is, after the start and `k` trips, as it was. -/
theorem stage_keep {b : DevRef τ sig} (hb : ∀ op ∈ (hostOps1_2 (F := Ideal)), b ∉ op.writes) (k : ℕ) : stage V k b = V b := by
  induction k with
  | zero => exact keep_seg V hb 0 16
  | succ k ih => rw [stage_succ, keep_seg _ hb, ih]

/-- The identity the trips read is the identity after the start and any number of trips. -/
theorem stage_eye (k : ℕ) : (stage V k (Proc.devRef .tc main_v29) : FVec Ideal SG .f32) = eye := by
  induction k with
  | zero => exact start_I V
  | succ k ih => rw [stage_succ, keep_seg16 _ nw_v29 (10 * k) 10, ih]

/-- The third stretch: from a matrix A and its Frobenius norm it leaves `ns A`. -/
theorem ops3_ns (A : FVec Ideal SG .f32) (h20 : (V (Proc.devRef .tc main_v20) : FVec Ideal SG .f32) = A) (h21 : (V (Proc.devRef .tc main_v21) : FVec Ideal S0 .f32) = frob A) :
    (after (hostOps1_2 (F := Ideal)) V (Proc.devRef .tc main_v118) : FVec Ideal SG .f32) = ns A := by
  have hY0 : (stage V 0 (Proc.devRef .tc main_v23) : FVec Ideal SG .f32) = (nsIter eye 0 (nsStart A, eye)).1 := by
    rw [stage_zero, start_Y, h20, h21]; rfl
  have hZ0 : (stage V 0 (Proc.devRef .tc main_v35) : FVec Ideal SG .f32) = (nsIter eye 0 (nsStart A, eye)).2 := start_Z V
  have hY1 : (stage V 1 (Proc.devRef .tc main_v42) : FVec Ideal SG .f32) = (nsIter eye 1 (nsStart A, eye)).1 := by
    show (after (seg 16 10) (stage V 0) (Proc.devRef .tc main_v42) : FVec Ideal SG .f32) = _
    rw [trip1_Y, stage_eye, hY0, hZ0]
    exact (nsIter_succ_fst eye 0 _).symm
  have hZ1 : (stage V 1 (Proc.devRef .tc main_v43) : FVec Ideal SG .f32) = (nsIter eye 1 (nsStart A, eye)).2 := by
    show (after (seg 16 10) (stage V 0) (Proc.devRef .tc main_v43) : FVec Ideal SG .f32) = _
    rw [trip1_Z, stage_eye, hY0, hZ0]
    exact (nsIter_succ_snd eye 0 _).symm
  have hY2 : (stage V 2 (Proc.devRef .tc main_v50) : FVec Ideal SG .f32) = (nsIter eye 2 (nsStart A, eye)).1 := by
    show (after (seg 26 10) (stage V 1) (Proc.devRef .tc main_v50) : FVec Ideal SG .f32) = _
    rw [trip2_Y, stage_eye, hY1, hZ1]
    exact (nsIter_succ_fst eye 1 _).symm
  have hZ2 : (stage V 2 (Proc.devRef .tc main_v51) : FVec Ideal SG .f32) = (nsIter eye 2 (nsStart A, eye)).2 := by
    show (after (seg 26 10) (stage V 1) (Proc.devRef .tc main_v51) : FVec Ideal SG .f32) = _
    rw [trip2_Z, stage_eye, hY1, hZ1]
    exact (nsIter_succ_snd eye 1 _).symm
  have hY3 : (stage V 3 (Proc.devRef .tc main_v58) : FVec Ideal SG .f32) = (nsIter eye 3 (nsStart A, eye)).1 := by
    show (after (seg 36 10) (stage V 2) (Proc.devRef .tc main_v58) : FVec Ideal SG .f32) = _
    rw [trip3_Y, stage_eye, hY2, hZ2]
    exact (nsIter_succ_fst eye 2 _).symm
  have hZ3 : (stage V 3 (Proc.devRef .tc main_v59) : FVec Ideal SG .f32) = (nsIter eye 3 (nsStart A, eye)).2 := by
    show (after (seg 36 10) (stage V 2) (Proc.devRef .tc main_v59) : FVec Ideal SG .f32) = _
    rw [trip3_Z, stage_eye, hY2, hZ2]
    exact (nsIter_succ_snd eye 2 _).symm
  have hY4 : (stage V 4 (Proc.devRef .tc main_v66) : FVec Ideal SG .f32) = (nsIter eye 4 (nsStart A, eye)).1 := by
    show (after (seg 46 10) (stage V 3) (Proc.devRef .tc main_v66) : FVec Ideal SG .f32) = _
    rw [trip4_Y, stage_eye, hY3, hZ3]
    exact (nsIter_succ_fst eye 3 _).symm
  have hZ4 : (stage V 4 (Proc.devRef .tc main_v67) : FVec Ideal SG .f32) = (nsIter eye 4 (nsStart A, eye)).2 := by
    show (after (seg 46 10) (stage V 3) (Proc.devRef .tc main_v67) : FVec Ideal SG .f32) = _
    rw [trip4_Z, stage_eye, hY3, hZ3]
    exact (nsIter_succ_snd eye 3 _).symm
  have hY5 : (stage V 5 (Proc.devRef .tc main_v74) : FVec Ideal SG .f32) = (nsIter eye 5 (nsStart A, eye)).1 := by
    show (after (seg 56 10) (stage V 4) (Proc.devRef .tc main_v74) : FVec Ideal SG .f32) = _
    rw [trip5_Y, stage_eye, hY4, hZ4]
    exact (nsIter_succ_fst eye 4 _).symm
  have hZ5 : (stage V 5 (Proc.devRef .tc main_v75) : FVec Ideal SG .f32) = (nsIter eye 5 (nsStart A, eye)).2 := by
    show (after (seg 56 10) (stage V 4) (Proc.devRef .tc main_v75) : FVec Ideal SG .f32) = _
    rw [trip5_Z, stage_eye, hY4, hZ4]
    exact (nsIter_succ_snd eye 4 _).symm
  have hY6 : (stage V 6 (Proc.devRef .tc main_v82) : FVec Ideal SG .f32) = (nsIter eye 6 (nsStart A, eye)).1 := by
    show (after (seg 66 10) (stage V 5) (Proc.devRef .tc main_v82) : FVec Ideal SG .f32) = _
    rw [trip6_Y, stage_eye, hY5, hZ5]
    exact (nsIter_succ_fst eye 5 _).symm
  have hZ6 : (stage V 6 (Proc.devRef .tc main_v83) : FVec Ideal SG .f32) = (nsIter eye 6 (nsStart A, eye)).2 := by
    show (after (seg 66 10) (stage V 5) (Proc.devRef .tc main_v83) : FVec Ideal SG .f32) = _
    rw [trip6_Z, stage_eye, hY5, hZ5]
    exact (nsIter_succ_snd eye 5 _).symm
  have hY7 : (stage V 7 (Proc.devRef .tc main_v90) : FVec Ideal SG .f32) = (nsIter eye 7 (nsStart A, eye)).1 := by
    show (after (seg 76 10) (stage V 6) (Proc.devRef .tc main_v90) : FVec Ideal SG .f32) = _
    rw [trip7_Y, stage_eye, hY6, hZ6]
    exact (nsIter_succ_fst eye 6 _).symm
  have hZ7 : (stage V 7 (Proc.devRef .tc main_v91) : FVec Ideal SG .f32) = (nsIter eye 7 (nsStart A, eye)).2 := by
    show (after (seg 76 10) (stage V 6) (Proc.devRef .tc main_v91) : FVec Ideal SG .f32) = _
    rw [trip7_Z, stage_eye, hY6, hZ6]
    exact (nsIter_succ_snd eye 6 _).symm
  have hY8 : (stage V 8 (Proc.devRef .tc main_v98) : FVec Ideal SG .f32) = (nsIter eye 8 (nsStart A, eye)).1 := by
    show (after (seg 86 10) (stage V 7) (Proc.devRef .tc main_v98) : FVec Ideal SG .f32) = _
    rw [trip8_Y, stage_eye, hY7, hZ7]
    exact (nsIter_succ_fst eye 7 _).symm
  have hZ8 : (stage V 8 (Proc.devRef .tc main_v99) : FVec Ideal SG .f32) = (nsIter eye 8 (nsStart A, eye)).2 := by
    show (after (seg 86 10) (stage V 7) (Proc.devRef .tc main_v99) : FVec Ideal SG .f32) = _
    rw [trip8_Z, stage_eye, hY7, hZ7]
    exact (nsIter_succ_snd eye 7 _).symm
  have hY9 : (stage V 9 (Proc.devRef .tc main_v106) : FVec Ideal SG .f32) = (nsIter eye 9 (nsStart A, eye)).1 := by
    show (after (seg 96 10) (stage V 8) (Proc.devRef .tc main_v106) : FVec Ideal SG .f32) = _
    rw [trip9_Y, stage_eye, hY8, hZ8]
    exact (nsIter_succ_fst eye 8 _).symm
  have hZ9 : (stage V 9 (Proc.devRef .tc main_v107) : FVec Ideal SG .f32) = (nsIter eye 9 (nsStart A, eye)).2 := by
    show (after (seg 96 10) (stage V 8) (Proc.devRef .tc main_v107) : FVec Ideal SG .f32) = _
    rw [trip9_Z, stage_eye, hY8, hZ8]
    exact (nsIter_succ_snd eye 8 _).symm
  have hY10 : (stage V 10 (Proc.devRef .tc main_v114) : FVec Ideal SG .f32) = (nsIter eye 10 (nsStart A, eye)).1 := by
    show (after (seg 106 10) (stage V 9) (Proc.devRef .tc main_v114) : FVec Ideal SG .f32) = _
    rw [trip10_Y, stage_eye, hY9, hZ9]
    exact (nsIter_succ_fst eye 9 _).symm
  have hZ10 : (stage V 10 (Proc.devRef .tc main_v115) : FVec Ideal SG .f32) = (nsIter eye 10 (nsStart A, eye)).2 := by
    show (after (seg 106 10) (stage V 9) (Proc.devRef .tc main_v115) : FVec Ideal SG .f32) = _
    rw [trip10_Z, stage_eye, hY9, hZ9]
    exact (nsIter_succ_snd eye 9 _).symm
  have hn : (stage V 10 (Proc.devRef .tc main_v21) : FVec Ideal S0 .f32) = frob A := (stage_keep V nw_v21 10).trans h21
  have hcut : after (hostOps1_2 (F := Ideal)) V = after ((hostOps1_2 (F := Ideal)).drop 116) (stage V 10) := cut_stage V 10
  rw [hcut, end_D, hZ10, hn]
  rfl

/-- The third stretch leaves the mean vector read as a row. -/
theorem ops3_mean : (after (hostOps1_2 (F := Ideal)) V (Proc.devRef .tc main_v119) : FVec Ideal SRow .f32)
    = meanRowOf (V (Proc.devRef .tc main_v3)) := by
  have hcut : after (hostOps1_2 (F := Ideal)) V = after ((hostOps1_2 (F := Ideal)).drop 116) (stage V 10) := cut_stage V 10
  rw [hcut, end_M, stage_keep V nw_v3 10]

/-- The contents after the three stretches, from the contents `W` before them. -/
abbrev W4of (W : Valuation τ sig (Elt Ideal)) : Valuation τ sig (Elt Ideal) :=
  after (hostOps1_2 (F := Ideal)) (after (hostOps1_1 (F := Ideal)) (after (hostOps1 (F := Ideal)) W))

variable (W : Valuation τ sig (Elt Ideal))

/-- The matrix the second pass applies: `ns` of the covariance of the two sums. -/
theorem host_decorr : (W4of W (Proc.devRef .tc main_v118) : FVec Ideal S16x16 .f32)
    = ns (covOfSums (W (Proc.devRef .tc main_v0_0)) (W (Proc.devRef .tc main_v0_1))) :=
  ops3_ns _ _ ((ops2_v20 _).trans (ops1_cov W)) ((ops2_frob _).trans (congrArg frob (ops1_cov W)))

/-- The row of means the second pass subtracts. -/
theorem host_mean : (W4of W (Proc.devRef .tc main_v119) : FVec Ideal S1x16 .f32) = meanRow (W (Proc.devRef .tc main_v0_0)) :=
  (ops3_mean _).trans (congrArg meanRowOf ((ops2_v3 _).trans (ops1_mean W)))

/-- No host operation writes an argument. -/
theorem host_arg0 : W4of W (Proc.devRef .tc main_arg0) = W (Proc.devRef .tc main_arg0) :=
  (after_of_forall_not_mem _ _ nw_arg0).trans ((ops2_arg0 _).trans (ops1_arg0 W))
theorem host_arg1 : W4of W (Proc.devRef .tc main_arg1) = W (Proc.devRef .tc main_arg1) :=
  (after_of_forall_not_mem _ _ nw_arg1).trans ((ops2_arg1 _).trans (ops1_arg1 W))
theorem host_arg2 : W4of W (Proc.devRef .tc main_arg2) = W (Proc.devRef .tc main_arg2) :=
  (after_of_forall_not_mem _ _ nw_arg2).trans ((ops2_arg2 _).trans (ops1_arg2 W))

end Cert.KernelIdeal.HostVal

end
-- ==== Proof.KSumsCase.lean ====
/-
  What one grid point's body leaves in the two accumulators. At the first point the body stores zeros, reads them
  back and adds the point's partial sums: the accumulators end at `pay(x, 0)`. At every later point it adds the
  point's partial sums to what the point before left: `pay(x, acc)`. Here `pay` is the body's own arithmetic on
  the point's block `x` of the input (the per-group sums for the row, the group-by-group products for the matrix).
-/
import proofs.«155110_j49271864820158_1_alg».proof.Proof.Gen.KernelIdeal.Frame
import Idealize.ShloMosaic.Lib.Pipeline.Value
import Idealize.ShloMosaic.Lib.Tactic

noncomputable section

namespace Cert.KernelIdeal.Sums

open Idealize.ShloMosaic Idealize.ShloMosaic.TcCoe Idealize.SL.Sem Idealize.ShloMosaic.Tactic
open Cert.KernelIdeal Cert.KernelIdeal.Gen

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- A later point: the row accumulator holding `xo1` ends at the body's row arithmetic on the block and `xo1`. -/
theorem out_B_1 (c : Dev nD) (i : grid0.Coords) (a1 : Memref sig .tc .vmem S32x16x56x56 .f32) (h1 : a1.IsWhole)
    (a2 : Memref sig .tc .vmem S1x16 .f32) (h2 : a2.IsWhole) (a3 : Memref sig .tc .vmem S16x16 .f32) (h3 : a3.IsWhole)
    (hc : ¬cond0_0 i) (x : Vec F S32x16x56x56 .f32) (xo1 : Vec F S1x16 .f32) (xo2 : Vec F S16x16 .f32) :
    out0_B_1 c i a1 h1 a2 h2 a3 h3 hc x xo1 xo2 = k0_pay4 x xo1 := by
  unfold out0_B_1
  rw [View.read_writes_eq_canon _ _ _ (cover0_B_1 c i a1 h1 a2 h2 a3 h3 hc x xo1 xo2)]
  unfold kernelRun0_B
  dsimp only
  rw [View.canon_unit_zero hz2]
  simp only [View.readAt_eq_ld, h1.read_unread, h2.read_unread, View.ld_unit_zero (S := S1x16) hz2,
    View.ld_unit_zero (S := S32x16x56x56) hz4]

/-- A later point: the matrix accumulator holding `xo2` ends at the body's matrix arithmetic on the block and `xo2`. -/
theorem out_B_2 (c : Dev nD) (i : grid0.Coords) (a1 : Memref sig .tc .vmem S32x16x56x56 .f32) (h1 : a1.IsWhole)
    (a2 : Memref sig .tc .vmem S1x16 .f32) (h2 : a2.IsWhole) (a3 : Memref sig .tc .vmem S16x16 .f32) (h3 : a3.IsWhole)
    (hc : ¬cond0_0 i) (x : Vec F S32x16x56x56 .f32) (xo1 : Vec F S1x16 .f32) (xo2 : Vec F S16x16 .f32) :
    out0_B_2 c i a1 h1 a2 h2 a3 h3 hc x xo1 xo2 = k0_pay5 x xo2 := by
  unfold out0_B_2
  rw [View.read_writes_eq_canon _ _ _ (cover0_B_2 c i a1 h1 a2 h2 a3 h3 hc x xo1 xo2)]
  unfold kernelRun0_B
  dsimp only
  rw [View.canon_unit_zero hz2]
  simp only [View.readAt_eq_ld, h1.read_unread, h3.read_unread, View.ld_unit_zero (S := S16x16) hz2,
    View.ld_unit_zero (S := S32x16x56x56) hz4]

/-- The first point: the row accumulator is zeroed, read back, and ends at the body's row arithmetic on the block
    and the zero row. -/
theorem out_A_1 (c : Dev nD) (i : grid0.Coords) (a1 : Memref sig .tc .vmem S32x16x56x56 .f32) (h1 : a1.IsWhole)
    (a2 : Memref sig .tc .vmem S1x16 .f32) (h2 : a2.IsWhole) (a3 : Memref sig .tc .vmem S16x16 .f32) (h3 : a3.IsWhole)
    (hc : cond0_0 i) (x : Vec F S32x16x56x56 .f32) :
    out0_A_1 c i a1 h1 a2 h2 a3 h3 hc x = k0_pay4 x (k0_pay1 (F := F)) := by
  unfold out0_A_1
  rw [View.read_writes_eq_canon _ _ _ (cover0_A_1 c i a1 h1 a2 h2 a3 h3 hc x)]
  unfold kernelRun0_A
  dsimp only
  sl_unfold_words
  rw [View.canon_cons_unit_zero (S := S1x16) hz2, View.readCov_unit_zero (S := S1x16) _ hz2]
  simp only [View.readAt_eq_ld, h1.read_unread, View.ld_unit_zero (S := S32x16x56x56) hz4]

/-- The first point: the matrix accumulator is zeroed, read back, and ends at the body's matrix arithmetic on the
    block and the zero matrix. -/
theorem out_A_2 (c : Dev nD) (i : grid0.Coords) (a1 : Memref sig .tc .vmem S32x16x56x56 .f32) (h1 : a1.IsWhole)
    (a2 : Memref sig .tc .vmem S1x16 .f32) (h2 : a2.IsWhole) (a3 : Memref sig .tc .vmem S16x16 .f32) (h3 : a3.IsWhole)
    (hc : cond0_0 i) (x : Vec F S32x16x56x56 .f32) :
    out0_A_2 c i a1 h1 a2 h2 a3 h3 hc x = k0_pay5 x (k0_pay2 (F := F)) := by
  unfold out0_A_2
  rw [View.read_writes_eq_canon _ _ _ (cover0_A_2 c i a1 h1 a2 h2 a3 h3 hc x)]
  unfold kernelRun0_A
  dsimp only
  sl_unfold_words
  rw [View.canon_cons_unit_zero (S := S16x16) hz2, View.readCov_unit_zero (S := S16x16) _ hz2]
  simp only [View.readAt_eq_ld, h1.read_unread, View.ld_unit_zero (S := S32x16x56x56) hz4]

end Cert.KernelIdeal.Sums

end
-- ==== Proof.KSumsPay.lean ====
/-
  The body's arithmetic on one block, read entry by entry over the extended reals.

  The block `x` is a [32, 16, 56, 56] array: 32 images, the 16 groups of one channel block, 56×56 positions. The body
  views it as [32, 16, 3136] (position k = 56·h + w) and computes
    * for the row: the accumulator plus, per group g, the sum over images n and positions k of x[n, g, k];
    * for the matrix: the accumulator plus, per pair (g, g'), the sum over images n of the product over positions
      ∑ₖ x[n, g, k] · x[n, g', k].
  A reduction "over the axes that are dropped" is a sum over the set of indices that drop to the given one; here that
  set is re-indexed by the coordinates (n, k).
-/
import proofs.«155110_j49271864820158_1_alg».proof.Proof.Spec
import proofs.«155110_j49271864820158_1_alg».proof.Proof.Gen.KernelIdeal.Skeleton
import Idealize.ShloMosaic.Lib.Pipeline.Value
import Idealize.ShloMosaic.Lib.ValueIdx
import Idealize.ShloMosaic.PureOps.Ideal.Laws
import Idealize.ShloMosaic.PureOps.Reduce

noncomputable section

namespace Cert.KernelIdeal.Sums

open Idealize.ShloMosaic Idealize.ShloMosaic.ValueIdx Cert.GroupWhiten
open Cert.KernelIdeal Cert.KernelIdeal.Gen

/-- A sum over the rank-3 indices whose middle coordinate is `g` is the double sum over the outer two coordinates. -/
theorem sum_filter_mid {M : Type*} [AddCommMonoid M] {a b c : Nat} (f : (⟨3, ![a, b, c]⟩ : Shape).Idx → M) (g : Fin b) :
    ∑ i ∈ Finset.univ.filter (fun i : (⟨3, ![a, b, c]⟩ : Shape).Idx => (i 1).val = g.val), f i
      = ∑ n : Fin a, ∑ k : Fin c, f (ix3 n g k) := by
  let e : Fin a × Fin c ↪ (⟨3, ![a, b, c]⟩ : Shape).Idx :=
    ⟨fun p => ix3 p.1 g p.2, fun p q h => Prod.ext (congrFun h 0) (congrFun h 2)⟩
  have hs : Finset.univ.filter (fun i : (⟨3, ![a, b, c]⟩ : Shape).Idx => (i 1).val = g.val) = Finset.univ.map e := by
    ext i
    simp only [Finset.mem_filter, Finset.mem_univ, true_and, Finset.mem_map]
    constructor
    · intro h
      refine ⟨(i 0, i 2), ?_⟩
      have h1 : (i 1 : Fin b) = g := Fin.ext h
      subst h1
      exact (eq_ix3 i).symm
    · rintro ⟨p, rfl⟩
      rfl
  rw [hs, Finset.sum_map, Fintype.sum_prod_type]
  rfl

/-- Dropping the image and the position of an index of the [32, 16, 3136] view leaves its group. -/
theorem drop_eq_iff (h : S32x16x3136.Reduces [0, 2] S16) (i : S32x16x3136.Idx) (g : Fin 16) :
    h.drop i = ix1 g ↔ (i 1).val = g.val := by
  have hv : (h.drop i 0 : Nat) = i 1 := h.drop_apply_val_of_eq i 0 1
  constructor
  · intro e
    rw [← hv, e]
  · intro e
    funext b
    match b with
    | ⟨0, _⟩ => exact Fin.ext (hv.trans e)

/-- The [32, 16, 3136] view of the block at (n, g, k) is the block at (n, g, k / 56, k % 56). -/
theorem view_apply {α : Type} (x : S32x16x56x56.Idx → α) (hc : S32x16x56x56.ShapeCasts S32x16x3136)
    (n : Fin 32) (g : Fin 16) (k : Fin 3136) :
    shapeCast S32x16x3136 x hc (ix3 n g k) = x (ix4 n g (rowOf k) (colOf k)) := by
  refine shapeCast_apply x hc (ix3 n g k) (ix4 n g (rowOf k) (colOf k)) ?_
  rw [Shape.rowMajor_val_four, Shape.rowMajor_val_three]
  show ((n.val * 16 + g.val) * 56 + k.val / 56) * 56 + k.val % 56 = (n.val * 16 + g.val) * 3136 + k.val
  omega

/-- The row arithmetic at group `g`: the accumulator's entry plus the sum of the block's entries of that group. -/
theorem pay4_apply (x : Vec Ideal S32x16x56x56 .f32) (acc : Vec Ideal S1x16 .f32) (g : Fin 16) :
    k0_pay4 (F := Ideal) x acc (ix2 (0 : Fin 1) g)
      = acc (ix2 (0 : Fin 1) g) + ∑ n : Fin 32, ∑ k : Fin 3136, x (ix4 n g (rowOf k) (colOf k)) := by
  unfold k0_pay4 k0_pay3
  refine (addf_apply _ _ _).trans ?_
  refine congrArg₂ (· + ·) ?_ ?_
  · exact congrFun (shapeCast_self acc _) _
  · refine (shapeCast_apply _ _ (ix2 (0 : Fin 1) g) (ix1 g) ?_).trans ?_
    · rw [Shape.rowMajor_val_one, Shape.rowMajor_val_two]
      show g.val = 0 * 16 + g.val
      omega
    · show ∑ i ∈ Finset.univ.filter (fun i => reduces_S32x16x3136_S16.drop i = ix1 g), _ = _
      rw [show Finset.univ.filter (fun i => reduces_S32x16x3136_S16.drop i = ix1 g)
            = Finset.univ.filter (fun i : S32x16x3136.Idx => (i 1).val = g.val) from by
          ext i
          simp only [Finset.mem_filter, Finset.mem_univ, true_and]
          exact drop_eq_iff _ i g]
      refine (sum_filter_mid _ g).trans ?_
      exact Finset.sum_congr rfl fun n _ => Finset.sum_congr rfl fun k _ => view_apply x _ n g k

/-- The body's batched product: per image, groups × positions times positions × groups. -/
abbrev DD : DotDims S32x16x3136 S32x16x3136 S32x16x16 := dot_S32x16x3136_S32x16x3136_S32x16x16_2_2_1_1_0_0

theorem lhs_0 (i : S32x16x16.Idx) (q : DD.contr.Idx) : (DD.lhsIdx i q 0).val = (i 0).val := by
  unfold DotDims.lhsIdx
  rw [dif_pos (show (0 : Fin S32x16x3136.rank) ∈ DD.lhsBatch by decide)]
  rfl
theorem lhs_1 (i : S32x16x16.Idx) (q : DD.contr.Idx) : (DD.lhsIdx i q 1).val = (i 1).val := by
  unfold DotDims.lhsIdx
  rw [dif_neg (show ¬(1 : Fin S32x16x3136.rank) ∈ DD.lhsBatch by decide),
    dif_pos (show (1 : Fin S32x16x3136.rank) ∈ DD.lhsNonContracting by decide)]
  rfl
theorem lhs_2 (i : S32x16x16.Idx) (q : DD.contr.Idx) : (DD.lhsIdx i q 2).val = (q ⟨0, by decide⟩).val :=
  DD.lhsIdx_val_of_single rfl i q
theorem rhs_0 (i : S32x16x16.Idx) (q : DD.contr.Idx) : (DD.rhsIdx i q 0).val = (i 0).val := by
  unfold DotDims.rhsIdx
  rw [dif_pos (show (0 : Fin S32x16x3136.rank) ∈ DD.rhsBatch by decide)]
  rfl
theorem rhs_1 (i : S32x16x16.Idx) (q : DD.contr.Idx) : (DD.rhsIdx i q 1).val = (i 2).val := by
  unfold DotDims.rhsIdx
  rw [dif_neg (show ¬(1 : Fin S32x16x3136.rank) ∈ DD.rhsBatch by decide),
    dif_pos (show (1 : Fin S32x16x3136.rank) ∈ DD.rhsNonContracting by decide)]
  rfl
theorem rhs_2 (i : S32x16x16.Idx) (q : DD.contr.Idx) : (DD.rhsIdx i q 2).val = (q ⟨0, by decide⟩).val :=
  DD.rhsIdx_val_of_single rfl i q

/-- The batched product into the zero array at (n, g, g'): the sum over positions of the two groups' products. -/
theorem mm_apply (y : FVec Ideal S32x16x3136 .f32) (n : Fin 32) (g g' : Fin 16) :
    matmul DD none y y (constant S32x16x16 .f32 0x00000000#32) (ix3 n g g')
      = ∑ k : Fin 3136, y (ix3 n g k) * y (ix3 n g' k) := by
  simp only [matmul]
  rw [Ideal.matmul_constant_zero_apply, ← Equiv.sum_comp (contrEquiv1 DD 3136 rfl rfl).symm]
  refine Finset.sum_congr rfl fun k _ => ?_
  have hk := contrEquiv1_symm_val DD 3136 rfl rfl k
  have el : DD.lhsIdx (ix3 n g g') ((contrEquiv1 DD 3136 rfl rfl).symm k) = ix3 n g k := funext fun a => Fin.ext (by
    match a with
    | ⟨0, _⟩ => exact lhs_0 _ _
    | ⟨1, _⟩ => exact lhs_1 _ _
    | ⟨2, _⟩ => exact (lhs_2 _ _).trans hk)
  have er : DD.rhsIdx (ix3 n g g') ((contrEquiv1 DD 3136 rfl rfl).symm k) = ix3 n g' k := funext fun a => Fin.ext (by
    match a with
    | ⟨0, _⟩ => exact rhs_0 _ _
    | ⟨1, _⟩ => exact rhs_1 _ _
    | ⟨2, _⟩ => exact (rhs_2 _ _).trans hk)
  rw [el, er]

/-- A sum over the leading axis of a [32, 16, 16] array at (g, g'). -/
theorem red0_apply (z : FVec Ideal S32x16x16 .f32) (h : S32x16x16.Reduces [0] S16x16) (hφ : FKind.Formats .f32)
    (hacc : (0x00000000#32 : BitVec 32) = FKind.add.neutral .f32 hφ) (g g' : Fin 16) :
    multiReduction .add [0] S16x16 z 0x00000000#32 h hφ hacc (ix2 g g') = ∑ n : Fin 32, z (ix3 n g g') := by
  refine (Ideal.multiReduction_add_single z _ h hφ hacc (ix2 g g')).trans ?_
  refine Finset.sum_congr rfl fun n _ => congrArg z (funext fun a => Fin.ext ?_)
  match a with
  | ⟨0, _⟩ => rfl
  | ⟨1, _⟩ => rfl
  | ⟨2, _⟩ => rfl

/-- The matrix arithmetic at (g, g'): the accumulator's entry plus the sum over images and positions of the products
    of the two groups' entries. -/
theorem pay5_apply (x : Vec Ideal S32x16x56x56 .f32) (acc : Vec Ideal S16x16 .f32) (g g' : Fin 16) :
    k0_pay5 (F := Ideal) x acc (ix2 g g')
      = acc (ix2 g g') + ∑ n : Fin 32, ∑ k : Fin 3136,
          x (ix4 n g (rowOf k) (colOf k)) * x (ix4 n g' (rowOf k) (colOf k)) := by
  unfold k0_pay5 k0_pay3
  refine (addf_apply _ _ _).trans ?_
  refine congrArg₂ (· + ·) ?_ ?_
  · exact congrFun (shapeCast_self acc _) _
  · refine (red0_apply _ _ _ _ g g').trans ?_
    refine Finset.sum_congr rfl fun n _ => ?_
    refine (mm_apply _ n g g').trans ?_
    exact Finset.sum_congr rfl fun k _ => by rw [view_apply, view_apply]

end Cert.KernelIdeal.Sums

end
-- ==== Proof.KSumsBlock.lean ====
/-
  Where the first pass reads and where it writes.

  Grid point t reads block t of the input: the [32, 16, 56, 56] sub-array whose channel coordinate runs over
  16·t … 16·t + 15, so its entry (n, g, h, w) is the input's entry (n, 16·t + g, h, w). Both accumulators are written
  back to their arrays once, after the last point (point 15), and each accumulator's block is its whole array: the
  arrays end holding what the body left after point 15.
-/
import proofs.«155110_j49271864820158_1_alg».proof.Proof.Gen.KernelIdeal.Frame
import Idealize.ShloMosaic.Lib.Pipeline.Value
import Idealize.ShloMosaic.Lib.ValueIdx

noncomputable section

namespace Cert.KernelIdeal.Sums

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

/-- The input window's block index at point t is (0, t, 0, 0). -/
theorem idx_facts0 : ∀ t : Fin cfg0.N, win0_0.index t 0 = 0 ∧ win0_0.index t 1 = t.val ∧ win0_0.index t 2 = 0 ∧ win0_0.index t 3 = 0 :=
  (by decide +kernel : ∀ t : Fin grid0.N, win0_0.index t 0 = 0 ∧ win0_0.index t 1 = t.val ∧ win0_0.index t 2 = 0 ∧ win0_0.index t 3 = 0)

/-- Channel 16·t + g of the input. -/
def chanAt (t : Fin cfg0.N) (g : Fin 16) : Fin 256 :=
  ⟨16 * t.val + g.val, by have := lt_of_lt_of_eq t.isLt (show cfg0.N = 16 from N_0); have := g.isLt; omega⟩

/-- Entry (n, g, h, w) of the block point t reads is the input's entry (n, 16·t + g, h, w). -/
theorem iblk_apply (c : Dev nD) (t : Fin cfg0.N) (n : Fin 32) (g : Fin 16) (r w : Fin 56) :
    (iblk0 V c 0 t : Vec F S32x16x56x56 .f32) (ix4 n g r w)
      = (V c main_arg0 : S32x256x56x56.Idx → Elt F .f32) (ix4 n (chanAt t g) r w) := by
  obtain ⟨i0, i1, i2, i3⟩ := idx_facts0 t
  unfold iblk0
  rw [View.read_apply]
  show (V c main_arg0 : S32x256x56x56.Idx → Elt F .f32) _ = _
  refine congrArg (V c main_arg0 : S32x256x56x56.Idx → Elt F .f32) (funext fun a => Fin.ext ?_)
  match a with
  | ⟨0, _⟩ => show win0_0.index t 0 * 32 + 1 * n.val = n.val; rw [i0]; omega
  | ⟨1, _⟩ => show win0_0.index t 1 * 16 + 1 * g.val = 16 * t.val + g.val; rw [i1]; omega
  | ⟨2, _⟩ => show win0_0.index t 2 * 56 + 1 * r.val = r.val; rw [i2]; omega
  | ⟨3, _⟩ => show win0_0.index t 3 * 56 + 1 * w.val = w.val; rw [i3]; omega

/-- The last grid point exists. -/
theorem lt15 : 15 < cfg0.N := by rw [show cfg0.N = 16 from N_0]; decide

/-- The one write-back of the row, after point 15, writes what the body left there: its block is the whole [1, 16] array. -/
theorem flushed_eq_1 (c : Dev nD) (t : Fin cfg0.N) (hf : (cfg0.win 1).flush t = true) :
    (dat0 V c).flushed 1 t = ((cfg0.win 1).blk t).view.read (Elt F) ((outsAt0 V c 15 lt15).1) := by
  have hN : cfg0.N = 16 := N_0
  have h15 : t.val = 15 := by have := (flush0_1 t).mp hf; have := t.isLt; omega
  obtain rfl : t = t0_15 := Fin.ext h15
  show (cfg0.win 1).cut (grid0.coords t0_15) ((dat0 V c).after 1 t0_15) = _
  rw [after0_1]
  have hz' : (fun a => win0_1.index t0_15 a * main_v0_0.ty.shape.size a) = fun _ => 0 := funext fun a => by fin_cases a <;> decide
  exact (Memref.read_access_unit_zero (Elt F) main_v0_0 hz' (fun a => by rw [congrFun hz' a]; simp) ((outsAt0 V c 15 lt15).1)).symm

/-- So the row's array ends holding what the body left after point 15. -/
theorem final_1 (c : Dev nD) : (dat0 V c).arrAt 1 cfg0.N = (outsAt0 V c 15 lt15).1 :=
  (dat0 V c).arrAt_eq_of_cover 1 ((outsAt0 V c 15 lt15).1) (flushed_eq_1 V c) fun i =>
    ⟨t0_15, (flush0_1 t0_15).mpr rfl, by
      show i ∈ ((View.whole main_v0_0).slice (win0_1.rect t0_15)).set
      rw [View.set_slice_whole, Rect.mem_set_unit]
      intro a
      have h0 : (i 0 : Nat) < 1 := (i 0).isLt
      have h1 : (i 1 : Nat) < 16 := (i 1).isLt
      match a with
      | ⟨0, _⟩ => show win0_1.index t0_15 0 * win0_1.size 0 ≤ (i 0 : Nat) ∧ (i 0 : Nat) < win0_1.index t0_15 0 * win0_1.size 0 + win0_1.xsize (grid0.coords t0_15) 0
                  rw [show win0_1.index t0_15 0 * win0_1.size 0 = 0 from by decide +kernel, show win0_1.xsize (grid0.coords t0_15) 0 = 1 from by decide +kernel]; omega
      | ⟨1, _⟩ => show win0_1.index t0_15 1 * win0_1.size 1 ≤ (i 1 : Nat) ∧ (i 1 : Nat) < win0_1.index t0_15 1 * win0_1.size 1 + win0_1.xsize (grid0.coords t0_15) 1
                  rw [show win0_1.index t0_15 1 * win0_1.size 1 = 0 from by decide +kernel, show win0_1.xsize (grid0.coords t0_15) 1 = 16 from by decide +kernel]; omega⟩

/-- The one write-back of the matrix, after point 15, writes what the body left there: its block is the whole [16, 16] array. -/
theorem flushed_eq_2 (c : Dev nD) (t : Fin cfg0.N) (hf : (cfg0.win 2).flush t = true) :
    (dat0 V c).flushed 2 t = ((cfg0.win 2).blk t).view.read (Elt F) ((outsAt0 V c 15 lt15).2) := by
  have hN : cfg0.N = 16 := N_0
  have h15 : t.val = 15 := by have := (flush0_2 t).mp hf; have := t.isLt; omega
  obtain rfl : t = t0_15 := Fin.ext h15
  show (cfg0.win 2).cut (grid0.coords t0_15) ((dat0 V c).after 2 t0_15) = _
  rw [after0_2]
  have hz' : (fun a => win0_2.index t0_15 a * main_v0_1.ty.shape.size a) = fun _ => 0 := funext fun a => by fin_cases a <;> decide
  exact (Memref.read_access_unit_zero (Elt F) main_v0_1 hz' (fun a => by rw [congrFun hz' a]; simp) ((outsAt0 V c 15 lt15).2)).symm

/-- So the matrix's array ends holding what the body left after point 15. -/
theorem final_2 (c : Dev nD) : (dat0 V c).arrAt 2 cfg0.N = (outsAt0 V c 15 lt15).2 :=
  (dat0 V c).arrAt_eq_of_cover 2 ((outsAt0 V c 15 lt15).2) (flushed_eq_2 V c) fun i =>
    ⟨t0_15, (flush0_2 t0_15).mpr rfl, by
      show i ∈ ((View.whole main_v0_1).slice (win0_2.rect t0_15)).set
      rw [View.set_slice_whole, Rect.mem_set_unit]
      intro a
      have h0 : (i 0 : Nat) < 16 := (i 0).isLt
      have h1 : (i 1 : Nat) < 16 := (i 1).isLt
      match a with
      | ⟨0, _⟩ => show win0_2.index t0_15 0 * win0_2.size 0 ≤ (i 0 : Nat) ∧ (i 0 : Nat) < win0_2.index t0_15 0 * win0_2.size 0 + win0_2.xsize (grid0.coords t0_15) 0
                  rw [show win0_2.index t0_15 0 * win0_2.size 0 = 0 from by decide +kernel, show win0_2.xsize (grid0.coords t0_15) 0 = 16 from by decide +kernel]; omega
      | ⟨1, _⟩ => show win0_2.index t0_15 1 * win0_2.size 1 ≤ (i 1 : Nat) ∧ (i 1 : Nat) < win0_2.index t0_15 1 * win0_2.size 1 + win0_2.xsize (grid0.coords t0_15) 1
                  rw [show win0_2.index t0_15 1 * win0_2.size 1 = 0 from by decide +kernel, show win0_2.xsize (grid0.coords t0_15) 1 = 16 from by decide +kernel]; omega⟩

end Cert.KernelIdeal.Sums

end
-- ==== Proof.KSums.lean ====
/-
  The two sums the first pass accumulates.

  The grid's 16 points visit the 16 channel blocks of the input x in order. After point n the row accumulator holds, for
  each group g, the sum over blocks o ≤ n, images and positions of group g's samples; the matrix accumulator holds, for
  each pair (g, g'), the same sum of the products of the two groups' samples — by induction on the point: the first
  point starts from zero, every later point adds its block's partial sums to what the point before left. After the last
  point every block has been added, and the arrays written back hold the full sums: the row of group sums and the matrix
  of cross sums of the specification. Over the extended reals addition is associative and commutative, so the order in
  which the blocks were added is immaterial.
-/
import proofs.«155110_j49271864820158_1_alg».proof.Proof.Spec
import proofs.«155110_j49271864820158_1_alg».proof.Proof.KSumsCase
import proofs.«155110_j49271864820158_1_alg».proof.Proof.KSumsPay
import proofs.«155110_j49271864820158_1_alg».proof.Proof.KSumsBlock

noncomputable section

namespace Cert.KernelIdeal.Sums

open Idealize.ShloMosaic Idealize.ShloMosaic.TcCoe Idealize.SL.Sem Idealize.ShloMosaic.ValueIdx Cert.GroupWhiten
open Idealize.ShloMosaic.Pipeline (Dat)
open Cert.KernelIdeal Cert.KernelIdeal.Gen

/-! ## Sums over the blocks up to a point -/

/-- The blocks o ≤ n. -/
abbrev upTo (n : ℕ) : Finset (Fin 16) := Finset.univ.filter fun o : Fin 16 => o.val ≤ n

theorem upTo_zero : upTo 0 = {(0 : Fin 16)} := by
  ext o
  simp only [upTo, Finset.mem_filter, Finset.mem_univ, true_and, Finset.mem_singleton, Fin.ext_iff]
  exact Nat.le_zero

theorem upTo_succ (n : ℕ) (h : n + 1 < 16) : upTo (n + 1) = insert (⟨n + 1, h⟩ : Fin 16) (upTo n) := by
  ext o
  simp only [upTo, Finset.mem_filter, Finset.mem_univ, true_and, Finset.mem_insert, Fin.ext_iff]
  omega

theorem not_mem_upTo (n : ℕ) (h : n + 1 < 16) : (⟨n + 1, h⟩ : Fin 16) ∉ upTo n := by
  simp only [upTo, Finset.mem_filter, Finset.mem_univ, true_and]
  omega

theorem upTo_last : upTo 15 = Finset.univ := by
  ext o
  simp only [upTo, Finset.mem_filter, Finset.mem_univ, true_and, iff_true]
  have := o.isLt
  omega

/-- Group g's samples summed over the blocks up to n. -/
def rowUpTo (x : SX.Idx → EReal) (n : ℕ) (g : Fin 16) : EReal :=
  ∑ o ∈ upTo n, ∑ i : Fin 32, ∑ k : Fin 3136, samp x g i o k

/-- The products of groups g and g' summed over the blocks up to n. -/
def crossUpTo (x : SX.Idx → EReal) (n : ℕ) (g g' : Fin 16) : EReal :=
  ∑ o ∈ upTo n, ∑ i : Fin 32, ∑ k : Fin 3136, samp x g i o k * samp x g' i o k

theorem rowUpTo_zero (x : SX.Idx → EReal) (g : Fin 16) :
    rowUpTo x 0 g = ∑ i : Fin 32, ∑ k : Fin 3136, samp x g i (0 : Fin 16) k := by
  unfold rowUpTo; rw [upTo_zero, Finset.sum_singleton]

theorem rowUpTo_succ (x : SX.Idx → EReal) (n : ℕ) (h : n + 1 < 16) (g : Fin 16) :
    rowUpTo x (n + 1) g = rowUpTo x n g + ∑ i : Fin 32, ∑ k : Fin 3136, samp x g i (⟨n + 1, h⟩ : Fin 16) k := by
  unfold rowUpTo; rw [upTo_succ n h, Finset.sum_insert (not_mem_upTo n h), add_comm]

theorem crossUpTo_zero (x : SX.Idx → EReal) (g g' : Fin 16) :
    crossUpTo x 0 g g' = ∑ i : Fin 32, ∑ k : Fin 3136, samp x g i (0 : Fin 16) k * samp x g' i (0 : Fin 16) k := by
  unfold crossUpTo; rw [upTo_zero, Finset.sum_singleton]

theorem crossUpTo_succ (x : SX.Idx → EReal) (n : ℕ) (h : n + 1 < 16) (g g' : Fin 16) :
    crossUpTo x (n + 1) g g' = crossUpTo x n g g'
      + ∑ i : Fin 32, ∑ k : Fin 3136, samp x g i (⟨n + 1, h⟩ : Fin 16) k * samp x g' i (⟨n + 1, h⟩ : Fin 16) k := by
  unfold crossUpTo; rw [upTo_succ n h, Finset.sum_insert (not_mem_upTo n h), add_comm]

/-! ## The zero the first point starts from -/

theorem pay1_apply (i : S1x16.Idx) : k0_pay1 (F := Ideal) i = 0 := by
  unfold k0_pay1
  exact Ideal.ofBits_zero_f32

theorem pay2_apply (i : S16x16.Idx) : k0_pay2 (F := Ideal) i = 0 := by
  unfold k0_pay2
  exact Ideal.ofBits_zero_f32

/-! ## A point's block sums are the input's -/

section
variable (V : (c : Dev nD) → (b : Ref sig .tc) → Buf (Elt Ideal) ((c : Thread nD τ).loc b))

/-- The input as the region finds it. -/
abbrev X (c : Dev nD) : SX.Idx → EReal := V c main_arg0

/-- Point t's block, as a block number. -/
def blkOf (t : Fin cfg0.N) : Fin 16 := ⟨t.val, lt_of_lt_of_eq t.isLt (show cfg0.N = 16 from N_0)⟩

/-- The block point t reads, as a function to the extended reals. -/
abbrev blockAt (c : Dev nD) (t : Fin cfg0.N) : S32x16x56x56.Idx → EReal := iblk0 V c 0 t

theorem blockAt_apply (c : Dev nD) (t : Fin cfg0.N) (i : Fin 32) (g : Fin 16) (k : Fin 3136) :
    blockAt V c t (ix4 i g (rowOf k) (colOf k)) = samp (X V c) g i (blkOf t) k :=
  iblk_apply V c t i g (rowOf k) (colOf k)

theorem block_row (c : Dev nD) (t : Fin cfg0.N) (g : Fin 16) :
    ∑ i : Fin 32, ∑ k : Fin 3136, blockAt V c t (ix4 i g (rowOf k) (colOf k))
      = ∑ i : Fin 32, ∑ k : Fin 3136, samp (X V c) g i (blkOf t) k :=
  Finset.sum_congr rfl fun i _ => Finset.sum_congr rfl fun k _ => blockAt_apply V c t i g k

theorem block_cross (c : Dev nD) (t : Fin cfg0.N) (g g' : Fin 16) :
    ∑ i : Fin 32, ∑ k : Fin 3136, blockAt V c t (ix4 i g (rowOf k) (colOf k)) * blockAt V c t (ix4 i g' (rowOf k) (colOf k))
      = ∑ i : Fin 32, ∑ k : Fin 3136, samp (X V c) g i (blkOf t) k * samp (X V c) g' i (blkOf t) k :=
  Finset.sum_congr rfl fun i _ => Finset.sum_congr rfl fun k _ => by
    rw [blockAt_apply V c t i g k, blockAt_apply V c t i g' k]

end

/-! ## What the accumulators hold after each point -/

section
variable (V : (c : Dev nD) → (b : Ref sig .tc) → Buf (Elt Ideal) ((c : Thread nD τ).loc b))

/-- After point n the row accumulator holds the group sums over the blocks up to n, and the matrix accumulator the
    cross sums over the blocks up to n. -/
theorem outsAt_apply (c : Dev nD) : ∀ (n : ℕ) (h : n < cfg0.N),
    (∀ g : Fin 16, (outsAt0 V c n h).1 (ix2 (0 : Fin 1) g) = rowUpTo (X V c) n g)
      ∧ (∀ g g' : Fin 16, (outsAt0 V c n h).2 (ix2 g g') = crossUpTo (X V c) n g g')
  | 0, h => by
    have e : outsAt0 V c 0 h = _ := outsAt0_A V c ⟨0, h⟩ rfl
    rw [e, out_A_1, out_A_2]
    refine ⟨fun g => ?_, fun g g' => ?_⟩
    · refine (pay4_apply _ _ g).trans ?_
      rw [rowUpTo_zero]
      exact (congrArg₂ (· + ·) (pay1_apply _) (block_row V c ⟨0, h⟩ g)).trans (zero_add _)
    · refine (pay5_apply _ _ g g').trans ?_
      rw [crossUpTo_zero]
      exact (congrArg₂ (· + ·) (pay2_apply _) (block_cross V c ⟨0, h⟩ g g')).trans (zero_add _)
  | n + 1, h => by
    have hN : cfg0.N = 16 := N_0
    have hB : ¬(⟨n + 1, h⟩ : Fin cfg0.N).val % 16 = 0 := by dsimp only; omega
    obtain ⟨ih1, ih2⟩ := outsAt_apply c n (Nat.lt_of_succ_lt h)
    have e : outsAt0 V c (n + 1) h = _ := outsAt0_B V c ⟨n + 1, h⟩ hB
    rw [e, out_B_1, out_B_2]
    refine ⟨fun g => ?_, fun g g' => ?_⟩
    · refine (pay4_apply _ _ g).trans ?_
      rw [rowUpTo_succ _ n (by omega) g]
      exact congrArg₂ (· + ·) (ih1 g) (block_row V c ⟨n + 1, h⟩ g)
    · refine (pay5_apply _ _ g g').trans ?_
      rw [crossUpTo_succ _ n (by omega) g g']
      exact congrArg₂ (· + ·) (ih2 g g') (block_cross V c ⟨n + 1, h⟩ g g')

end

/-! ## The arrays the first pass leaves -/

variable (m : (ℓ : Loc nD τ sig) → Buf (Elt Ideal) ℓ) (ρ : Dev nD → PrngReg) (c : Dev nD)

/-- The row the first pass leaves is the row of group sums of the input. -/
theorem W1_sum : (Gen.W1 m ρ c (Proc.devRef .tc main_v0_0) : FVec Ideal S1x16 .f32)
    = sumRow (m ((c.tc : Thread nD τ).loc main_arg0)) := by
  have e : (Gen.W1 m ρ c (Proc.devRef .tc main_v0_0) : FVec Ideal S1x16 .f32) = (outsAt0 (V0 m ρ) c 15 lt15).1 :=
    (W1_arr m ρ c 1).trans (final_1 (V0 m ρ) c)
  rw [e]
  funext i
  obtain ⟨a, g, rfl⟩ : ∃ (a : Fin 1) (g : Fin 16), i = ix2 a g := ⟨i 0, i 1, eq_ix2 i⟩
  obtain rfl : a = 0 := Subsingleton.elim _ _
  rw [(outsAt_apply (V0 m ρ) c 15 lt15).1 g]
  unfold rowUpTo
  rw [upTo_last]
  rfl

/-- The matrix the first pass leaves is the matrix of cross sums of the input. -/
theorem W1_cross : (Gen.W1 m ρ c (Proc.devRef .tc main_v0_1) : FVec Ideal S16x16 .f32)
    = crossMat (m ((c.tc : Thread nD τ).loc main_arg0)) := by
  have e : (Gen.W1 m ρ c (Proc.devRef .tc main_v0_1) : FVec Ideal S16x16 .f32) = (outsAt0 (V0 m ρ) c 15 lt15).2 :=
    (W1_arr m ρ c 2).trans (final_2 (V0 m ρ) c)
  rw [e]
  funext i
  obtain ⟨g, g', rfl⟩ : ∃ (g g' : Fin 16), i = ix2 g g' := ⟨i 0, i 1, eq_ix2 i⟩
  rw [(outsAt_apply (V0 m ρ) c 15 lt15).2 g g']
  unfold crossUpTo
  rw [upTo_last]
  rfl

/-- The first pass leaves its input as launched, -/
theorem W1_arg0 : Gen.W1 m ρ c (Proc.devRef .tc main_arg0) = m ((c.tc : Thread nD τ).loc main_arg0) :=
  (W1_arr m ρ c 0).trans (((dat0 (V0 m ρ) c).arrAt_in 0 rfl _).trans (A_eq0 (V0 m ρ) c 0))

/-- and does not touch the scale and the shift. -/
theorem W1_arg1 : Gen.W1 m ρ c (Proc.devRef .tc main_arg1) = m ((c.tc : Thread nD τ).loc main_arg1) :=
  W1_of_ne m ρ c main_arg1 (by decide)

theorem W1_arg2 : Gen.W1 m ρ c (Proc.devRef .tc main_arg2) = m ((c.tc : Thread nD τ).loc main_arg2) :=
  W1_of_ne m ρ c main_arg2 (by decide)

end Cert.KernelIdeal.Sums

end
-- ==== Proof.RHostOps.lean ====
/-
  The reference's 158 host operations, in order, cut into sixteen consecutive stretches: the centred samples and their
  products, the covariance, the norm and the start, the two identities, the ten Newton–Schulz trips, and the end with the
  output. The whole line is the stretches one after the other.
-/
import proofs.«155110_j49271864820158_1_alg».proof.Proof.RefRunP

noncomputable section

namespace Cert.ReferenceIdeal.HostVal

open Cert.ReferenceIdeal Cert.ReferenceIdeal.Gen Idealize.ShloMosaic Idealize.ShloMosaic.TcCoe Idealize.SL.Sem Idealize.ShloMosaic.StableHlo

variable {F : FTy → Type} [FloatOps F]

/-- The centred samples and their 16×16 matrix of products: the input regrouped as 16 rows of 1605632 samples, the mean of each row taken off, and the product of that array with its transpose. (Operations 1–13 of the line.) -/
def opsCentre : List (HloOp τ sig (Elt F)) :=
  [ reshape main_arg0 main_v0 rfl shapeCasts_S32x256x56x56_S32x16x16x56x56,
    unary main_v0 main_v1 ((transpose S16x32x16x56x56 [2, 0, 1, 3, 4] · transposes_S32x16x16x56x56_S16x32x16x56x56_2_0_1_3_4) : (⟨S32x16x16x56x56, .f32⟩ : BufTy).Contents (Elt F) → (⟨S16x32x16x56x56, .f32⟩ : BufTy).Contents (Elt F)),
    reshape main_v1 main_v2 rfl shapeCasts_S16x32x16x56x56_S16x1605632,
    nullary main_cst (constant S_ .f32 0x00000000#32),
    binary main_v2 main_cst main_v3 ((fun x v => Host.reduceAdd x v reducesTo_S16x1605632_S16_d1 h_S_) : (⟨S16x1605632, .f32⟩ : BufTy).Contents (Elt F) → (⟨S_, .f32⟩ : BufTy).Contents (Elt F) → (⟨S16, .f32⟩ : BufTy).Contents (Elt F)),
    unary main_v3 main_v4 (broadcastInDim S16x1 ![0] bcast_S16_S16x1_0 : (⟨S16, .f32⟩ : BufTy).Contents (Elt F) → (⟨S16x1, .f32⟩ : BufTy).Contents (Elt F)),
    nullary main_cst_0 (constant S_ .f32 0x49C40000#32),
    unary main_cst_0 main_v5 (broadcastInDim S16x1 ![] bcast_S_S16x1 : (⟨S_, .f32⟩ : BufTy).Contents (Elt F) → (⟨S16x1, .f32⟩ : BufTy).Contents (Elt F)),
    binary main_v4 main_v5 main_v6 (Host.divf : (⟨S16x1, .f32⟩ : BufTy).Contents (Elt F) → (⟨S16x1, .f32⟩ : BufTy).Contents (Elt F) → (⟨S16x1, .f32⟩ : BufTy).Contents (Elt F)),
    unary main_v6 main_v7 (broadcastInDim S16x1605632 ![0, 1] bcast_S16x1_S16x1605632_0_1 : (⟨S16x1, .f32⟩ : BufTy).Contents (Elt F) → (⟨S16x1605632, .f32⟩ : BufTy).Contents (Elt F)),
    binary main_v2 main_v7 main_v8 (subf : (⟨S16x1605632, .f32⟩ : BufTy).Contents (Elt F) → (⟨S16x1605632, .f32⟩ : BufTy).Contents (Elt F) → (⟨S16x1605632, .f32⟩ : BufTy).Contents (Elt F)),
    unary main_v8 main_v9 ((transpose S1605632x16 [1, 0] · transposes_S16x1605632_S1605632x16_1_0) : (⟨S16x1605632, .f32⟩ : BufTy).Contents (Elt F) → (⟨S1605632x16, .f32⟩ : BufTy).Contents (Elt F)),
    binary main_v8 main_v9 main_v10 ((fun l r => Host.dotGeneral dot_S16x1605632_S1605632x16_S16x16_1_0_0_1_n_n none l r) : (⟨S16x1605632, .f32⟩ : BufTy).Contents (Elt F) → (⟨S1605632x16, .f32⟩ : BufTy).Contents (Elt F) → (⟨S16x16, .f32⟩ : BufTy).Contents (Elt F)) ]

/-- The covariance: the products divided by the number of samples, plus ε times the identity. (Operations 14–27 of the line.) -/
def opsCov : List (HloOp τ sig (Elt F)) :=
  [ nullary main_cst_1 (constant S_ .f32 0x49C40000#32),
    unary main_cst_1 main_v11 (broadcastInDim S16x16 ![] bcast_S_S16x16 : (⟨S_, .f32⟩ : BufTy).Contents (Elt F) → (⟨S16x16, .f32⟩ : BufTy).Contents (Elt F)),
    binary main_v10 main_v11 main_v12 (Host.divf : (⟨S16x16, .f32⟩ : BufTy).Contents (Elt F) → (⟨S16x16, .f32⟩ : BufTy).Contents (Elt F) → (⟨S16x16, .f32⟩ : BufTy).Contents (Elt F)),
    nullary main_v13 (iotaInDim S16x16 32 0),
    nullary main_v14 (iotaInDim S16x16 32 1),
    nullary main_c (constantI S_ 32 0#32),
    unary main_c main_v15 (broadcastInDim S16x16 ![] bcast_S_S16x16 : (⟨S_, .i32⟩ : BufTy).Contents (Elt F) → (⟨S16x16, .i32⟩ : BufTy).Contents (Elt F)),
    binary main_v13 main_v15 main_v16 (addi : (⟨S16x16, .i32⟩ : BufTy).Contents (Elt F) → (⟨S16x16, .i32⟩ : BufTy).Contents (Elt F) → (⟨S16x16, .i32⟩ : BufTy).Contents (Elt F)),
    binary main_v16 main_v14 main_v17 (cmpi .eq : (⟨S16x16, .i32⟩ : BufTy).Contents (Elt F) → (⟨S16x16, .i32⟩ : BufTy).Contents (Elt F) → (⟨S16x16, .i1⟩ : BufTy).Contents (Elt F)),
    unary main_v17 main_v18 (uitofp .f32 : (⟨S16x16, .i1⟩ : BufTy).Contents (Elt F) → (⟨S16x16, .f32⟩ : BufTy).Contents (Elt F)),
    nullary main_cst_2 (constant S_ .f32 0x3727C5AC#32),
    unary main_cst_2 main_v19 (broadcastInDim S16x16 ![] bcast_S_S16x16 : (⟨S_, .f32⟩ : BufTy).Contents (Elt F) → (⟨S16x16, .f32⟩ : BufTy).Contents (Elt F)),
    binary main_v19 main_v18 main_v20 (mulf : (⟨S16x16, .f32⟩ : BufTy).Contents (Elt F) → (⟨S16x16, .f32⟩ : BufTy).Contents (Elt F) → (⟨S16x16, .f32⟩ : BufTy).Contents (Elt F)),
    binary main_v12 main_v20 main_v21 (addf : (⟨S16x16, .f32⟩ : BufTy).Contents (Elt F) → (⟨S16x16, .f32⟩ : BufTy).Contents (Elt F) → (⟨S16x16, .f32⟩ : BufTy).Contents (Elt F)) ]

/-- The Frobenius norm of the covariance (the inlined function's four operations) and the start Y₀ = A / ‖A‖. (Operations 28–33 of the line.) -/
def opsNorm : List (HloOp τ sig (Elt F)) :=
  [ TRef.binary (TRef.of (T := ⟨S16x16, .f32⟩) main_v21) (TRef.of (T := ⟨S16x16, .f32⟩) main_v21) (TRef.of (T := ⟨S16x16, .f32⟩) main_call0_v0) mulf,
    TRef.nullary (TRef.of (T := ⟨S_, .f32⟩) main_call0_cst) (constant S_ .f32 0x00000000#32),
    TRef.binary (TRef.of (T := ⟨S16x16, .f32⟩) main_call0_v0) (TRef.of (T := ⟨S_, .f32⟩) main_call0_cst) (TRef.of (T := ⟨S_, .f32⟩) main_call0_v1) (fun x v => Host.reduceAdd x v reducesTo_S16x16_S_d0_1 h_S_),
    TRef.unary (TRef.of (T := ⟨S_, .f32⟩) main_call0_v1) (TRef.of (T := ⟨S_, .f32⟩) main_v22) Host.sqrt,
    unary main_v22 main_v23 (broadcastInDim S16x16 ![] bcast_S_S16x16 : (⟨S_, .f32⟩ : BufTy).Contents (Elt F) → (⟨S16x16, .f32⟩ : BufTy).Contents (Elt F)),
    binary main_v21 main_v23 main_v24 (Host.divf : (⟨S16x16, .f32⟩ : BufTy).Contents (Elt F) → (⟨S16x16, .f32⟩ : BufTy).Contents (Elt F) → (⟨S16x16, .f32⟩ : BufTy).Contents (Elt F)) ]

/-- The identity, twice: the I of the trips and the start Z₀. (Operations 34–47 of the line.) -/
def opsEye : List (HloOp τ sig (Elt F)) :=
  [ nullary main_v25 (iotaInDim S16x16 32 0),
    nullary main_v26 (iotaInDim S16x16 32 1),
    nullary main_c_3 (constantI S_ 32 0#32),
    unary main_c_3 main_v27 (broadcastInDim S16x16 ![] bcast_S_S16x16 : (⟨S_, .i32⟩ : BufTy).Contents (Elt F) → (⟨S16x16, .i32⟩ : BufTy).Contents (Elt F)),
    binary main_v25 main_v27 main_v28 (addi : (⟨S16x16, .i32⟩ : BufTy).Contents (Elt F) → (⟨S16x16, .i32⟩ : BufTy).Contents (Elt F) → (⟨S16x16, .i32⟩ : BufTy).Contents (Elt F)),
    binary main_v28 main_v26 main_v29 (cmpi .eq : (⟨S16x16, .i32⟩ : BufTy).Contents (Elt F) → (⟨S16x16, .i32⟩ : BufTy).Contents (Elt F) → (⟨S16x16, .i1⟩ : BufTy).Contents (Elt F)),
    unary main_v29 main_v30 (uitofp .f32 : (⟨S16x16, .i1⟩ : BufTy).Contents (Elt F) → (⟨S16x16, .f32⟩ : BufTy).Contents (Elt F)),
    nullary main_v31 (iotaInDim S16x16 32 0),
    nullary main_v32 (iotaInDim S16x16 32 1),
    nullary main_c_4 (constantI S_ 32 0#32),
    unary main_c_4 main_v33 (broadcastInDim S16x16 ![] bcast_S_S16x16 : (⟨S_, .i32⟩ : BufTy).Contents (Elt F) → (⟨S16x16, .i32⟩ : BufTy).Contents (Elt F)),
    binary main_v31 main_v33 main_v34 (addi : (⟨S16x16, .i32⟩ : BufTy).Contents (Elt F) → (⟨S16x16, .i32⟩ : BufTy).Contents (Elt F) → (⟨S16x16, .i32⟩ : BufTy).Contents (Elt F)),
    binary main_v34 main_v32 main_v35 (cmpi .eq : (⟨S16x16, .i32⟩ : BufTy).Contents (Elt F) → (⟨S16x16, .i32⟩ : BufTy).Contents (Elt F) → (⟨S16x16, .i1⟩ : BufTy).Contents (Elt F)),
    unary main_v35 main_v36 (uitofp .f32 : (⟨S16x16, .i1⟩ : BufTy).Contents (Elt F) → (⟨S16x16, .f32⟩ : BufTy).Contents (Elt F)) ]

/-- Trip 1: T = ½ (3·I − Z·Y), Y ← Y·T, Z ← T·Z. (Operations 48–57 of the line.) -/
def opsTrip1 : List (HloOp τ sig (Elt F)) :=
  [ nullary main_cst_5 (constant S_ .f32 0x40400000#32),
    unary main_cst_5 main_v37 (broadcastInDim S16x16 ![] bcast_S_S16x16 : (⟨S_, .f32⟩ : BufTy).Contents (Elt F) → (⟨S16x16, .f32⟩ : BufTy).Contents (Elt F)),
    binary main_v37 main_v30 main_v38 (mulf : (⟨S16x16, .f32⟩ : BufTy).Contents (Elt F) → (⟨S16x16, .f32⟩ : BufTy).Contents (Elt F) → (⟨S16x16, .f32⟩ : BufTy).Contents (Elt F)),
    binary main_v36 main_v24 main_v39 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    binary main_v38 main_v39 main_v40 (subf : (⟨S16x16, .f32⟩ : BufTy).Contents (Elt F) → (⟨S16x16, .f32⟩ : BufTy).Contents (Elt F) → (⟨S16x16, .f32⟩ : BufTy).Contents (Elt F)),
    nullary main_cst_6 (constant S_ .f32 0x3F000000#32),
    unary main_cst_6 main_v41 (broadcastInDim S16x16 ![] bcast_S_S16x16 : (⟨S_, .f32⟩ : BufTy).Contents (Elt F) → (⟨S16x16, .f32⟩ : BufTy).Contents (Elt F)),
    binary main_v41 main_v40 main_v42 (mulf : (⟨S16x16, .f32⟩ : BufTy).Contents (Elt F) → (⟨S16x16, .f32⟩ : BufTy).Contents (Elt F) → (⟨S16x16, .f32⟩ : BufTy).Contents (Elt F)),
    binary main_v24 main_v42 main_v43 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    binary main_v42 main_v36 main_v44 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)) ]

/-- Trip 2: T = ½ (3·I − Z·Y), Y ← Y·T, Z ← T·Z. (Operations 58–67 of the line.) -/
def opsTrip2 : List (HloOp τ sig (Elt F)) :=
  [ nullary main_cst_7 (constant S_ .f32 0x40400000#32),
    unary main_cst_7 main_v45 (broadcastInDim S16x16 ![] bcast_S_S16x16 : (⟨S_, .f32⟩ : BufTy).Contents (Elt F) → (⟨S16x16, .f32⟩ : BufTy).Contents (Elt F)),
    binary main_v45 main_v30 main_v46 (mulf : (⟨S16x16, .f32⟩ : BufTy).Contents (Elt F) → (⟨S16x16, .f32⟩ : BufTy).Contents (Elt F) → (⟨S16x16, .f32⟩ : BufTy).Contents (Elt F)),
    binary main_v44 main_v43 main_v47 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    binary main_v46 main_v47 main_v48 (subf : (⟨S16x16, .f32⟩ : BufTy).Contents (Elt F) → (⟨S16x16, .f32⟩ : BufTy).Contents (Elt F) → (⟨S16x16, .f32⟩ : BufTy).Contents (Elt F)),
    nullary main_cst_8 (constant S_ .f32 0x3F000000#32),
    unary main_cst_8 main_v49 (broadcastInDim S16x16 ![] bcast_S_S16x16 : (⟨S_, .f32⟩ : BufTy).Contents (Elt F) → (⟨S16x16, .f32⟩ : BufTy).Contents (Elt F)),
    binary main_v49 main_v48 main_v50 (mulf : (⟨S16x16, .f32⟩ : BufTy).Contents (Elt F) → (⟨S16x16, .f32⟩ : BufTy).Contents (Elt F) → (⟨S16x16, .f32⟩ : BufTy).Contents (Elt F)),
    binary main_v43 main_v50 main_v51 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    binary main_v50 main_v44 main_v52 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)) ]

/-- Trip 3: T = ½ (3·I − Z·Y), Y ← Y·T, Z ← T·Z. (Operations 68–77 of the line.) -/
def opsTrip3 : List (HloOp τ sig (Elt F)) :=
  [ nullary main_cst_9 (constant S_ .f32 0x40400000#32),
    unary main_cst_9 main_v53 (broadcastInDim S16x16 ![] bcast_S_S16x16 : (⟨S_, .f32⟩ : BufTy).Contents (Elt F) → (⟨S16x16, .f32⟩ : BufTy).Contents (Elt F)),
    binary main_v53 main_v30 main_v54 (mulf : (⟨S16x16, .f32⟩ : BufTy).Contents (Elt F) → (⟨S16x16, .f32⟩ : BufTy).Contents (Elt F) → (⟨S16x16, .f32⟩ : BufTy).Contents (Elt F)),
    binary main_v52 main_v51 main_v55 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    binary main_v54 main_v55 main_v56 (subf : (⟨S16x16, .f32⟩ : BufTy).Contents (Elt F) → (⟨S16x16, .f32⟩ : BufTy).Contents (Elt F) → (⟨S16x16, .f32⟩ : BufTy).Contents (Elt F)),
    nullary main_cst_10 (constant S_ .f32 0x3F000000#32),
    unary main_cst_10 main_v57 (broadcastInDim S16x16 ![] bcast_S_S16x16 : (⟨S_, .f32⟩ : BufTy).Contents (Elt F) → (⟨S16x16, .f32⟩ : BufTy).Contents (Elt F)),
    binary main_v57 main_v56 main_v58 (mulf : (⟨S16x16, .f32⟩ : BufTy).Contents (Elt F) → (⟨S16x16, .f32⟩ : BufTy).Contents (Elt F) → (⟨S16x16, .f32⟩ : BufTy).Contents (Elt F)),
    binary main_v51 main_v58 main_v59 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    binary main_v58 main_v52 main_v60 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)) ]

/-- Trip 4: T = ½ (3·I − Z·Y), Y ← Y·T, Z ← T·Z. (Operations 78–87 of the line.) -/
def opsTrip4 : List (HloOp τ sig (Elt F)) :=
  [ nullary main_cst_11 (constant S_ .f32 0x40400000#32),
    unary main_cst_11 main_v61 (broadcastInDim S16x16 ![] bcast_S_S16x16 : (⟨S_, .f32⟩ : BufTy).Contents (Elt F) → (⟨S16x16, .f32⟩ : BufTy).Contents (Elt F)),
    binary main_v61 main_v30 main_v62 (mulf : (⟨S16x16, .f32⟩ : BufTy).Contents (Elt F) → (⟨S16x16, .f32⟩ : BufTy).Contents (Elt F) → (⟨S16x16, .f32⟩ : BufTy).Contents (Elt F)),
    binary main_v60 main_v59 main_v63 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    binary main_v62 main_v63 main_v64 (subf : (⟨S16x16, .f32⟩ : BufTy).Contents (Elt F) → (⟨S16x16, .f32⟩ : BufTy).Contents (Elt F) → (⟨S16x16, .f32⟩ : BufTy).Contents (Elt F)),
    nullary main_cst_12 (constant S_ .f32 0x3F000000#32),
    unary main_cst_12 main_v65 (broadcastInDim S16x16 ![] bcast_S_S16x16 : (⟨S_, .f32⟩ : BufTy).Contents (Elt F) → (⟨S16x16, .f32⟩ : BufTy).Contents (Elt F)),
    binary main_v65 main_v64 main_v66 (mulf : (⟨S16x16, .f32⟩ : BufTy).Contents (Elt F) → (⟨S16x16, .f32⟩ : BufTy).Contents (Elt F) → (⟨S16x16, .f32⟩ : BufTy).Contents (Elt F)),
    binary main_v59 main_v66 main_v67 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    binary main_v66 main_v60 main_v68 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)) ]

/-- Trip 5: T = ½ (3·I − Z·Y), Y ← Y·T, Z ← T·Z. (Operations 88–97 of the line.) -/
def opsTrip5 : List (HloOp τ sig (Elt F)) :=
  [ nullary main_cst_13 (constant S_ .f32 0x40400000#32),
    unary main_cst_13 main_v69 (broadcastInDim S16x16 ![] bcast_S_S16x16 : (⟨S_, .f32⟩ : BufTy).Contents (Elt F) → (⟨S16x16, .f32⟩ : BufTy).Contents (Elt F)),
    binary main_v69 main_v30 main_v70 (mulf : (⟨S16x16, .f32⟩ : BufTy).Contents (Elt F) → (⟨S16x16, .f32⟩ : BufTy).Contents (Elt F) → (⟨S16x16, .f32⟩ : BufTy).Contents (Elt F)),
    binary main_v68 main_v67 main_v71 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    binary main_v70 main_v71 main_v72 (subf : (⟨S16x16, .f32⟩ : BufTy).Contents (Elt F) → (⟨S16x16, .f32⟩ : BufTy).Contents (Elt F) → (⟨S16x16, .f32⟩ : BufTy).Contents (Elt F)),
    nullary main_cst_14 (constant S_ .f32 0x3F000000#32),
    unary main_cst_14 main_v73 (broadcastInDim S16x16 ![] bcast_S_S16x16 : (⟨S_, .f32⟩ : BufTy).Contents (Elt F) → (⟨S16x16, .f32⟩ : BufTy).Contents (Elt F)),
    binary main_v73 main_v72 main_v74 (mulf : (⟨S16x16, .f32⟩ : BufTy).Contents (Elt F) → (⟨S16x16, .f32⟩ : BufTy).Contents (Elt F) → (⟨S16x16, .f32⟩ : BufTy).Contents (Elt F)),
    binary main_v67 main_v74 main_v75 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    binary main_v74 main_v68 main_v76 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)) ]

/-- Trip 6: T = ½ (3·I − Z·Y), Y ← Y·T, Z ← T·Z. (Operations 98–107 of the line.) -/
def opsTrip6 : List (HloOp τ sig (Elt F)) :=
  [ nullary main_cst_15 (constant S_ .f32 0x40400000#32),
    unary main_cst_15 main_v77 (broadcastInDim S16x16 ![] bcast_S_S16x16 : (⟨S_, .f32⟩ : BufTy).Contents (Elt F) → (⟨S16x16, .f32⟩ : BufTy).Contents (Elt F)),
    binary main_v77 main_v30 main_v78 (mulf : (⟨S16x16, .f32⟩ : BufTy).Contents (Elt F) → (⟨S16x16, .f32⟩ : BufTy).Contents (Elt F) → (⟨S16x16, .f32⟩ : BufTy).Contents (Elt F)),
    binary main_v76 main_v75 main_v79 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    binary main_v78 main_v79 main_v80 (subf : (⟨S16x16, .f32⟩ : BufTy).Contents (Elt F) → (⟨S16x16, .f32⟩ : BufTy).Contents (Elt F) → (⟨S16x16, .f32⟩ : BufTy).Contents (Elt F)),
    nullary main_cst_16 (constant S_ .f32 0x3F000000#32),
    unary main_cst_16 main_v81 (broadcastInDim S16x16 ![] bcast_S_S16x16 : (⟨S_, .f32⟩ : BufTy).Contents (Elt F) → (⟨S16x16, .f32⟩ : BufTy).Contents (Elt F)),
    binary main_v81 main_v80 main_v82 (mulf : (⟨S16x16, .f32⟩ : BufTy).Contents (Elt F) → (⟨S16x16, .f32⟩ : BufTy).Contents (Elt F) → (⟨S16x16, .f32⟩ : BufTy).Contents (Elt F)),
    binary main_v75 main_v82 main_v83 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    binary main_v82 main_v76 main_v84 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)) ]

/-- Trip 7: T = ½ (3·I − Z·Y), Y ← Y·T, Z ← T·Z. (Operations 108–117 of the line.) -/
def opsTrip7 : List (HloOp τ sig (Elt F)) :=
  [ nullary main_cst_17 (constant S_ .f32 0x40400000#32),
    unary main_cst_17 main_v85 (broadcastInDim S16x16 ![] bcast_S_S16x16 : (⟨S_, .f32⟩ : BufTy).Contents (Elt F) → (⟨S16x16, .f32⟩ : BufTy).Contents (Elt F)),
    binary main_v85 main_v30 main_v86 (mulf : (⟨S16x16, .f32⟩ : BufTy).Contents (Elt F) → (⟨S16x16, .f32⟩ : BufTy).Contents (Elt F) → (⟨S16x16, .f32⟩ : BufTy).Contents (Elt F)),
    binary main_v84 main_v83 main_v87 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    binary main_v86 main_v87 main_v88 (subf : (⟨S16x16, .f32⟩ : BufTy).Contents (Elt F) → (⟨S16x16, .f32⟩ : BufTy).Contents (Elt F) → (⟨S16x16, .f32⟩ : BufTy).Contents (Elt F)),
    nullary main_cst_18 (constant S_ .f32 0x3F000000#32),
    unary main_cst_18 main_v89 (broadcastInDim S16x16 ![] bcast_S_S16x16 : (⟨S_, .f32⟩ : BufTy).Contents (Elt F) → (⟨S16x16, .f32⟩ : BufTy).Contents (Elt F)),
    binary main_v89 main_v88 main_v90 (mulf : (⟨S16x16, .f32⟩ : BufTy).Contents (Elt F) → (⟨S16x16, .f32⟩ : BufTy).Contents (Elt F) → (⟨S16x16, .f32⟩ : BufTy).Contents (Elt F)),
    binary main_v83 main_v90 main_v91 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    binary main_v90 main_v84 main_v92 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)) ]

/-- Trip 8: T = ½ (3·I − Z·Y), Y ← Y·T, Z ← T·Z. (Operations 118–127 of the line.) -/
def opsTrip8 : List (HloOp τ sig (Elt F)) :=
  [ nullary main_cst_19 (constant S_ .f32 0x40400000#32),
    unary main_cst_19 main_v93 (broadcastInDim S16x16 ![] bcast_S_S16x16 : (⟨S_, .f32⟩ : BufTy).Contents (Elt F) → (⟨S16x16, .f32⟩ : BufTy).Contents (Elt F)),
    binary main_v93 main_v30 main_v94 (mulf : (⟨S16x16, .f32⟩ : BufTy).Contents (Elt F) → (⟨S16x16, .f32⟩ : BufTy).Contents (Elt F) → (⟨S16x16, .f32⟩ : BufTy).Contents (Elt F)),
    binary main_v92 main_v91 main_v95 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    binary main_v94 main_v95 main_v96 (subf : (⟨S16x16, .f32⟩ : BufTy).Contents (Elt F) → (⟨S16x16, .f32⟩ : BufTy).Contents (Elt F) → (⟨S16x16, .f32⟩ : BufTy).Contents (Elt F)),
    nullary main_cst_20 (constant S_ .f32 0x3F000000#32),
    unary main_cst_20 main_v97 (broadcastInDim S16x16 ![] bcast_S_S16x16 : (⟨S_, .f32⟩ : BufTy).Contents (Elt F) → (⟨S16x16, .f32⟩ : BufTy).Contents (Elt F)),
    binary main_v97 main_v96 main_v98 (mulf : (⟨S16x16, .f32⟩ : BufTy).Contents (Elt F) → (⟨S16x16, .f32⟩ : BufTy).Contents (Elt F) → (⟨S16x16, .f32⟩ : BufTy).Contents (Elt F)),
    binary main_v91 main_v98 main_v99 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    binary main_v98 main_v92 main_v100 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)) ]

/-- Trip 9: T = ½ (3·I − Z·Y), Y ← Y·T, Z ← T·Z. (Operations 128–137 of the line.) -/
def opsTrip9 : List (HloOp τ sig (Elt F)) :=
  [ nullary main_cst_21 (constant S_ .f32 0x40400000#32),
    unary main_cst_21 main_v101 (broadcastInDim S16x16 ![] bcast_S_S16x16 : (⟨S_, .f32⟩ : BufTy).Contents (Elt F) → (⟨S16x16, .f32⟩ : BufTy).Contents (Elt F)),
    binary main_v101 main_v30 main_v102 (mulf : (⟨S16x16, .f32⟩ : BufTy).Contents (Elt F) → (⟨S16x16, .f32⟩ : BufTy).Contents (Elt F) → (⟨S16x16, .f32⟩ : BufTy).Contents (Elt F)),
    binary main_v100 main_v99 main_v103 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    binary main_v102 main_v103 main_v104 (subf : (⟨S16x16, .f32⟩ : BufTy).Contents (Elt F) → (⟨S16x16, .f32⟩ : BufTy).Contents (Elt F) → (⟨S16x16, .f32⟩ : BufTy).Contents (Elt F)),
    nullary main_cst_22 (constant S_ .f32 0x3F000000#32),
    unary main_cst_22 main_v105 (broadcastInDim S16x16 ![] bcast_S_S16x16 : (⟨S_, .f32⟩ : BufTy).Contents (Elt F) → (⟨S16x16, .f32⟩ : BufTy).Contents (Elt F)),
    binary main_v105 main_v104 main_v106 (mulf : (⟨S16x16, .f32⟩ : BufTy).Contents (Elt F) → (⟨S16x16, .f32⟩ : BufTy).Contents (Elt F) → (⟨S16x16, .f32⟩ : BufTy).Contents (Elt F)),
    binary main_v99 main_v106 main_v107 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    binary main_v106 main_v100 main_v108 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)) ]

/-- Trip 10: T = ½ (3·I − Z·Y), Y ← Y·T, Z ← T·Z. (Operations 138–147 of the line.) -/
def opsTrip10 : List (HloOp τ sig (Elt F)) :=
  [ nullary main_cst_23 (constant S_ .f32 0x40400000#32),
    unary main_cst_23 main_v109 (broadcastInDim S16x16 ![] bcast_S_S16x16 : (⟨S_, .f32⟩ : BufTy).Contents (Elt F) → (⟨S16x16, .f32⟩ : BufTy).Contents (Elt F)),
    binary main_v109 main_v30 main_v110 (mulf : (⟨S16x16, .f32⟩ : BufTy).Contents (Elt F) → (⟨S16x16, .f32⟩ : BufTy).Contents (Elt F) → (⟨S16x16, .f32⟩ : BufTy).Contents (Elt F)),
    binary main_v108 main_v107 main_v111 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    binary main_v110 main_v111 main_v112 (subf : (⟨S16x16, .f32⟩ : BufTy).Contents (Elt F) → (⟨S16x16, .f32⟩ : BufTy).Contents (Elt F) → (⟨S16x16, .f32⟩ : BufTy).Contents (Elt F)),
    nullary main_cst_24 (constant S_ .f32 0x3F000000#32),
    unary main_cst_24 main_v113 (broadcastInDim S16x16 ![] bcast_S_S16x16 : (⟨S_, .f32⟩ : BufTy).Contents (Elt F) → (⟨S16x16, .f32⟩ : BufTy).Contents (Elt F)),
    binary main_v113 main_v112 main_v114 (mulf : (⟨S16x16, .f32⟩ : BufTy).Contents (Elt F) → (⟨S16x16, .f32⟩ : BufTy).Contents (Elt F) → (⟨S16x16, .f32⟩ : BufTy).Contents (Elt F)),
    binary main_v107 main_v114 main_v115 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    binary main_v114 main_v108 main_v116 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)) ]

/-- The end Z / √‖A‖, the product with the centred samples, the regrouping back to [32, 256, 56, 56], and the scale and shift. (Operations 148–158 of the line.) -/
def opsEnd : List (HloOp τ sig (Elt F)) :=
  [ unary main_v22 main_v117 (Host.sqrt : (⟨S_, .f32⟩ : BufTy).Contents (Elt F) → (⟨S_, .f32⟩ : BufTy).Contents (Elt F)),
    unary main_v117 main_v118 (broadcastInDim S16x16 ![] bcast_S_S16x16 : (⟨S_, .f32⟩ : BufTy).Contents (Elt F) → (⟨S16x16, .f32⟩ : BufTy).Contents (Elt F)),
    binary main_v116 main_v118 main_v119 (Host.divf : (⟨S16x16, .f32⟩ : BufTy).Contents (Elt F) → (⟨S16x16, .f32⟩ : BufTy).Contents (Elt F) → (⟨S16x16, .f32⟩ : BufTy).Contents (Elt F)),
    binary main_v119 main_v8 main_v120 ((fun l r => Host.dotGeneral dot_S16x16_S16x1605632_S16x1605632_1_0_0_1_n_n none l r) : (⟨S16x16, .f32⟩ : BufTy).Contents (Elt F) → (⟨S16x1605632, .f32⟩ : BufTy).Contents (Elt F) → (⟨S16x1605632, .f32⟩ : BufTy).Contents (Elt F)),
    reshape main_v120 main_v121 rfl shapeCasts_S16x1605632_S16x32x16x56x56,
    unary main_v121 main_v122 ((transpose S32x16x16x56x56 [1, 2, 0, 3, 4] · transposes_S16x32x16x56x56_S32x16x16x56x56_1_2_0_3_4) : (⟨S16x32x16x56x56, .f32⟩ : BufTy).Contents (Elt F) → (⟨S32x16x16x56x56, .f32⟩ : BufTy).Contents (Elt F)),
    reshape main_v122 main_v123 rfl shapeCasts_S32x16x16x56x56_S32x256x56x56,
    unary main_arg1 main_v124 (broadcastInDim S32x256x56x56 ![0, 1, 2, 3] bcast_S1x256x1x1_S32x256x56x56_0_1_2_3 : (⟨S1x256x1x1, .f32⟩ : BufTy).Contents (Elt F) → (⟨S32x256x56x56, .f32⟩ : BufTy).Contents (Elt F)),
    binary main_v123 main_v124 main_v125 (mulf : (⟨S32x256x56x56, .f32⟩ : BufTy).Contents (Elt F) → (⟨S32x256x56x56, .f32⟩ : BufTy).Contents (Elt F) → (⟨S32x256x56x56, .f32⟩ : BufTy).Contents (Elt F)),
    unary main_arg2 main_v126 (broadcastInDim S32x256x56x56 ![0, 1, 2, 3] bcast_S1x256x1x1_S32x256x56x56_0_1_2_3 : (⟨S1x256x1x1, .f32⟩ : BufTy).Contents (Elt F) → (⟨S32x256x56x56, .f32⟩ : BufTy).Contents (Elt F)),
    binary main_v125 main_v126 main_v127 (addf : (⟨S32x256x56x56, .f32⟩ : BufTy).Contents (Elt F) → (⟨S32x256x56x56, .f32⟩ : BufTy).Contents (Elt F) → (⟨S32x256x56x56, .f32⟩ : BufTy).Contents (Elt F)) ]

set_option maxRecDepth 8192 in
/-- The line is its stretches, one after the other. -/
theorem ops_split : (ValueP.ops (F := F)) = opsCentre (F := F) ++ (opsCov (F := F) ++ (opsNorm (F := F) ++ (opsEye (F := F) ++ (opsTrip1 (F := F) ++ (opsTrip2 (F := F) ++ (opsTrip3 (F := F) ++ (opsTrip4 (F := F) ++ (opsTrip5 (F := F) ++ (opsTrip6 (F := F) ++ (opsTrip7 (F := F) ++ (opsTrip8 (F := F) ++ (opsTrip9 (F := F) ++ (opsTrip10 (F := F) ++ (opsEnd (F := F))))))))))))))) := rfl

end Cert.ReferenceIdeal.HostVal

end
-- ==== Proof.LibFoldStretch.lean ====
/-
  Reading a straight line of host operations a stretch at a time, and the typed references of an inlined function.

  The contents after a line of host operations are a fold of the operations' results over the starting contents. The fold
  over two stretches run one after the other is the fold over the second started from the fold over the first, so a long
  line can be read stretch by stretch, each stretch over an arbitrary starting valuation.

  The operations of a function the compiler inlined are stated over typed references: a value is carried to the buffer's
  own type when written and back when read, along the equation between the two types. Carried there and back it is the
  value it was; with this the composed term of such a stretch loses every inner pair of transports, and only the outermost
  write and the reads of buffers written outside the function keep one.
-/
import Idealize.ShloMosaic.Lib.StableHlo.Run

noncomputable section

namespace Cert.LibFoldStretch

open Idealize.ShloMosaic Idealize.ShloMosaic.StableHlo

variable {τ : Topo} {sig : RefSig} {Val : EltTy → Type}

/-- The fold over two stretches run one after the other is the fold over the second from the fold over the first. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents carried to a typed reference's buffer and back are the contents. -/
theorem ofBuf_toBuf {T : BufTy} (x : TRef sig T) (v : T.Contents Val) : x.ofBuf (x.toBuf v) = v := by
  obtain ⟨r, h1, h2, h3⟩ := x
  subst h1
  rfl

/-- Contents read from a typed reference's buffer and written back are the contents. -/
theorem toBuf_ofBuf {T : BufTy} (x : TRef sig T) (v : x.ref.ty.Contents Val) : x.toBuf (x.ofBuf v) = v := by
  obtain ⟨r, h1, h2, h3⟩ := x
  subst h1
  rfl

end Cert.LibFoldStretch

end
-- ==== Proof.RHostFold.lean ====
/-
  The fold of the reference's operations is the staged value.

  The line is read a stretch at a time (the fold over stretches run one after the other is the fold over the later from the
  fold over the earlier), each stretch over an arbitrary valuation: what it writes, from what it reads, is the staged value
  of the written buffer whenever what it reads is the staged value of the read ones; and a buffer it does not write keeps
  its contents. The buffers a later stretch reads of an earlier one — the centred samples, the norm, the identity of the
  trips, the two products of the trip before — and the three inputs are carried along.
-/
import proofs.«155110_j49271864820158_1_alg».proof.Proof.RefReadP
import proofs.«155110_j49271864820158_1_alg».proof.Proof.RHostOps
import proofs.«155110_j49271864820158_1_alg».proof.Proof.LibFoldStretch

noncomputable section

namespace Cert.ReferenceIdeal.HostVal

open Cert.ReferenceIdeal Cert.ReferenceIdeal.Gen Idealize.ShloMosaic Idealize.ShloMosaic.StableHlo Idealize.ShloMosaic.TcCoe
open Cert.ReferenceIdeal.ReadP

/-! ## What is carried along -/

/-- What the trips and the end read of the stretches before them, at a valuation `V`: the centred samples, the norm and the
    identity of the trips at their staged values over the input `x`, and the three inputs `x`, `w`, `b` themselves. -/
structure Carried (V : Valuation τ sig (Elt Ideal)) (x : FVec Ideal S32x256x56x56 .f32) (w b : FVec Ideal S1x256x1x1 .f32) : Prop where
  v8 : (V (Proc.devRef .tc main_v8) : FVec Ideal S16x1605632 .f32) = val_main_v8 (F := Ideal) x
  v22 : (V (Proc.devRef .tc main_v22) : FVec Ideal S_ .f32) = val_main_v22 (F := Ideal) x
  v30 : (V (Proc.devRef .tc main_v30) : FVec Ideal S16x16 .f32) = val_main_v30 (F := Ideal)
  arg0 : (V (Proc.devRef .tc main_arg0) : FVec Ideal S32x256x56x56 .f32) = x
  arg1 : (V (Proc.devRef .tc main_arg1) : FVec Ideal S1x256x1x1 .f32) = w
  arg2 : (V (Proc.devRef .tc main_arg2) : FVec Ideal S1x256x1x1 .f32) = b

/-- A valuation that agrees with `V` on the carried buffers carries the same. -/
theorem Carried.of_kept {V V' : Valuation τ sig (Elt Ideal)} {x : FVec Ideal S32x256x56x56 .f32} {w b : FVec Ideal S1x256x1x1 .f32} (hC : Carried V x w b)
    (h : (V' (Proc.devRef .tc main_v8) : FVec Ideal S16x1605632 .f32) = V (Proc.devRef .tc main_v8)
      ∧ (V' (Proc.devRef .tc main_v22) : FVec Ideal S_ .f32) = V (Proc.devRef .tc main_v22)
      ∧ (V' (Proc.devRef .tc main_v30) : FVec Ideal S16x16 .f32) = V (Proc.devRef .tc main_v30)
      ∧ (V' (Proc.devRef .tc main_arg0) : FVec Ideal S32x256x56x56 .f32) = V (Proc.devRef .tc main_arg0)
      ∧ (V' (Proc.devRef .tc main_arg1) : FVec Ideal S1x256x1x1 .f32) = V (Proc.devRef .tc main_arg1)
      ∧ (V' (Proc.devRef .tc main_arg2) : FVec Ideal S1x256x1x1 .f32) = V (Proc.devRef .tc main_arg2)) : Carried V' x w b :=
  ⟨h.1.trans hC.v8, h.2.1.trans hC.v22, h.2.2.1.trans hC.v30, h.2.2.2.1.trans hC.arg0, h.2.2.2.2.1.trans hC.arg1,
    h.2.2.2.2.2.trans hC.arg2⟩

/-! ## The stretches before the trips -/

/-- The centred samples, from the input. -/
theorem centre_v8 (V : Valuation τ sig (Elt Ideal)) :
    (after (opsCentre (F := Ideal)) V (Proc.devRef .tc main_v8) : FVec Ideal S16x1605632 .f32) = val_main_v8 (F := Ideal) (V (Proc.devRef .tc main_arg0)) := by
  unfold opsCentre; after_results_simp; rfl

/-- Their 16×16 matrix of products, from the input. -/
theorem centre_v10 (V : Valuation τ sig (Elt Ideal)) :
    (after (opsCentre (F := Ideal)) V (Proc.devRef .tc main_v10) : FVec Ideal S16x16 .f32) = val_main_v10 (F := Ideal) (V (Proc.devRef .tc main_arg0)) := by
  unfold opsCentre; after_results_simp; rfl

/-- The first stretch writes none of the inputs. -/
theorem centre_kept (V : Valuation τ sig (Elt Ideal)) :
    (after (opsCentre (F := Ideal)) V (Proc.devRef .tc main_arg0) : FVec Ideal S32x256x56x56 .f32) = V (Proc.devRef .tc main_arg0)
      ∧ (after (opsCentre (F := Ideal)) V (Proc.devRef .tc main_arg1) : FVec Ideal S1x256x1x1 .f32) = V (Proc.devRef .tc main_arg1)
      ∧ (after (opsCentre (F := Ideal)) V (Proc.devRef .tc main_arg2) : FVec Ideal S1x256x1x1 .f32) = V (Proc.devRef .tc main_arg2) := by
  unfold opsCentre; refine ⟨?_, ?_, ?_⟩ <;> after_results_simp

/-- The covariance, from the matrix of products. -/
theorem cov_v21 (V : Valuation τ sig (Elt Ideal)) (x : FVec Ideal S32x256x56x56 .f32)
    (h10 : (V (Proc.devRef .tc main_v10) : FVec Ideal S16x16 .f32) = val_main_v10 (F := Ideal) x) :
    (after (opsCov (F := Ideal)) V (Proc.devRef .tc main_v21) : FVec Ideal S16x16 .f32) = val_main_v21 (F := Ideal) x := by
  unfold opsCov; after_results_simp; rw [h10]; rfl

/-- The covariance's stretch writes neither the centred samples nor an input. -/
theorem cov_kept (V : Valuation τ sig (Elt Ideal)) :
    (after (opsCov (F := Ideal)) V (Proc.devRef .tc main_v8) : FVec Ideal S16x1605632 .f32) = V (Proc.devRef .tc main_v8)
      ∧ (after (opsCov (F := Ideal)) V (Proc.devRef .tc main_arg0) : FVec Ideal S32x256x56x56 .f32) = V (Proc.devRef .tc main_arg0)
      ∧ (after (opsCov (F := Ideal)) V (Proc.devRef .tc main_arg1) : FVec Ideal S1x256x1x1 .f32) = V (Proc.devRef .tc main_arg1)
      ∧ (after (opsCov (F := Ideal)) V (Proc.devRef .tc main_arg2) : FVec Ideal S1x256x1x1 .f32) = V (Proc.devRef .tc main_arg2) := by
  unfold opsCov; refine ⟨?_, ?_, ?_, ?_⟩ <;> after_results_simp

/-- The norm, from the covariance. -/
theorem norm_v22 (V : Valuation τ sig (Elt Ideal)) (x : FVec Ideal S32x256x56x56 .f32)
    (h21 : (V (Proc.devRef .tc main_v21) : FVec Ideal S16x16 .f32) = val_main_v21 (F := Ideal) x) :
    (after (opsNorm (F := Ideal)) V (Proc.devRef .tc main_v22) : FVec Ideal S_ .f32) = val_main_v22 (F := Ideal) x := by
  unfold opsNorm; after_results_simp; rw [h21]; rfl

/-- The start Y₀, from the covariance. -/
theorem norm_v24 (V : Valuation τ sig (Elt Ideal)) (x : FVec Ideal S32x256x56x56 .f32)
    (h21 : (V (Proc.devRef .tc main_v21) : FVec Ideal S16x16 .f32) = val_main_v21 (F := Ideal) x) :
    (after (opsNorm (F := Ideal)) V (Proc.devRef .tc main_v24) : FVec Ideal S16x16 .f32) = val_main_v24 (F := Ideal) x := by
  unfold opsNorm; after_results_simp; rw [h21]; rfl

/-- The norm's stretch writes neither the centred samples nor an input. -/
theorem norm_kept (V : Valuation τ sig (Elt Ideal)) :
    (after (opsNorm (F := Ideal)) V (Proc.devRef .tc main_v8) : FVec Ideal S16x1605632 .f32) = V (Proc.devRef .tc main_v8)
      ∧ (after (opsNorm (F := Ideal)) V (Proc.devRef .tc main_arg0) : FVec Ideal S32x256x56x56 .f32) = V (Proc.devRef .tc main_arg0)
      ∧ (after (opsNorm (F := Ideal)) V (Proc.devRef .tc main_arg1) : FVec Ideal S1x256x1x1 .f32) = V (Proc.devRef .tc main_arg1)
      ∧ (after (opsNorm (F := Ideal)) V (Proc.devRef .tc main_arg2) : FVec Ideal S1x256x1x1 .f32) = V (Proc.devRef .tc main_arg2) := by
  unfold opsNorm; refine ⟨?_, ?_, ?_, ?_⟩ <;> after_results_simp

/-- The identity of the trips. -/
theorem eye_v30 (V : Valuation τ sig (Elt Ideal)) :
    (after (opsEye (F := Ideal)) V (Proc.devRef .tc main_v30) : FVec Ideal S16x16 .f32) = val_main_v30 (F := Ideal) := by
  unfold opsEye; after_results_simp; rfl

/-- The start Z₀. -/
theorem eye_v36 (V : Valuation τ sig (Elt Ideal)) :
    (after (opsEye (F := Ideal)) V (Proc.devRef .tc main_v36) : FVec Ideal S16x16 .f32) = val_main_v36 (F := Ideal) := by
  unfold opsEye; after_results_simp; rfl

/-- The identities' stretch writes none of the centred samples, the norm, the start Y₀ and the inputs. -/
theorem eye_kept (V : Valuation τ sig (Elt Ideal)) :
    (after (opsEye (F := Ideal)) V (Proc.devRef .tc main_v8) : FVec Ideal S16x1605632 .f32) = V (Proc.devRef .tc main_v8)
      ∧ (after (opsEye (F := Ideal)) V (Proc.devRef .tc main_v22) : FVec Ideal S_ .f32) = V (Proc.devRef .tc main_v22)
      ∧ (after (opsEye (F := Ideal)) V (Proc.devRef .tc main_v24) : FVec Ideal S16x16 .f32) = V (Proc.devRef .tc main_v24)
      ∧ (after (opsEye (F := Ideal)) V (Proc.devRef .tc main_arg0) : FVec Ideal S32x256x56x56 .f32) = V (Proc.devRef .tc main_arg0)
      ∧ (after (opsEye (F := Ideal)) V (Proc.devRef .tc main_arg1) : FVec Ideal S1x256x1x1 .f32) = V (Proc.devRef .tc main_arg1)
      ∧ (after (opsEye (F := Ideal)) V (Proc.devRef .tc main_arg2) : FVec Ideal S1x256x1x1 .f32) = V (Proc.devRef .tc main_arg2) := by
  unfold opsEye; refine ⟨?_, ?_, ?_, ?_, ?_, ?_⟩ <;> after_results_simp

/-! ## The trips -/

/-- Trip 1: Y·T, from the identity and the two products of the start. -/
theorem trip1_Y (V : Valuation τ sig (Elt Ideal)) (x : FVec Ideal S32x256x56x56 .f32)
    (h30 : (V (Proc.devRef .tc main_v30) : FVec Ideal S16x16 .f32) = val_main_v30 (F := Ideal))
    (hY : (V (Proc.devRef .tc main_v24) : FVec Ideal S16x16 .f32) = val_main_v24 (F := Ideal) x)
    (hZ : (V (Proc.devRef .tc main_v36) : FVec Ideal S16x16 .f32) = val_main_v36 (F := Ideal)) :
    (after (opsTrip1 (F := Ideal)) V (Proc.devRef .tc main_v43) : FVec Ideal S16x16 .f32) = val_main_v43 (F := Ideal) x := by
  unfold opsTrip1; after_results_simp; rw [h30, hY, hZ]; rfl

/-- Trip 1: T·Z, from the same. -/
theorem trip1_Z (V : Valuation τ sig (Elt Ideal)) (x : FVec Ideal S32x256x56x56 .f32)
    (h30 : (V (Proc.devRef .tc main_v30) : FVec Ideal S16x16 .f32) = val_main_v30 (F := Ideal))
    (hY : (V (Proc.devRef .tc main_v24) : FVec Ideal S16x16 .f32) = val_main_v24 (F := Ideal) x)
    (hZ : (V (Proc.devRef .tc main_v36) : FVec Ideal S16x16 .f32) = val_main_v36 (F := Ideal)) :
    (after (opsTrip1 (F := Ideal)) V (Proc.devRef .tc main_v44) : FVec Ideal S16x16 .f32) = val_main_v44 (F := Ideal) x := by
  unfold opsTrip1; after_results_simp; rw [h30, hY, hZ]; rfl

/-- Trip 1 writes none of the carried buffers. -/
theorem trip1_kept (V : Valuation τ sig (Elt Ideal)) :
    (after (opsTrip1 (F := Ideal)) V (Proc.devRef .tc main_v8) : FVec Ideal S16x1605632 .f32) = V (Proc.devRef .tc main_v8)
      ∧ (after (opsTrip1 (F := Ideal)) V (Proc.devRef .tc main_v22) : FVec Ideal S_ .f32) = V (Proc.devRef .tc main_v22)
      ∧ (after (opsTrip1 (F := Ideal)) V (Proc.devRef .tc main_v30) : FVec Ideal S16x16 .f32) = V (Proc.devRef .tc main_v30)
      ∧ (after (opsTrip1 (F := Ideal)) V (Proc.devRef .tc main_arg0) : FVec Ideal S32x256x56x56 .f32) = V (Proc.devRef .tc main_arg0)
      ∧ (after (opsTrip1 (F := Ideal)) V (Proc.devRef .tc main_arg1) : FVec Ideal S1x256x1x1 .f32) = V (Proc.devRef .tc main_arg1)
      ∧ (after (opsTrip1 (F := Ideal)) V (Proc.devRef .tc main_arg2) : FVec Ideal S1x256x1x1 .f32) = V (Proc.devRef .tc main_arg2) := by
  unfold opsTrip1; refine ⟨?_, ?_, ?_, ?_, ?_, ?_⟩ <;> after_results_simp

/-- Trip 2: Y·T, from the identity and the two products of the trip before. -/
theorem trip2_Y (V : Valuation τ sig (Elt Ideal)) (x : FVec Ideal S32x256x56x56 .f32)
    (h30 : (V (Proc.devRef .tc main_v30) : FVec Ideal S16x16 .f32) = val_main_v30 (F := Ideal))
    (hY : (V (Proc.devRef .tc main_v43) : FVec Ideal S16x16 .f32) = val_main_v43 (F := Ideal) x)
    (hZ : (V (Proc.devRef .tc main_v44) : FVec Ideal S16x16 .f32) = val_main_v44 (F := Ideal) x) :
    (after (opsTrip2 (F := Ideal)) V (Proc.devRef .tc main_v51) : FVec Ideal S16x16 .f32) = val_main_v51 (F := Ideal) x := by
  unfold opsTrip2; after_results_simp; rw [h30, hY, hZ]; rfl

/-- Trip 2: T·Z, from the same. -/
theorem trip2_Z (V : Valuation τ sig (Elt Ideal)) (x : FVec Ideal S32x256x56x56 .f32)
    (h30 : (V (Proc.devRef .tc main_v30) : FVec Ideal S16x16 .f32) = val_main_v30 (F := Ideal))
    (hY : (V (Proc.devRef .tc main_v43) : FVec Ideal S16x16 .f32) = val_main_v43 (F := Ideal) x)
    (hZ : (V (Proc.devRef .tc main_v44) : FVec Ideal S16x16 .f32) = val_main_v44 (F := Ideal) x) :
    (after (opsTrip2 (F := Ideal)) V (Proc.devRef .tc main_v52) : FVec Ideal S16x16 .f32) = val_main_v52 (F := Ideal) x := by
  unfold opsTrip2; after_results_simp; rw [h30, hY, hZ]; rfl

/-- Trip 2 writes none of the carried buffers. -/
theorem trip2_kept (V : Valuation τ sig (Elt Ideal)) :
    (after (opsTrip2 (F := Ideal)) V (Proc.devRef .tc main_v8) : FVec Ideal S16x1605632 .f32) = V (Proc.devRef .tc main_v8)
      ∧ (after (opsTrip2 (F := Ideal)) V (Proc.devRef .tc main_v22) : FVec Ideal S_ .f32) = V (Proc.devRef .tc main_v22)
      ∧ (after (opsTrip2 (F := Ideal)) V (Proc.devRef .tc main_v30) : FVec Ideal S16x16 .f32) = V (Proc.devRef .tc main_v30)
      ∧ (after (opsTrip2 (F := Ideal)) V (Proc.devRef .tc main_arg0) : FVec Ideal S32x256x56x56 .f32) = V (Proc.devRef .tc main_arg0)
      ∧ (after (opsTrip2 (F := Ideal)) V (Proc.devRef .tc main_arg1) : FVec Ideal S1x256x1x1 .f32) = V (Proc.devRef .tc main_arg1)
      ∧ (after (opsTrip2 (F := Ideal)) V (Proc.devRef .tc main_arg2) : FVec Ideal S1x256x1x1 .f32) = V (Proc.devRef .tc main_arg2) := by
  unfold opsTrip2; refine ⟨?_, ?_, ?_, ?_, ?_, ?_⟩ <;> after_results_simp

/-- Trip 3: Y·T, from the identity and the two products of the trip before. -/
theorem trip3_Y (V : Valuation τ sig (Elt Ideal)) (x : FVec Ideal S32x256x56x56 .f32)
    (h30 : (V (Proc.devRef .tc main_v30) : FVec Ideal S16x16 .f32) = val_main_v30 (F := Ideal))
    (hY : (V (Proc.devRef .tc main_v51) : FVec Ideal S16x16 .f32) = val_main_v51 (F := Ideal) x)
    (hZ : (V (Proc.devRef .tc main_v52) : FVec Ideal S16x16 .f32) = val_main_v52 (F := Ideal) x) :
    (after (opsTrip3 (F := Ideal)) V (Proc.devRef .tc main_v59) : FVec Ideal S16x16 .f32) = val_main_v59 (F := Ideal) x := by
  unfold opsTrip3; after_results_simp; rw [h30, hY, hZ]; rfl

/-- Trip 3: T·Z, from the same. -/
theorem trip3_Z (V : Valuation τ sig (Elt Ideal)) (x : FVec Ideal S32x256x56x56 .f32)
    (h30 : (V (Proc.devRef .tc main_v30) : FVec Ideal S16x16 .f32) = val_main_v30 (F := Ideal))
    (hY : (V (Proc.devRef .tc main_v51) : FVec Ideal S16x16 .f32) = val_main_v51 (F := Ideal) x)
    (hZ : (V (Proc.devRef .tc main_v52) : FVec Ideal S16x16 .f32) = val_main_v52 (F := Ideal) x) :
    (after (opsTrip3 (F := Ideal)) V (Proc.devRef .tc main_v60) : FVec Ideal S16x16 .f32) = val_main_v60 (F := Ideal) x := by
  unfold opsTrip3; after_results_simp; rw [h30, hY, hZ]; rfl

/-- Trip 3 writes none of the carried buffers. -/
theorem trip3_kept (V : Valuation τ sig (Elt Ideal)) :
    (after (opsTrip3 (F := Ideal)) V (Proc.devRef .tc main_v8) : FVec Ideal S16x1605632 .f32) = V (Proc.devRef .tc main_v8)
      ∧ (after (opsTrip3 (F := Ideal)) V (Proc.devRef .tc main_v22) : FVec Ideal S_ .f32) = V (Proc.devRef .tc main_v22)
      ∧ (after (opsTrip3 (F := Ideal)) V (Proc.devRef .tc main_v30) : FVec Ideal S16x16 .f32) = V (Proc.devRef .tc main_v30)
      ∧ (after (opsTrip3 (F := Ideal)) V (Proc.devRef .tc main_arg0) : FVec Ideal S32x256x56x56 .f32) = V (Proc.devRef .tc main_arg0)
      ∧ (after (opsTrip3 (F := Ideal)) V (Proc.devRef .tc main_arg1) : FVec Ideal S1x256x1x1 .f32) = V (Proc.devRef .tc main_arg1)
      ∧ (after (opsTrip3 (F := Ideal)) V (Proc.devRef .tc main_arg2) : FVec Ideal S1x256x1x1 .f32) = V (Proc.devRef .tc main_arg2) := by
  unfold opsTrip3; refine ⟨?_, ?_, ?_, ?_, ?_, ?_⟩ <;> after_results_simp

/-- Trip 4: Y·T, from the identity and the two products of the trip before. -/
theorem trip4_Y (V : Valuation τ sig (Elt Ideal)) (x : FVec Ideal S32x256x56x56 .f32)
    (h30 : (V (Proc.devRef .tc main_v30) : FVec Ideal S16x16 .f32) = val_main_v30 (F := Ideal))
    (hY : (V (Proc.devRef .tc main_v59) : FVec Ideal S16x16 .f32) = val_main_v59 (F := Ideal) x)
    (hZ : (V (Proc.devRef .tc main_v60) : FVec Ideal S16x16 .f32) = val_main_v60 (F := Ideal) x) :
    (after (opsTrip4 (F := Ideal)) V (Proc.devRef .tc main_v67) : FVec Ideal S16x16 .f32) = val_main_v67 (F := Ideal) x := by
  unfold opsTrip4; after_results_simp; rw [h30, hY, hZ]; rfl

/-- Trip 4: T·Z, from the same. -/
theorem trip4_Z (V : Valuation τ sig (Elt Ideal)) (x : FVec Ideal S32x256x56x56 .f32)
    (h30 : (V (Proc.devRef .tc main_v30) : FVec Ideal S16x16 .f32) = val_main_v30 (F := Ideal))
    (hY : (V (Proc.devRef .tc main_v59) : FVec Ideal S16x16 .f32) = val_main_v59 (F := Ideal) x)
    (hZ : (V (Proc.devRef .tc main_v60) : FVec Ideal S16x16 .f32) = val_main_v60 (F := Ideal) x) :
    (after (opsTrip4 (F := Ideal)) V (Proc.devRef .tc main_v68) : FVec Ideal S16x16 .f32) = val_main_v68 (F := Ideal) x := by
  unfold opsTrip4; after_results_simp; rw [h30, hY, hZ]; rfl

/-- Trip 4 writes none of the carried buffers. -/
theorem trip4_kept (V : Valuation τ sig (Elt Ideal)) :
    (after (opsTrip4 (F := Ideal)) V (Proc.devRef .tc main_v8) : FVec Ideal S16x1605632 .f32) = V (Proc.devRef .tc main_v8)
      ∧ (after (opsTrip4 (F := Ideal)) V (Proc.devRef .tc main_v22) : FVec Ideal S_ .f32) = V (Proc.devRef .tc main_v22)
      ∧ (after (opsTrip4 (F := Ideal)) V (Proc.devRef .tc main_v30) : FVec Ideal S16x16 .f32) = V (Proc.devRef .tc main_v30)
      ∧ (after (opsTrip4 (F := Ideal)) V (Proc.devRef .tc main_arg0) : FVec Ideal S32x256x56x56 .f32) = V (Proc.devRef .tc main_arg0)
      ∧ (after (opsTrip4 (F := Ideal)) V (Proc.devRef .tc main_arg1) : FVec Ideal S1x256x1x1 .f32) = V (Proc.devRef .tc main_arg1)
      ∧ (after (opsTrip4 (F := Ideal)) V (Proc.devRef .tc main_arg2) : FVec Ideal S1x256x1x1 .f32) = V (Proc.devRef .tc main_arg2) := by
  unfold opsTrip4; refine ⟨?_, ?_, ?_, ?_, ?_, ?_⟩ <;> after_results_simp

/-- Trip 5: Y·T, from the identity and the two products of the trip before. -/
theorem trip5_Y (V : Valuation τ sig (Elt Ideal)) (x : FVec Ideal S32x256x56x56 .f32)
    (h30 : (V (Proc.devRef .tc main_v30) : FVec Ideal S16x16 .f32) = val_main_v30 (F := Ideal))
    (hY : (V (Proc.devRef .tc main_v67) : FVec Ideal S16x16 .f32) = val_main_v67 (F := Ideal) x)
    (hZ : (V (Proc.devRef .tc main_v68) : FVec Ideal S16x16 .f32) = val_main_v68 (F := Ideal) x) :
    (after (opsTrip5 (F := Ideal)) V (Proc.devRef .tc main_v75) : FVec Ideal S16x16 .f32) = val_main_v75 (F := Ideal) x := by
  unfold opsTrip5; after_results_simp; rw [h30, hY, hZ]; rfl

/-- Trip 5: T·Z, from the same. -/
theorem trip5_Z (V : Valuation τ sig (Elt Ideal)) (x : FVec Ideal S32x256x56x56 .f32)
    (h30 : (V (Proc.devRef .tc main_v30) : FVec Ideal S16x16 .f32) = val_main_v30 (F := Ideal))
    (hY : (V (Proc.devRef .tc main_v67) : FVec Ideal S16x16 .f32) = val_main_v67 (F := Ideal) x)
    (hZ : (V (Proc.devRef .tc main_v68) : FVec Ideal S16x16 .f32) = val_main_v68 (F := Ideal) x) :
    (after (opsTrip5 (F := Ideal)) V (Proc.devRef .tc main_v76) : FVec Ideal S16x16 .f32) = val_main_v76 (F := Ideal) x := by
  unfold opsTrip5; after_results_simp; rw [h30, hY, hZ]; rfl

/-- Trip 5 writes none of the carried buffers. -/
theorem trip5_kept (V : Valuation τ sig (Elt Ideal)) :
    (after (opsTrip5 (F := Ideal)) V (Proc.devRef .tc main_v8) : FVec Ideal S16x1605632 .f32) = V (Proc.devRef .tc main_v8)
      ∧ (after (opsTrip5 (F := Ideal)) V (Proc.devRef .tc main_v22) : FVec Ideal S_ .f32) = V (Proc.devRef .tc main_v22)
      ∧ (after (opsTrip5 (F := Ideal)) V (Proc.devRef .tc main_v30) : FVec Ideal S16x16 .f32) = V (Proc.devRef .tc main_v30)
      ∧ (after (opsTrip5 (F := Ideal)) V (Proc.devRef .tc main_arg0) : FVec Ideal S32x256x56x56 .f32) = V (Proc.devRef .tc main_arg0)
      ∧ (after (opsTrip5 (F := Ideal)) V (Proc.devRef .tc main_arg1) : FVec Ideal S1x256x1x1 .f32) = V (Proc.devRef .tc main_arg1)
      ∧ (after (opsTrip5 (F := Ideal)) V (Proc.devRef .tc main_arg2) : FVec Ideal S1x256x1x1 .f32) = V (Proc.devRef .tc main_arg2) := by
  unfold opsTrip5; refine ⟨?_, ?_, ?_, ?_, ?_, ?_⟩ <;> after_results_simp

/-- Trip 6: Y·T, from the identity and the two products of the trip before. -/
theorem trip6_Y (V : Valuation τ sig (Elt Ideal)) (x : FVec Ideal S32x256x56x56 .f32)
    (h30 : (V (Proc.devRef .tc main_v30) : FVec Ideal S16x16 .f32) = val_main_v30 (F := Ideal))
    (hY : (V (Proc.devRef .tc main_v75) : FVec Ideal S16x16 .f32) = val_main_v75 (F := Ideal) x)
    (hZ : (V (Proc.devRef .tc main_v76) : FVec Ideal S16x16 .f32) = val_main_v76 (F := Ideal) x) :
    (after (opsTrip6 (F := Ideal)) V (Proc.devRef .tc main_v83) : FVec Ideal S16x16 .f32) = val_main_v83 (F := Ideal) x := by
  unfold opsTrip6; after_results_simp; rw [h30, hY, hZ]; rfl

/-- Trip 6: T·Z, from the same. -/
theorem trip6_Z (V : Valuation τ sig (Elt Ideal)) (x : FVec Ideal S32x256x56x56 .f32)
    (h30 : (V (Proc.devRef .tc main_v30) : FVec Ideal S16x16 .f32) = val_main_v30 (F := Ideal))
    (hY : (V (Proc.devRef .tc main_v75) : FVec Ideal S16x16 .f32) = val_main_v75 (F := Ideal) x)
    (hZ : (V (Proc.devRef .tc main_v76) : FVec Ideal S16x16 .f32) = val_main_v76 (F := Ideal) x) :
    (after (opsTrip6 (F := Ideal)) V (Proc.devRef .tc main_v84) : FVec Ideal S16x16 .f32) = val_main_v84 (F := Ideal) x := by
  unfold opsTrip6; after_results_simp; rw [h30, hY, hZ]; rfl

/-- Trip 6 writes none of the carried buffers. -/
theorem trip6_kept (V : Valuation τ sig (Elt Ideal)) :
    (after (opsTrip6 (F := Ideal)) V (Proc.devRef .tc main_v8) : FVec Ideal S16x1605632 .f32) = V (Proc.devRef .tc main_v8)
      ∧ (after (opsTrip6 (F := Ideal)) V (Proc.devRef .tc main_v22) : FVec Ideal S_ .f32) = V (Proc.devRef .tc main_v22)
      ∧ (after (opsTrip6 (F := Ideal)) V (Proc.devRef .tc main_v30) : FVec Ideal S16x16 .f32) = V (Proc.devRef .tc main_v30)
      ∧ (after (opsTrip6 (F := Ideal)) V (Proc.devRef .tc main_arg0) : FVec Ideal S32x256x56x56 .f32) = V (Proc.devRef .tc main_arg0)
      ∧ (after (opsTrip6 (F := Ideal)) V (Proc.devRef .tc main_arg1) : FVec Ideal S1x256x1x1 .f32) = V (Proc.devRef .tc main_arg1)
      ∧ (after (opsTrip6 (F := Ideal)) V (Proc.devRef .tc main_arg2) : FVec Ideal S1x256x1x1 .f32) = V (Proc.devRef .tc main_arg2) := by
  unfold opsTrip6; refine ⟨?_, ?_, ?_, ?_, ?_, ?_⟩ <;> after_results_simp

/-- Trip 7: Y·T, from the identity and the two products of the trip before. -/
theorem trip7_Y (V : Valuation τ sig (Elt Ideal)) (x : FVec Ideal S32x256x56x56 .f32)
    (h30 : (V (Proc.devRef .tc main_v30) : FVec Ideal S16x16 .f32) = val_main_v30 (F := Ideal))
    (hY : (V (Proc.devRef .tc main_v83) : FVec Ideal S16x16 .f32) = val_main_v83 (F := Ideal) x)
    (hZ : (V (Proc.devRef .tc main_v84) : FVec Ideal S16x16 .f32) = val_main_v84 (F := Ideal) x) :
    (after (opsTrip7 (F := Ideal)) V (Proc.devRef .tc main_v91) : FVec Ideal S16x16 .f32) = val_main_v91 (F := Ideal) x := by
  unfold opsTrip7; after_results_simp; rw [h30, hY, hZ]; rfl

/-- Trip 7: T·Z, from the same. -/
theorem trip7_Z (V : Valuation τ sig (Elt Ideal)) (x : FVec Ideal S32x256x56x56 .f32)
    (h30 : (V (Proc.devRef .tc main_v30) : FVec Ideal S16x16 .f32) = val_main_v30 (F := Ideal))
    (hY : (V (Proc.devRef .tc main_v83) : FVec Ideal S16x16 .f32) = val_main_v83 (F := Ideal) x)
    (hZ : (V (Proc.devRef .tc main_v84) : FVec Ideal S16x16 .f32) = val_main_v84 (F := Ideal) x) :
    (after (opsTrip7 (F := Ideal)) V (Proc.devRef .tc main_v92) : FVec Ideal S16x16 .f32) = val_main_v92 (F := Ideal) x := by
  unfold opsTrip7; after_results_simp; rw [h30, hY, hZ]; rfl

/-- Trip 7 writes none of the carried buffers. -/
theorem trip7_kept (V : Valuation τ sig (Elt Ideal)) :
    (after (opsTrip7 (F := Ideal)) V (Proc.devRef .tc main_v8) : FVec Ideal S16x1605632 .f32) = V (Proc.devRef .tc main_v8)
      ∧ (after (opsTrip7 (F := Ideal)) V (Proc.devRef .tc main_v22) : FVec Ideal S_ .f32) = V (Proc.devRef .tc main_v22)
      ∧ (after (opsTrip7 (F := Ideal)) V (Proc.devRef .tc main_v30) : FVec Ideal S16x16 .f32) = V (Proc.devRef .tc main_v30)
      ∧ (after (opsTrip7 (F := Ideal)) V (Proc.devRef .tc main_arg0) : FVec Ideal S32x256x56x56 .f32) = V (Proc.devRef .tc main_arg0)
      ∧ (after (opsTrip7 (F := Ideal)) V (Proc.devRef .tc main_arg1) : FVec Ideal S1x256x1x1 .f32) = V (Proc.devRef .tc main_arg1)
      ∧ (after (opsTrip7 (F := Ideal)) V (Proc.devRef .tc main_arg2) : FVec Ideal S1x256x1x1 .f32) = V (Proc.devRef .tc main_arg2) := by
  unfold opsTrip7; refine ⟨?_, ?_, ?_, ?_, ?_, ?_⟩ <;> after_results_simp

/-- Trip 8: Y·T, from the identity and the two products of the trip before. -/
theorem trip8_Y (V : Valuation τ sig (Elt Ideal)) (x : FVec Ideal S32x256x56x56 .f32)
    (h30 : (V (Proc.devRef .tc main_v30) : FVec Ideal S16x16 .f32) = val_main_v30 (F := Ideal))
    (hY : (V (Proc.devRef .tc main_v91) : FVec Ideal S16x16 .f32) = val_main_v91 (F := Ideal) x)
    (hZ : (V (Proc.devRef .tc main_v92) : FVec Ideal S16x16 .f32) = val_main_v92 (F := Ideal) x) :
    (after (opsTrip8 (F := Ideal)) V (Proc.devRef .tc main_v99) : FVec Ideal S16x16 .f32) = val_main_v99 (F := Ideal) x := by
  unfold opsTrip8; after_results_simp; rw [h30, hY, hZ]; rfl

/-- Trip 8: T·Z, from the same. -/
theorem trip8_Z (V : Valuation τ sig (Elt Ideal)) (x : FVec Ideal S32x256x56x56 .f32)
    (h30 : (V (Proc.devRef .tc main_v30) : FVec Ideal S16x16 .f32) = val_main_v30 (F := Ideal))
    (hY : (V (Proc.devRef .tc main_v91) : FVec Ideal S16x16 .f32) = val_main_v91 (F := Ideal) x)
    (hZ : (V (Proc.devRef .tc main_v92) : FVec Ideal S16x16 .f32) = val_main_v92 (F := Ideal) x) :
    (after (opsTrip8 (F := Ideal)) V (Proc.devRef .tc main_v100) : FVec Ideal S16x16 .f32) = val_main_v100 (F := Ideal) x := by
  unfold opsTrip8; after_results_simp; rw [h30, hY, hZ]; rfl

/-- Trip 8 writes none of the carried buffers. -/
theorem trip8_kept (V : Valuation τ sig (Elt Ideal)) :
    (after (opsTrip8 (F := Ideal)) V (Proc.devRef .tc main_v8) : FVec Ideal S16x1605632 .f32) = V (Proc.devRef .tc main_v8)
      ∧ (after (opsTrip8 (F := Ideal)) V (Proc.devRef .tc main_v22) : FVec Ideal S_ .f32) = V (Proc.devRef .tc main_v22)
      ∧ (after (opsTrip8 (F := Ideal)) V (Proc.devRef .tc main_v30) : FVec Ideal S16x16 .f32) = V (Proc.devRef .tc main_v30)
      ∧ (after (opsTrip8 (F := Ideal)) V (Proc.devRef .tc main_arg0) : FVec Ideal S32x256x56x56 .f32) = V (Proc.devRef .tc main_arg0)
      ∧ (after (opsTrip8 (F := Ideal)) V (Proc.devRef .tc main_arg1) : FVec Ideal S1x256x1x1 .f32) = V (Proc.devRef .tc main_arg1)
      ∧ (after (opsTrip8 (F := Ideal)) V (Proc.devRef .tc main_arg2) : FVec Ideal S1x256x1x1 .f32) = V (Proc.devRef .tc main_arg2) := by
  unfold opsTrip8; refine ⟨?_, ?_, ?_, ?_, ?_, ?_⟩ <;> after_results_simp

/-- Trip 9: Y·T, from the identity and the two products of the trip before. -/
theorem trip9_Y (V : Valuation τ sig (Elt Ideal)) (x : FVec Ideal S32x256x56x56 .f32)
    (h30 : (V (Proc.devRef .tc main_v30) : FVec Ideal S16x16 .f32) = val_main_v30 (F := Ideal))
    (hY : (V (Proc.devRef .tc main_v99) : FVec Ideal S16x16 .f32) = val_main_v99 (F := Ideal) x)
    (hZ : (V (Proc.devRef .tc main_v100) : FVec Ideal S16x16 .f32) = val_main_v100 (F := Ideal) x) :
    (after (opsTrip9 (F := Ideal)) V (Proc.devRef .tc main_v107) : FVec Ideal S16x16 .f32) = val_main_v107 (F := Ideal) x := by
  unfold opsTrip9; after_results_simp; rw [h30, hY, hZ]; rfl

/-- Trip 9: T·Z, from the same. -/
theorem trip9_Z (V : Valuation τ sig (Elt Ideal)) (x : FVec Ideal S32x256x56x56 .f32)
    (h30 : (V (Proc.devRef .tc main_v30) : FVec Ideal S16x16 .f32) = val_main_v30 (F := Ideal))
    (hY : (V (Proc.devRef .tc main_v99) : FVec Ideal S16x16 .f32) = val_main_v99 (F := Ideal) x)
    (hZ : (V (Proc.devRef .tc main_v100) : FVec Ideal S16x16 .f32) = val_main_v100 (F := Ideal) x) :
    (after (opsTrip9 (F := Ideal)) V (Proc.devRef .tc main_v108) : FVec Ideal S16x16 .f32) = val_main_v108 (F := Ideal) x := by
  unfold opsTrip9; after_results_simp; rw [h30, hY, hZ]; rfl

/-- Trip 9 writes none of the carried buffers. -/
theorem trip9_kept (V : Valuation τ sig (Elt Ideal)) :
    (after (opsTrip9 (F := Ideal)) V (Proc.devRef .tc main_v8) : FVec Ideal S16x1605632 .f32) = V (Proc.devRef .tc main_v8)
      ∧ (after (opsTrip9 (F := Ideal)) V (Proc.devRef .tc main_v22) : FVec Ideal S_ .f32) = V (Proc.devRef .tc main_v22)
      ∧ (after (opsTrip9 (F := Ideal)) V (Proc.devRef .tc main_v30) : FVec Ideal S16x16 .f32) = V (Proc.devRef .tc main_v30)
      ∧ (after (opsTrip9 (F := Ideal)) V (Proc.devRef .tc main_arg0) : FVec Ideal S32x256x56x56 .f32) = V (Proc.devRef .tc main_arg0)
      ∧ (after (opsTrip9 (F := Ideal)) V (Proc.devRef .tc main_arg1) : FVec Ideal S1x256x1x1 .f32) = V (Proc.devRef .tc main_arg1)
      ∧ (after (opsTrip9 (F := Ideal)) V (Proc.devRef .tc main_arg2) : FVec Ideal S1x256x1x1 .f32) = V (Proc.devRef .tc main_arg2) := by
  unfold opsTrip9; refine ⟨?_, ?_, ?_, ?_, ?_, ?_⟩ <;> after_results_simp

/-- Trip 10: Y·T, from the identity and the two products of the trip before. -/
theorem trip10_Y (V : Valuation τ sig (Elt Ideal)) (x : FVec Ideal S32x256x56x56 .f32)
    (h30 : (V (Proc.devRef .tc main_v30) : FVec Ideal S16x16 .f32) = val_main_v30 (F := Ideal))
    (hY : (V (Proc.devRef .tc main_v107) : FVec Ideal S16x16 .f32) = val_main_v107 (F := Ideal) x)
    (hZ : (V (Proc.devRef .tc main_v108) : FVec Ideal S16x16 .f32) = val_main_v108 (F := Ideal) x) :
    (after (opsTrip10 (F := Ideal)) V (Proc.devRef .tc main_v115) : FVec Ideal S16x16 .f32) = val_main_v115 (F := Ideal) x := by
  unfold opsTrip10; after_results_simp; rw [h30, hY, hZ]; rfl

/-- Trip 10: T·Z, from the same. -/
theorem trip10_Z (V : Valuation τ sig (Elt Ideal)) (x : FVec Ideal S32x256x56x56 .f32)
    (h30 : (V (Proc.devRef .tc main_v30) : FVec Ideal S16x16 .f32) = val_main_v30 (F := Ideal))
    (hY : (V (Proc.devRef .tc main_v107) : FVec Ideal S16x16 .f32) = val_main_v107 (F := Ideal) x)
    (hZ : (V (Proc.devRef .tc main_v108) : FVec Ideal S16x16 .f32) = val_main_v108 (F := Ideal) x) :
    (after (opsTrip10 (F := Ideal)) V (Proc.devRef .tc main_v116) : FVec Ideal S16x16 .f32) = val_main_v116 (F := Ideal) x := by
  unfold opsTrip10; after_results_simp; rw [h30, hY, hZ]; rfl

/-- Trip 10 writes none of the carried buffers. -/
theorem trip10_kept (V : Valuation τ sig (Elt Ideal)) :
    (after (opsTrip10 (F := Ideal)) V (Proc.devRef .tc main_v8) : FVec Ideal S16x1605632 .f32) = V (Proc.devRef .tc main_v8)
      ∧ (after (opsTrip10 (F := Ideal)) V (Proc.devRef .tc main_v22) : FVec Ideal S_ .f32) = V (Proc.devRef .tc main_v22)
      ∧ (after (opsTrip10 (F := Ideal)) V (Proc.devRef .tc main_v30) : FVec Ideal S16x16 .f32) = V (Proc.devRef .tc main_v30)
      ∧ (after (opsTrip10 (F := Ideal)) V (Proc.devRef .tc main_arg0) : FVec Ideal S32x256x56x56 .f32) = V (Proc.devRef .tc main_arg0)
      ∧ (after (opsTrip10 (F := Ideal)) V (Proc.devRef .tc main_arg1) : FVec Ideal S1x256x1x1 .f32) = V (Proc.devRef .tc main_arg1)
      ∧ (after (opsTrip10 (F := Ideal)) V (Proc.devRef .tc main_arg2) : FVec Ideal S1x256x1x1 .f32) = V (Proc.devRef .tc main_arg2) := by
  unfold opsTrip10; refine ⟨?_, ?_, ?_, ?_, ?_, ?_⟩ <;> after_results_simp

/-! ## The end -/

/-- The output, from the last trip's Z, the norm, the centred samples, and the scale and shift. -/
theorem end_v127 (V : Valuation τ sig (Elt Ideal)) (x : FVec Ideal S32x256x56x56 .f32)
    (h8 : (V (Proc.devRef .tc main_v8) : FVec Ideal S16x1605632 .f32) = val_main_v8 (F := Ideal) x)
    (h22 : (V (Proc.devRef .tc main_v22) : FVec Ideal S_ .f32) = val_main_v22 (F := Ideal) x)
    (h116 : (V (Proc.devRef .tc main_v116) : FVec Ideal S16x16 .f32) = val_main_v116 (F := Ideal) x) :
    (after (opsEnd (F := Ideal)) V (Proc.devRef .tc main_v127) : FVec Ideal S32x256x56x56 .f32)
      = val_main_v127 (F := Ideal) x (V (Proc.devRef .tc main_arg1)) (V (Proc.devRef .tc main_arg2)) := by
  unfold opsEnd; after_results_simp; rw [h8, h22, h116]; rfl

/-- The end writes none of the inputs. -/
theorem end_kept (V : Valuation τ sig (Elt Ideal)) :
    (after (opsEnd (F := Ideal)) V (Proc.devRef .tc main_arg0) : FVec Ideal S32x256x56x56 .f32) = V (Proc.devRef .tc main_arg0)
      ∧ (after (opsEnd (F := Ideal)) V (Proc.devRef .tc main_arg1) : FVec Ideal S1x256x1x1 .f32) = V (Proc.devRef .tc main_arg1)
      ∧ (after (opsEnd (F := Ideal)) V (Proc.devRef .tc main_arg2) : FVec Ideal S1x256x1x1 .f32) = V (Proc.devRef .tc main_arg2) := by
  unfold opsEnd; refine ⟨?_, ?_, ?_⟩ <;> after_results_simp

end Cert.ReferenceIdeal.HostVal

end
-- ==== Proof.RHostNs.lean ====
/-
  The reference's Newton–Schulz, read one trip at a time, is the ten trips of `ns` from the start A / ‖A‖ and the identity.

  Each trip's two products are `nsY` and `nsZ` of the two products of the trip before, over the identity the reference
  builds for the trips; the pair after k trips is then `nsIter eye k` of the start pair, by ten steps of one trip each.
-/
import proofs.«155110_j49271864820158_1_alg».proof.Proof.Spec
import proofs.«155110_j49271864820158_1_alg».proof.Proof.RefReadP

noncomputable section

namespace Cert.ReferenceIdeal.HostVal

open Cert.ReferenceIdeal Cert.ReferenceIdeal.Gen Idealize.ShloMosaic Idealize.ShloMosaic.StableHlo Idealize.ShloMosaic.TcCoe
open Idealize.ShloMosaic.ValueIdx Cert.GroupWhiten Cert.ReferenceIdeal.ReadP

/-! ## The pieces, each against its definition -/

/-- The two identities the reference builds (the I of the trips and the start Z₀) are `eye`. -/
theorem val_v30_eye : (val_main_v30 (F := Ideal) : FVec Ideal SG .f32) = eye := rfl
theorem val_v36_eye : (val_main_v36 (F := Ideal) : FVec Ideal SG .f32) = eye := rfl

/-- The norm the reference takes is the Frobenius norm of the covariance. -/
theorem val_v22_frob (x : FVec Ideal S32x256x56x56 .f32) :
    (val_main_v22 (F := Ideal) x : FVec Ideal S0 .f32) = frob (val_main_v21 (F := Ideal) x) := rfl

/-- The start Y₀ = A / ‖A‖. -/
theorem val_v24_start (x : FVec Ideal S32x256x56x56 .f32) :
    (val_main_v24 (F := Ideal) x : FVec Ideal SG .f32) = nsStart (val_main_v21 (F := Ideal) x) := rfl

/-- Trip 1: its two products from the two of the start. -/
theorem val_trip1_Y (x : FVec Ideal S32x256x56x56 .f32) :
    (val_main_v43 (F := Ideal) x : FVec Ideal SG .f32) = nsY eye (val_main_v24 (F := Ideal) x) (val_main_v36 (F := Ideal)) := rfl
theorem val_trip1_Z (x : FVec Ideal S32x256x56x56 .f32) :
    (val_main_v44 (F := Ideal) x : FVec Ideal SG .f32) = nsZ eye (val_main_v24 (F := Ideal) x) (val_main_v36 (F := Ideal)) := rfl

/-- Trip 2: its two products from the two of the trip before. -/
theorem val_trip2_Y (x : FVec Ideal S32x256x56x56 .f32) :
    (val_main_v51 (F := Ideal) x : FVec Ideal SG .f32) = nsY eye (val_main_v43 (F := Ideal) x) (val_main_v44 (F := Ideal) x) := rfl
theorem val_trip2_Z (x : FVec Ideal S32x256x56x56 .f32) :
    (val_main_v52 (F := Ideal) x : FVec Ideal SG .f32) = nsZ eye (val_main_v43 (F := Ideal) x) (val_main_v44 (F := Ideal) x) := rfl

/-- Trip 3: its two products from the two of the trip before. -/
theorem val_trip3_Y (x : FVec Ideal S32x256x56x56 .f32) :
    (val_main_v59 (F := Ideal) x : FVec Ideal SG .f32) = nsY eye (val_main_v51 (F := Ideal) x) (val_main_v52 (F := Ideal) x) := rfl
theorem val_trip3_Z (x : FVec Ideal S32x256x56x56 .f32) :
    (val_main_v60 (F := Ideal) x : FVec Ideal SG .f32) = nsZ eye (val_main_v51 (F := Ideal) x) (val_main_v52 (F := Ideal) x) := rfl

/-- Trip 4: its two products from the two of the trip before. -/
theorem val_trip4_Y (x : FVec Ideal S32x256x56x56 .f32) :
    (val_main_v67 (F := Ideal) x : FVec Ideal SG .f32) = nsY eye (val_main_v59 (F := Ideal) x) (val_main_v60 (F := Ideal) x) := rfl
theorem val_trip4_Z (x : FVec Ideal S32x256x56x56 .f32) :
    (val_main_v68 (F := Ideal) x : FVec Ideal SG .f32) = nsZ eye (val_main_v59 (F := Ideal) x) (val_main_v60 (F := Ideal) x) := rfl

/-- Trip 5: its two products from the two of the trip before. -/
theorem val_trip5_Y (x : FVec Ideal S32x256x56x56 .f32) :
    (val_main_v75 (F := Ideal) x : FVec Ideal SG .f32) = nsY eye (val_main_v67 (F := Ideal) x) (val_main_v68 (F := Ideal) x) := rfl
theorem val_trip5_Z (x : FVec Ideal S32x256x56x56 .f32) :
    (val_main_v76 (F := Ideal) x : FVec Ideal SG .f32) = nsZ eye (val_main_v67 (F := Ideal) x) (val_main_v68 (F := Ideal) x) := rfl

/-- Trip 6: its two products from the two of the trip before. -/
theorem val_trip6_Y (x : FVec Ideal S32x256x56x56 .f32) :
    (val_main_v83 (F := Ideal) x : FVec Ideal SG .f32) = nsY eye (val_main_v75 (F := Ideal) x) (val_main_v76 (F := Ideal) x) := rfl
theorem val_trip6_Z (x : FVec Ideal S32x256x56x56 .f32) :
    (val_main_v84 (F := Ideal) x : FVec Ideal SG .f32) = nsZ eye (val_main_v75 (F := Ideal) x) (val_main_v76 (F := Ideal) x) := rfl

/-- Trip 7: its two products from the two of the trip before. -/
theorem val_trip7_Y (x : FVec Ideal S32x256x56x56 .f32) :
    (val_main_v91 (F := Ideal) x : FVec Ideal SG .f32) = nsY eye (val_main_v83 (F := Ideal) x) (val_main_v84 (F := Ideal) x) := rfl
theorem val_trip7_Z (x : FVec Ideal S32x256x56x56 .f32) :
    (val_main_v92 (F := Ideal) x : FVec Ideal SG .f32) = nsZ eye (val_main_v83 (F := Ideal) x) (val_main_v84 (F := Ideal) x) := rfl

/-- Trip 8: its two products from the two of the trip before. -/
theorem val_trip8_Y (x : FVec Ideal S32x256x56x56 .f32) :
    (val_main_v99 (F := Ideal) x : FVec Ideal SG .f32) = nsY eye (val_main_v91 (F := Ideal) x) (val_main_v92 (F := Ideal) x) := rfl
theorem val_trip8_Z (x : FVec Ideal S32x256x56x56 .f32) :
    (val_main_v100 (F := Ideal) x : FVec Ideal SG .f32) = nsZ eye (val_main_v91 (F := Ideal) x) (val_main_v92 (F := Ideal) x) := rfl

/-- Trip 9: its two products from the two of the trip before. -/
theorem val_trip9_Y (x : FVec Ideal S32x256x56x56 .f32) :
    (val_main_v107 (F := Ideal) x : FVec Ideal SG .f32) = nsY eye (val_main_v99 (F := Ideal) x) (val_main_v100 (F := Ideal) x) := rfl
theorem val_trip9_Z (x : FVec Ideal S32x256x56x56 .f32) :
    (val_main_v108 (F := Ideal) x : FVec Ideal SG .f32) = nsZ eye (val_main_v99 (F := Ideal) x) (val_main_v100 (F := Ideal) x) := rfl

/-- Trip 10: its two products from the two of the trip before. -/
theorem val_trip10_Y (x : FVec Ideal S32x256x56x56 .f32) :
    (val_main_v115 (F := Ideal) x : FVec Ideal SG .f32) = nsY eye (val_main_v107 (F := Ideal) x) (val_main_v108 (F := Ideal) x) := rfl
theorem val_trip10_Z (x : FVec Ideal S32x256x56x56 .f32) :
    (val_main_v116 (F := Ideal) x : FVec Ideal SG .f32) = nsZ eye (val_main_v107 (F := Ideal) x) (val_main_v108 (F := Ideal) x) := rfl

/-- The end Z / √‖A‖. -/
theorem val_v119_finish (x : FVec Ideal S32x256x56x56 .f32) :
    (val_main_v119 (F := Ideal) x : FVec Ideal SG .f32) = nsFinish (val_main_v21 (F := Ideal) x) (val_main_v116 (F := Ideal) x) := rfl

/-! ## Ten steps of one trip -/

/-- One more trip: from the pair after `k` trips, the two products of the next trip are the pair after `k + 1`. -/
theorem iter_step {I Y Z Y' Z' : FVec Ideal SG .f32} {k : ℕ} {p : FVec Ideal SG .f32 × FVec Ideal SG .f32}
    (hY : Y = (nsIter I k p).1) (hZ : Z = (nsIter I k p).2) (hY' : Y' = nsY I Y Z) (hZ' : Z' = nsZ I Y Z) :
    Y' = (nsIter I (k + 1) p).1 ∧ Z' = (nsIter I (k + 1) p).2 := by
  subst hY hZ hY' hZ'
  exact ⟨rfl, rfl⟩

/-- The reference's inverse square root of the covariance is `ns` of it. -/
theorem ns_eq (x : FVec Ideal S32x256x56x56 .f32) :
    Cert.ReferenceIdeal.ReadP.val_main_v119 (F := Ideal) x = ns (Cert.ReferenceIdeal.ReadP.val_main_v21 (F := Ideal) x) := by
  have hY0 : (val_main_v24 (F := Ideal) x : FVec Ideal SG .f32)
      = (nsIter eye 0 (nsStart (val_main_v21 (F := Ideal) x), eye)).1 := val_v24_start x
  have hZ0 : (val_main_v36 (F := Ideal) : FVec Ideal SG .f32)
      = (nsIter eye 0 (nsStart (val_main_v21 (F := Ideal) x), eye)).2 := val_v36_eye
  obtain ⟨hY1, hZ1⟩ := iter_step hY0 hZ0 (val_trip1_Y x) (val_trip1_Z x)
  obtain ⟨hY2, hZ2⟩ := iter_step hY1 hZ1 (val_trip2_Y x) (val_trip2_Z x)
  obtain ⟨hY3, hZ3⟩ := iter_step hY2 hZ2 (val_trip3_Y x) (val_trip3_Z x)
  obtain ⟨hY4, hZ4⟩ := iter_step hY3 hZ3 (val_trip4_Y x) (val_trip4_Z x)
  obtain ⟨hY5, hZ5⟩ := iter_step hY4 hZ4 (val_trip5_Y x) (val_trip5_Z x)
  obtain ⟨hY6, hZ6⟩ := iter_step hY5 hZ5 (val_trip6_Y x) (val_trip6_Z x)
  obtain ⟨hY7, hZ7⟩ := iter_step hY6 hZ6 (val_trip7_Y x) (val_trip7_Z x)
  obtain ⟨hY8, hZ8⟩ := iter_step hY7 hZ7 (val_trip8_Y x) (val_trip8_Z x)
  obtain ⟨hY9, hZ9⟩ := iter_step hY8 hZ8 (val_trip9_Y x) (val_trip9_Z x)
  obtain ⟨hY10, hZ10⟩ := iter_step hY9 hZ9 (val_trip10_Y x) (val_trip10_Z x)
  exact (val_v119_finish x).trans (congrArg (nsFinish (val_main_v21 (F := Ideal) x)) hZ10)

end Cert.ReferenceIdeal.HostVal

end
-- ==== Proof.RHost.lean ====
/-
  The reference's run, read against the staged values.

  The fold of the reference's 158 host operations over any starting contents leaves, at the output buffer, the staged value
  `val_main_v127` of the three inputs, and leaves the three inputs as they were; and the staged inverse square root is `ns` of
  the staged covariance. The fold is taken a stretch at a time: before the trips the centred samples, the covariance, the
  norm with the start Y₀, and the identities; then the ten trips, each from the two products of the one before; then the end.
-/
import proofs.«155110_j49271864820158_1_alg».proof.Proof.RHostFold
import proofs.«155110_j49271864820158_1_alg».proof.Proof.RHostNs

noncomputable section

namespace Cert.ReferenceIdeal.HostVal

open Cert.ReferenceIdeal Cert.ReferenceIdeal.Gen Idealize.ShloMosaic Idealize.ShloMosaic.StableHlo Idealize.ShloMosaic.TcCoe
open Cert.ReferenceIdeal.ReadP

/-! ## One trip, over what is carried -/

/-- Trip 1 carries what it is handed, and leaves its two products at their staged values. -/
theorem trip1_step {V : Valuation τ sig (Elt Ideal)} {x : FVec Ideal S32x256x56x56 .f32} {w b : FVec Ideal S1x256x1x1 .f32} (hC : Carried V x w b)
    (hY : (V (Proc.devRef .tc main_v24) : FVec Ideal S16x16 .f32) = val_main_v24 (F := Ideal) x)
    (hZ : (V (Proc.devRef .tc main_v36) : FVec Ideal S16x16 .f32) = val_main_v36 (F := Ideal)) :
    Carried (after (opsTrip1 (F := Ideal)) V) x w b
      ∧ (after (opsTrip1 (F := Ideal)) V (Proc.devRef .tc main_v43) : FVec Ideal S16x16 .f32) = val_main_v43 (F := Ideal) x
      ∧ (after (opsTrip1 (F := Ideal)) V (Proc.devRef .tc main_v44) : FVec Ideal S16x16 .f32) = val_main_v44 (F := Ideal) x :=
  ⟨hC.of_kept (trip1_kept V), trip1_Y V x hC.v30 hY hZ, trip1_Z V x hC.v30 hY hZ⟩

/-- Trip 2 carries what it is handed, and leaves its two products at their staged values. -/
theorem trip2_step {V : Valuation τ sig (Elt Ideal)} {x : FVec Ideal S32x256x56x56 .f32} {w b : FVec Ideal S1x256x1x1 .f32} (hC : Carried V x w b)
    (hY : (V (Proc.devRef .tc main_v43) : FVec Ideal S16x16 .f32) = val_main_v43 (F := Ideal) x)
    (hZ : (V (Proc.devRef .tc main_v44) : FVec Ideal S16x16 .f32) = val_main_v44 (F := Ideal) x) :
    Carried (after (opsTrip2 (F := Ideal)) V) x w b
      ∧ (after (opsTrip2 (F := Ideal)) V (Proc.devRef .tc main_v51) : FVec Ideal S16x16 .f32) = val_main_v51 (F := Ideal) x
      ∧ (after (opsTrip2 (F := Ideal)) V (Proc.devRef .tc main_v52) : FVec Ideal S16x16 .f32) = val_main_v52 (F := Ideal) x :=
  ⟨hC.of_kept (trip2_kept V), trip2_Y V x hC.v30 hY hZ, trip2_Z V x hC.v30 hY hZ⟩

/-- Trip 3 carries what it is handed, and leaves its two products at their staged values. -/
theorem trip3_step {V : Valuation τ sig (Elt Ideal)} {x : FVec Ideal S32x256x56x56 .f32} {w b : FVec Ideal S1x256x1x1 .f32} (hC : Carried V x w b)
    (hY : (V (Proc.devRef .tc main_v51) : FVec Ideal S16x16 .f32) = val_main_v51 (F := Ideal) x)
    (hZ : (V (Proc.devRef .tc main_v52) : FVec Ideal S16x16 .f32) = val_main_v52 (F := Ideal) x) :
    Carried (after (opsTrip3 (F := Ideal)) V) x w b
      ∧ (after (opsTrip3 (F := Ideal)) V (Proc.devRef .tc main_v59) : FVec Ideal S16x16 .f32) = val_main_v59 (F := Ideal) x
      ∧ (after (opsTrip3 (F := Ideal)) V (Proc.devRef .tc main_v60) : FVec Ideal S16x16 .f32) = val_main_v60 (F := Ideal) x :=
  ⟨hC.of_kept (trip3_kept V), trip3_Y V x hC.v30 hY hZ, trip3_Z V x hC.v30 hY hZ⟩

/-- Trip 4 carries what it is handed, and leaves its two products at their staged values. -/
theorem trip4_step {V : Valuation τ sig (Elt Ideal)} {x : FVec Ideal S32x256x56x56 .f32} {w b : FVec Ideal S1x256x1x1 .f32} (hC : Carried V x w b)
    (hY : (V (Proc.devRef .tc main_v59) : FVec Ideal S16x16 .f32) = val_main_v59 (F := Ideal) x)
    (hZ : (V (Proc.devRef .tc main_v60) : FVec Ideal S16x16 .f32) = val_main_v60 (F := Ideal) x) :
    Carried (after (opsTrip4 (F := Ideal)) V) x w b
      ∧ (after (opsTrip4 (F := Ideal)) V (Proc.devRef .tc main_v67) : FVec Ideal S16x16 .f32) = val_main_v67 (F := Ideal) x
      ∧ (after (opsTrip4 (F := Ideal)) V (Proc.devRef .tc main_v68) : FVec Ideal S16x16 .f32) = val_main_v68 (F := Ideal) x :=
  ⟨hC.of_kept (trip4_kept V), trip4_Y V x hC.v30 hY hZ, trip4_Z V x hC.v30 hY hZ⟩

/-- Trip 5 carries what it is handed, and leaves its two products at their staged values. -/
theorem trip5_step {V : Valuation τ sig (Elt Ideal)} {x : FVec Ideal S32x256x56x56 .f32} {w b : FVec Ideal S1x256x1x1 .f32} (hC : Carried V x w b)
    (hY : (V (Proc.devRef .tc main_v67) : FVec Ideal S16x16 .f32) = val_main_v67 (F := Ideal) x)
    (hZ : (V (Proc.devRef .tc main_v68) : FVec Ideal S16x16 .f32) = val_main_v68 (F := Ideal) x) :
    Carried (after (opsTrip5 (F := Ideal)) V) x w b
      ∧ (after (opsTrip5 (F := Ideal)) V (Proc.devRef .tc main_v75) : FVec Ideal S16x16 .f32) = val_main_v75 (F := Ideal) x
      ∧ (after (opsTrip5 (F := Ideal)) V (Proc.devRef .tc main_v76) : FVec Ideal S16x16 .f32) = val_main_v76 (F := Ideal) x :=
  ⟨hC.of_kept (trip5_kept V), trip5_Y V x hC.v30 hY hZ, trip5_Z V x hC.v30 hY hZ⟩

/-- Trip 6 carries what it is handed, and leaves its two products at their staged values. -/
theorem trip6_step {V : Valuation τ sig (Elt Ideal)} {x : FVec Ideal S32x256x56x56 .f32} {w b : FVec Ideal S1x256x1x1 .f32} (hC : Carried V x w b)
    (hY : (V (Proc.devRef .tc main_v75) : FVec Ideal S16x16 .f32) = val_main_v75 (F := Ideal) x)
    (hZ : (V (Proc.devRef .tc main_v76) : FVec Ideal S16x16 .f32) = val_main_v76 (F := Ideal) x) :
    Carried (after (opsTrip6 (F := Ideal)) V) x w b
      ∧ (after (opsTrip6 (F := Ideal)) V (Proc.devRef .tc main_v83) : FVec Ideal S16x16 .f32) = val_main_v83 (F := Ideal) x
      ∧ (after (opsTrip6 (F := Ideal)) V (Proc.devRef .tc main_v84) : FVec Ideal S16x16 .f32) = val_main_v84 (F := Ideal) x :=
  ⟨hC.of_kept (trip6_kept V), trip6_Y V x hC.v30 hY hZ, trip6_Z V x hC.v30 hY hZ⟩

/-- Trip 7 carries what it is handed, and leaves its two products at their staged values. -/
theorem trip7_step {V : Valuation τ sig (Elt Ideal)} {x : FVec Ideal S32x256x56x56 .f32} {w b : FVec Ideal S1x256x1x1 .f32} (hC : Carried V x w b)
    (hY : (V (Proc.devRef .tc main_v83) : FVec Ideal S16x16 .f32) = val_main_v83 (F := Ideal) x)
    (hZ : (V (Proc.devRef .tc main_v84) : FVec Ideal S16x16 .f32) = val_main_v84 (F := Ideal) x) :
    Carried (after (opsTrip7 (F := Ideal)) V) x w b
      ∧ (after (opsTrip7 (F := Ideal)) V (Proc.devRef .tc main_v91) : FVec Ideal S16x16 .f32) = val_main_v91 (F := Ideal) x
      ∧ (after (opsTrip7 (F := Ideal)) V (Proc.devRef .tc main_v92) : FVec Ideal S16x16 .f32) = val_main_v92 (F := Ideal) x :=
  ⟨hC.of_kept (trip7_kept V), trip7_Y V x hC.v30 hY hZ, trip7_Z V x hC.v30 hY hZ⟩

/-- Trip 8 carries what it is handed, and leaves its two products at their staged values. -/
theorem trip8_step {V : Valuation τ sig (Elt Ideal)} {x : FVec Ideal S32x256x56x56 .f32} {w b : FVec Ideal S1x256x1x1 .f32} (hC : Carried V x w b)
    (hY : (V (Proc.devRef .tc main_v91) : FVec Ideal S16x16 .f32) = val_main_v91 (F := Ideal) x)
    (hZ : (V (Proc.devRef .tc main_v92) : FVec Ideal S16x16 .f32) = val_main_v92 (F := Ideal) x) :
    Carried (after (opsTrip8 (F := Ideal)) V) x w b
      ∧ (after (opsTrip8 (F := Ideal)) V (Proc.devRef .tc main_v99) : FVec Ideal S16x16 .f32) = val_main_v99 (F := Ideal) x
      ∧ (after (opsTrip8 (F := Ideal)) V (Proc.devRef .tc main_v100) : FVec Ideal S16x16 .f32) = val_main_v100 (F := Ideal) x :=
  ⟨hC.of_kept (trip8_kept V), trip8_Y V x hC.v30 hY hZ, trip8_Z V x hC.v30 hY hZ⟩

/-- Trip 9 carries what it is handed, and leaves its two products at their staged values. -/
theorem trip9_step {V : Valuation τ sig (Elt Ideal)} {x : FVec Ideal S32x256x56x56 .f32} {w b : FVec Ideal S1x256x1x1 .f32} (hC : Carried V x w b)
    (hY : (V (Proc.devRef .tc main_v99) : FVec Ideal S16x16 .f32) = val_main_v99 (F := Ideal) x)
    (hZ : (V (Proc.devRef .tc main_v100) : FVec Ideal S16x16 .f32) = val_main_v100 (F := Ideal) x) :
    Carried (after (opsTrip9 (F := Ideal)) V) x w b
      ∧ (after (opsTrip9 (F := Ideal)) V (Proc.devRef .tc main_v107) : FVec Ideal S16x16 .f32) = val_main_v107 (F := Ideal) x
      ∧ (after (opsTrip9 (F := Ideal)) V (Proc.devRef .tc main_v108) : FVec Ideal S16x16 .f32) = val_main_v108 (F := Ideal) x :=
  ⟨hC.of_kept (trip9_kept V), trip9_Y V x hC.v30 hY hZ, trip9_Z V x hC.v30 hY hZ⟩

/-- Trip 10 carries what it is handed, and leaves its two products at their staged values. -/
theorem trip10_step {V : Valuation τ sig (Elt Ideal)} {x : FVec Ideal S32x256x56x56 .f32} {w b : FVec Ideal S1x256x1x1 .f32} (hC : Carried V x w b)
    (hY : (V (Proc.devRef .tc main_v107) : FVec Ideal S16x16 .f32) = val_main_v107 (F := Ideal) x)
    (hZ : (V (Proc.devRef .tc main_v108) : FVec Ideal S16x16 .f32) = val_main_v108 (F := Ideal) x) :
    Carried (after (opsTrip10 (F := Ideal)) V) x w b
      ∧ (after (opsTrip10 (F := Ideal)) V (Proc.devRef .tc main_v115) : FVec Ideal S16x16 .f32) = val_main_v115 (F := Ideal) x
      ∧ (after (opsTrip10 (F := Ideal)) V (Proc.devRef .tc main_v116) : FVec Ideal S16x16 .f32) = val_main_v116 (F := Ideal) x :=
  ⟨hC.of_kept (trip10_kept V), trip10_Y V x hC.v30 hY hZ, trip10_Z V x hC.v30 hY hZ⟩

/-! ## The whole line -/

/-- The fold over the line is the fold over its stretches, each from the fold over the ones before. -/
theorem after_ops (W : Valuation τ sig (Elt Ideal)) :
    after (ValueP.ops (F := Ideal)) W
      = after (opsEnd (F := Ideal)) (after (opsTrip10 (F := Ideal)) (after (opsTrip9 (F := Ideal)) (after (opsTrip8 (F := Ideal)) (after (opsTrip7 (F := Ideal)) (after (opsTrip6 (F := Ideal)) (after (opsTrip5 (F := Ideal)) (after (opsTrip4 (F := Ideal)) (after (opsTrip3 (F := Ideal)) (after (opsTrip2 (F := Ideal)) (after (opsTrip1 (F := Ideal)) (after (opsEye (F := Ideal)) (after (opsNorm (F := Ideal)) (after (opsCov (F := Ideal)) (after (opsCentre (F := Ideal)) (W))))))))))))))) := by
  rw [ops_split]; simp only [Cert.LibFoldStretch.after_append]

/-- Before the trips: the centred samples, the norm, the identity and the inputs are in place, and the start pair is
    (Y₀, Z₀) at its staged values. -/
theorem before_trips (W : Valuation τ sig (Elt Ideal)) :
    Carried (after (opsEye (F := Ideal)) (after (opsNorm (F := Ideal)) (after (opsCov (F := Ideal)) (after (opsCentre (F := Ideal)) W))))
        (W (Proc.devRef .tc main_arg0)) (W (Proc.devRef .tc main_arg1)) (W (Proc.devRef .tc main_arg2))
      ∧ (after (opsEye (F := Ideal)) (after (opsNorm (F := Ideal)) (after (opsCov (F := Ideal)) (after (opsCentre (F := Ideal)) W)))
            (Proc.devRef .tc main_v24) : FVec Ideal S16x16 .f32) = val_main_v24 (F := Ideal) (W (Proc.devRef .tc main_arg0))
      ∧ (after (opsEye (F := Ideal)) (after (opsNorm (F := Ideal)) (after (opsCov (F := Ideal)) (after (opsCentre (F := Ideal)) W)))
            (Proc.devRef .tc main_v36) : FVec Ideal S16x16 .f32) = val_main_v36 (F := Ideal) := by
  have k1 := centre_kept W
  have a8 := centre_v8 W
  have a10 := centre_v10 W
  have k2 := cov_kept (after (opsCentre (F := Ideal)) W)
  have a21 := cov_v21 _ _ a10
  have k3 := norm_kept (after (opsCov (F := Ideal)) (after (opsCentre (F := Ideal)) W))
  have a22 := norm_v22 _ _ a21
  have a24 := norm_v24 _ _ a21
  have k4 := eye_kept (after (opsNorm (F := Ideal)) (after (opsCov (F := Ideal)) (after (opsCentre (F := Ideal)) W)))
  refine ⟨⟨?_, ?_, eye_v30 _, ?_, ?_, ?_⟩, ?_, eye_v36 _⟩
  · exact k4.1.trans (k3.1.trans (k2.1.trans a8))
  · exact k4.2.1.trans a22
  · exact k4.2.2.2.1.trans (k3.2.1.trans (k2.2.1.trans k1.1))
  · exact k4.2.2.2.2.1.trans (k3.2.2.1.trans (k2.2.2.1.trans k1.2.1))
  · exact k4.2.2.2.2.2.trans (k3.2.2.2.trans (k2.2.2.2.trans k1.2.2))
  · exact k4.2.2.1.trans a24

/-- After the whole line: the output is the staged value of the inputs, and the inputs are as they were. -/
theorem fold_all (W : Valuation τ sig (Elt Ideal)) :
    (after (ValueP.ops (F := Ideal)) W (Proc.devRef .tc main_v127) : FVec Ideal S32x256x56x56 .f32)
        = val_main_v127 (F := Ideal) (W (Proc.devRef .tc main_arg0)) (W (Proc.devRef .tc main_arg1)) (W (Proc.devRef .tc main_arg2))
      ∧ (after (ValueP.ops (F := Ideal)) W (Proc.devRef .tc main_arg0) : FVec Ideal S32x256x56x56 .f32) = W (Proc.devRef .tc main_arg0)
      ∧ (after (ValueP.ops (F := Ideal)) W (Proc.devRef .tc main_arg1) : FVec Ideal S1x256x1x1 .f32) = W (Proc.devRef .tc main_arg1)
      ∧ (after (ValueP.ops (F := Ideal)) W (Proc.devRef .tc main_arg2) : FVec Ideal S1x256x1x1 .f32) = W (Proc.devRef .tc main_arg2) := by
  rw [after_ops W]
  obtain ⟨hC0, hY0, hZ0⟩ := before_trips W
  obtain ⟨hC1, hY1, hZ1⟩ := trip1_step hC0 hY0 hZ0
  obtain ⟨hC2, hY2, hZ2⟩ := trip2_step hC1 hY1 hZ1
  obtain ⟨hC3, hY3, hZ3⟩ := trip3_step hC2 hY2 hZ2
  obtain ⟨hC4, hY4, hZ4⟩ := trip4_step hC3 hY3 hZ3
  obtain ⟨hC5, hY5, hZ5⟩ := trip5_step hC4 hY4 hZ4
  obtain ⟨hC6, hY6, hZ6⟩ := trip6_step hC5 hY5 hZ5
  obtain ⟨hC7, hY7, hZ7⟩ := trip7_step hC6 hY6 hZ6
  obtain ⟨hC8, hY8, hZ8⟩ := trip8_step hC7 hY7 hZ7
  obtain ⟨hC9, hY9, hZ9⟩ := trip9_step hC8 hY8 hZ8
  obtain ⟨hC10, hY10, hZ10⟩ := trip10_step hC9 hY9 hZ9
  have kE := end_kept (after (opsTrip10 (F := Ideal)) (after (opsTrip9 (F := Ideal)) (after (opsTrip8 (F := Ideal)) (after (opsTrip7 (F := Ideal)) (after (opsTrip6 (F := Ideal)) (after (opsTrip5 (F := Ideal)) (after (opsTrip4 (F := Ideal)) (after (opsTrip3 (F := Ideal)) (after (opsTrip2 (F := Ideal)) (after (opsTrip1 (F := Ideal)) (after (opsEye (F := Ideal)) (after (opsNorm (F := Ideal)) (after (opsCov (F := Ideal)) (after (opsCentre (F := Ideal)) (W)))))))))))))))
  refine ⟨?_, kE.1.trans hC10.arg0, kE.2.1.trans hC10.arg1, kE.2.2.trans hC10.arg2⟩
  refine (end_v127 _ _ hC10.v8 hC10.v22 hZ10).trans ?_
  rw [hC10.arg1, hC10.arg2]

/-! ## The statements -/

/-- The fold of the reference's operations leaves the staged value of the three inputs at the output buffer. -/
theorem fold_eq (W : Valuation τ sig (Elt Ideal)) :
    (after (Cert.ReferenceIdeal.ValueP.ops (F := Ideal)) W (Proc.devRef .tc main_v127) : FVec Ideal S32x256x56x56 .f32)
      = Cert.ReferenceIdeal.ReadP.val_main_v127 (F := Ideal) (W (Proc.devRef .tc main_arg0)) (W (Proc.devRef .tc main_arg1)) (W (Proc.devRef .tc main_arg2)) :=
  (fold_all W).1

/-- The fold leaves the three inputs as they were. -/
theorem fold_arg0 (W : Valuation τ sig (Elt Ideal)) :
    after (ValueP.ops (F := Ideal)) W (Proc.devRef .tc main_arg0) = W (Proc.devRef .tc main_arg0) := (fold_all W).2.1
theorem fold_arg1 (W : Valuation τ sig (Elt Ideal)) :
    after (ValueP.ops (F := Ideal)) W (Proc.devRef .tc main_arg1) = W (Proc.devRef .tc main_arg1) := (fold_all W).2.2.1
theorem fold_arg2 (W : Valuation τ sig (Elt Ideal)) :
    after (ValueP.ops (F := Ideal)) W (Proc.devRef .tc main_arg2) = W (Proc.devRef .tc main_arg2) := (fold_all W).2.2.2

end Cert.ReferenceIdeal.HostVal

end
-- ==== Proof.RReadBase.lean ====
/-
  The reference's flattened views of the input, read at an index.

  The reference reshapes x : [32, 256, 56, 56] to [32, 16, 16, 56, 56], moves the group axis to the front and flattens
  the rest: entry (g, j) of the resulting [16, 1605632] matrix is group g's sample at flat position j
  (`fsamp x g j`).  The mean column broadcast along the samples reads, at (g, j), the mean of group g; the centred
  matrix reads  fsamp x g j − mean g.
-/
import proofs.«155110_j49271864820158_1_alg».proof.Proof.Spec
import proofs.«155110_j49271864820158_1_alg».proof.Proof.RefReadP

noncomputable section

namespace Cert.ReferenceIdeal.Reads

open Idealize.ShloMosaic Idealize.ShloMosaic.ValueIdx Cert.GroupWhiten Cert.ReferenceIdeal

/-- The number of samples per group, 1605632, as the f32 the programs divide by. -/
abbrev Mpat : EReal := Ideal.ofBits .f32 0x49C40000#32

/-- The reference's mean of group `g`: entry (g, 0) of its [16, 1] column of means. -/
abbrev mu (x : FVec Ideal S32x256x56x56 .f32) (g : Fin 16) : EReal :=
  ReadP.val_main_v6 (F := Ideal) x (ix2 g (0 : Fin 1))

/-! ## Two facts of arithmetic -/

/-- The row-major offset b·1605632 + d of (b, d) in [16, 1605632], split as an index of [16, 32, 16, 56, 56]
    (1605632 = 32·16·56·56): the leading coordinate is b and the other four are those of d alone. -/
theorem split_flat (b d : Nat) (hb : b < 16) (hd : d < 1605632) :
    (b * 1605632 + d) / 50176 % 32 = d / 50176 ∧ (b * 1605632 + d) / 3136 % 16 = d / 3136 % 16 ∧
    (b * 1605632 + d) / 1605632 = b ∧ (b * 1605632 + d) / 56 % 56 = d / 56 % 56 ∧
    (b * 1605632 + d) % 56 = d % 56 := by
  refine ⟨?_, ?_, ?_, ?_, ?_⟩ <;> omega

/-- The row-major offset of (n, o, g, h, w) in [32, 16, 16, 56, 56], split as an index of [32, 256, 56, 56]:
    image n, channel 16·o + g, row h, column w. -/
theorem reflat (n o g h w : Nat) (ho : o < 16) (hg : g < 16) (hh : h < 56) (hw : w < 56) :
    ((((n * 16 + o) * 16 + g) * 56 + h) * 56 + w) / 802816 = n ∧
    ((((n * 16 + o) * 16 + g) * 56 + h) * 56 + w) / 3136 % 256 = 16 * o + g ∧
    ((((n * 16 + o) * 16 + g) * 56 + h) * 56 + w) / 56 % 56 = h ∧
    ((((n * 16 + o) * 16 + g) * 56 + h) * 56 + w) % 56 = w := by
  refine ⟨?_, ?_, ?_, ?_⟩ <;> omega

/-! ## The flattened input -/

/-- Entry `i = (g, j)` of the flattened input is group g's sample at flat position j.  Unwinding the two reshapes and
    the transpose, the flat offset  g·1605632 + j  is split as (g, j / 50176, j / 3136 mod 16, j / 56 mod 56, j mod 56),
    reordered to (n, o, g, h, w), and re-flattened to channel 16·o + g of image n. -/
theorem v2_idx (x : FVec Ideal S32x256x56x56 .f32) (i : S16x1605632.Idx) :
    ReadP.val_main_v2 (F := Ideal) x i = fsamp x (i 0) (i 1) := by
  rw [ReadP.val_main_v2_apply, ReadP.val_main_v1_apply, ReadP.val_main_v0_apply]
  unfold fsamp
  refine congrArg x (funext fun a => Fin.ext ?_)
  have h0 : (i 0).val < 16 := (i 0).isLt
  have h1 : (i 1).val < 1605632 := (i 1).isLt
  obtain ⟨e1, e2, e3, e4, e5⟩ := split_flat (i 0).val (i 1).val h0 h1
  have r := reflat ((i 1).val / 50176) ((i 1).val / 3136 % 16) (i 0).val ((i 1).val / 56 % 56) ((i 1).val % 56)
    (Nat.mod_lt _ (by decide)) h0 (Nat.mod_lt _ (by decide)) (Nat.mod_lt _ (by decide))
  match a with
  | ⟨0, _⟩ => dsimp only []; rw [e1, e2, e3, e4, e5]; exact r.1
  | ⟨1, _⟩ => dsimp only []; rw [e1, e2, e3, e4, e5]; exact r.2.1
  | ⟨2, _⟩ => dsimp only []; rw [e1, e2, e3, e4, e5]; exact r.2.2.1
  | ⟨3, _⟩ => dsimp only []; rw [e1, e2, e3, e4, e5]; exact r.2.2.2

theorem v2_fsamp (x : FVec Ideal S32x256x56x56 .f32) (g : Fin 16) (j : Fin 1605632) :
    ReadP.val_main_v2 (F := Ideal) x (ix2 g j) = fsamp x g j :=
  v2_idx x (ix2 g j)

/-! ## The mean column and the centred matrix -/

/-- The column of means broadcast along the samples reads, at (g, j), the mean of group g. -/
theorem v7_mu (x : FVec Ideal S32x256x56x56 .f32) (i : S16x1605632.Idx) :
    ReadP.val_main_v7 (F := Ideal) x i = mu x (i 0) := by
  rw [ReadP.val_main_v7_apply]
  exact congrArg (ReadP.val_main_v6 (F := Ideal) x)
    (funext fun a => match a with | ⟨0, _⟩ => rfl | ⟨1, _⟩ => rfl)

/-- The centred matrix at (g, j):  group g's sample at j, minus the mean of group g. -/
theorem v8_idx (x : FVec Ideal S32x256x56x56 .f32) (i : S16x1605632.Idx) :
    ReadP.val_main_v8 (F := Ideal) x i = fsamp x (i 0) (i 1) - mu x (i 0) := by
  rw [ReadP.val_main_v8_apply, v2_idx, v7_mu, Ideal.subf_def]

/-- The reference's mean of group g:  (0 + the sum of group g's samples) / M. -/
theorem mean_apply (x : FVec Ideal S32x256x56x56 .f32) (g : Fin 16) :
    mu x g = Ideal.div (Ideal.ofBits .f32 0x00000000#32 + ∑ j : Fin 1605632, fsamp x g j)
      (Ideal.ofBits .f32 0x49C40000#32) := by
  show ReadP.val_main_v6 (F := Ideal) x (ix2 g (0 : Fin 1)) = _
  rw [ReadP.val_main_v6_apply, ReadP.val_main_v4_apply, ReadP.val_main_v3_apply, ReadP.val_main_v5_apply,
    ReadP.val_main_cst_0_apply, ReadP.val_main_cst_apply, Ideal.hostDivf_def, Ideal.ofBits_def, Ideal.ofBits_def]
  refine congrArg (fun s => Ideal.div (Ideal.ofBits .f32 0x00000000#32 + s) (Ideal.ofBits .f32 0x49C40000#32))
    (Finset.sum_congr rfl fun k _ => ?_)
  exact v2_idx x _

end Cert.ReferenceIdeal.Reads

end
-- ==== Proof.RReadCov.lean ====
/-
  The reference's covariance, read at an index.

  The reference contracts the centred [16, 1605632] matrix with its own transpose over the samples, divides by the
  number of samples M and adds ε on the diagonal:
      cov[g, g'] = (∑_j (s_g(j) − mean g) · (s_g'(j) − mean g')) / M + ε · I[g, g'].
-/
import proofs.«155110_j49271864820158_1_alg».proof.Proof.RReadBase

noncomputable section

namespace Cert.ReferenceIdeal.Reads

open Idealize.ShloMosaic Idealize.ShloMosaic.ValueIdx Cert.GroupWhiten Cert.ReferenceIdeal

/-- The product of the centred matrix with its transpose at (g, g'): the sum over the samples of the products of the
    two groups' centred samples. -/
theorem v10_idx (x : FVec Ideal S32x256x56x56 .f32) (i : S16x16.Idx) :
    ReadP.val_main_v10 (F := Ideal) x i
      = ∑ k : Fin 1605632, (fsamp x (i 0) k - mu x (i 0)) * (fsamp x (i 1) k - mu x (i 1)) := by
  rw [ReadP.val_main_v10_apply]
  refine Finset.sum_congr rfl fun k _ => ?_
  rw [ReadP.val_main_v9_apply, v8_idx, v8_idx]
  rfl

/-- The reference's identity matrix is the one the mathematics names `eye`. -/
theorem v18_eye : (ReadP.val_main_v18 (F := Ideal) : FVec Ideal SG .f32) = eye := rfl

/-- The reference's covariance at (g, g'). -/
theorem cov_apply (x : FVec Ideal S32x256x56x56 .f32) (g g' : Fin 16) :
    ReadP.val_main_v21 (F := Ideal) x (ix2 g g')
      = Ideal.div (∑ j : Fin 1605632, (fsamp x g j - mu x g) * (fsamp x g' j - mu x g'))
          (Ideal.ofBits .f32 0x49C40000#32)
        + Ideal.ofBits .f32 0x3727C5AC#32 * eye (ix2 g g') := by
  rw [ReadP.val_main_v21_apply, ReadP.val_main_v12_apply, v10_idx, ReadP.val_main_v11_apply,
    ReadP.val_main_cst_1_apply, ReadP.val_main_v20_apply, ReadP.val_main_v19_apply, ReadP.val_main_cst_2_apply,
    v18_eye, Ideal.addf_def, Ideal.hostDivf_def, Ideal.mulf_def, Ideal.ofBits_def, Ideal.ofBits_def]

end Cert.ReferenceIdeal.Reads

end
-- ==== Proof.RReadOut.lean ====
/-
  The reference's output, read at an index.

  The reference multiplies the 16×16 matrix D by the centred [16, 1605632] matrix, un-flattens the product back to
  [32, 256, 56, 56] (the inverse of the flattening of the input), scales by the weight and adds the bias:
      out[n, c, h, w] = (∑_{g'} D[c mod 16, g'] · (x[n, 16·(c / 16) + g', h, w] − mean g')) · weight[c] + bias[c].
-/
import proofs.«155110_j49271864820158_1_alg».proof.Proof.RReadBase

noncomputable section

namespace Cert.ReferenceIdeal.Reads

open Idealize.ShloMosaic Idealize.ShloMosaic.ValueIdx Cert.GroupWhiten Cert.ReferenceIdeal

/-! ## Three facts of arithmetic -/

/-- The row-major offset of (n, c, h, w) in [32, 256, 56, 56], split as an index of [32, 16, 16, 56, 56]:
    (n, c / 16, c mod 16, h, w). -/
theorem split4 (n c h w : Nat) (hc : c < 256) (hh : h < 56) (hw : w < 56) :
    (((n * 256 + c) * 56 + h) * 56 + w) / 802816 = n ∧
    (((n * 256 + c) * 56 + h) * 56 + w) / 50176 % 16 = c / 16 ∧
    (((n * 256 + c) * 56 + h) * 56 + w) / 3136 % 16 = c % 16 ∧
    (((n * 256 + c) * 56 + h) * 56 + w) / 56 % 56 = h ∧
    (((n * 256 + c) * 56 + h) * 56 + w) % 56 = w := by
  refine ⟨?_, ?_, ?_, ?_, ?_⟩ <;> omega

/-- The row-major offset of (g, n, o, h, w) in [16, 32, 16, 56, 56], split as an index of [16, 1605632]:
    row g, and the offset of (n, o, h, w) in [32, 16, 56, 56]. -/
theorem flat5 (g n o h w : Nat) (hn : n < 32) (ho : o < 16) (hh : h < 56) (hw : w < 56) :
    ((((g * 32 + n) * 16 + o) * 56 + h) * 56 + w) / 1605632 = g ∧
    ((((g * 32 + n) * 16 + o) * 56 + h) * 56 + w) % 1605632 = ((n * 16 + o) * 56 + h) * 56 + w := by
  refine ⟨?_, ?_⟩ <;> omega

/-- The flat sample position of (n, o, h, w), split back into its four coordinates. -/
theorem split_j (n o h w : Nat) (ho : o < 16) (hh : h < 56) (hw : w < 56) :
    (((n * 16 + o) * 56 + h) * 56 + w) / 50176 = n ∧
    (((n * 16 + o) * 56 + h) * 56 + w) / 3136 % 16 = o ∧
    (((n * 16 + o) * 56 + h) * 56 + w) / 56 % 56 = h ∧
    (((n * 16 + o) * 56 + h) * 56 + w) % 56 = w := by
  refine ⟨?_, ?_, ?_, ?_⟩ <;> omega

/-! ## Where the un-flattening reads the [16, 1605632] product -/

/-- Output position (n, c, h, w) reads row  c mod 16  of the product … -/
theorem out_idx0 (p : S32x256x56x56.Idx) : ((ReadP.idx_main_v121 (ReadP.idx_main_v122 (ReadP.idx_main_v123 p))) 0).val = (p 1).val % 16 := by
  have h0 : (p 0).val < 32 := (p 0).isLt
  have h1 : (p 1).val < 256 := (p 1).isLt
  have h2 : (p 2).val < 56 := (p 2).isLt
  have h3 : (p 3).val < 56 := (p 3).isLt
  obtain ⟨e1, e2, e3, e4, e5⟩ := split4 (p 0).val (p 1).val (p 2).val (p 3).val h1 h2 h3
  dsimp only []
  rw [e1, e2, e3, e4, e5]
  exact (flat5 ((p 1).val % 16) (p 0).val ((p 1).val / 16) (p 2).val (p 3).val h0 (by omega) h2 h3).1

/-- … at the flat sample position of (n, c / 16, h, w). -/
theorem out_idx1 (p : S32x256x56x56.Idx) :
    ((ReadP.idx_main_v121 (ReadP.idx_main_v122 (ReadP.idx_main_v123 p))) 1).val = (((p 0).val * 16 + (p 1).val / 16) * 56 + (p 2).val) * 56 + (p 3).val := by
  have h0 : (p 0).val < 32 := (p 0).isLt
  have h1 : (p 1).val < 256 := (p 1).isLt
  have h2 : (p 2).val < 56 := (p 2).isLt
  have h3 : (p 3).val < 56 := (p 3).isLt
  obtain ⟨e1, e2, e3, e4, e5⟩ := split4 (p 0).val (p 1).val (p 2).val (p 3).val h1 h2 h3
  dsimp only []
  rw [e1, e2, e3, e4, e5]
  exact (flat5 ((p 1).val % 16) (p 0).val ((p 1).val / 16) (p 2).val (p 3).val h0 (by omega) h2 h3).2

/-- Group k's sample at the flat position of (n, c / 16, h, w) is  x[n, 16·(c / 16) + k, h, w]. -/
theorem fsamp_of_flat (x : FVec Ideal S32x256x56x56 .f32) (k : Fin 16) (j : Fin 1605632) (p : S32x256x56x56.Idx)
    (hj : j.val = (((p 0).val * 16 + (p 1).val / 16) * 56 + (p 2).val) * 56 + (p 3).val) :
    fsamp x k j = x (ix4 (p 0) (chan (blockOf (p 1)) k) (p 2) (p 3)) := by
  unfold fsamp
  refine congrArg x (funext fun a => Fin.ext ?_)
  have h1 : (p 1).val < 256 := (p 1).isLt
  have h2 : (p 2).val < 56 := (p 2).isLt
  have h3 : (p 3).val < 56 := (p 3).isLt
  obtain ⟨j1, j2, j3, j4⟩ := split_j (p 0).val ((p 1).val / 16) (p 2).val (p 3).val (by omega) h2 h3
  match a with
  | ⟨0, _⟩ => dsimp only []; rw [hj]; exact j1
  | ⟨1, _⟩ => dsimp only [chan, blockOf]; rw [hj, j2]
  | ⟨2, _⟩ => dsimp only []; rw [hj]; exact j3
  | ⟨3, _⟩ => dsimp only []; rw [hj]; exact j4

/-! ## The output -/

/-- The un-flattened product at (n, c, h, w): row  c mod 16  of D against the centred samples of block  c / 16. -/
theorem v123_idx (x : FVec Ideal S32x256x56x56 .f32) (p : S32x256x56x56.Idx) :
    ReadP.val_main_v123 (F := Ideal) x p
      = ∑ k : Fin 16, ReadP.val_main_v119 (F := Ideal) x (ix2 (groupOf (p 1)) k)
          * (x (ix4 (p 0) (chan (blockOf (p 1)) k) (p 2) (p 3)) - mu x k) := by
  rw [ReadP.val_main_v123_apply, ReadP.val_main_v122_apply, ReadP.val_main_v121_apply, ReadP.val_main_v120_apply]
  refine Finset.sum_congr rfl fun k _ => ?_
  rw [v8_idx]
  have hl : ReadP.lidx_main_v120 (ReadP.idx_main_v121 (ReadP.idx_main_v122 (ReadP.idx_main_v123 p))) k = ix2 (groupOf (p 1)) k :=
    funext fun a => match a with
      | ⟨0, _⟩ => Fin.ext (out_idx0 p)
      | ⟨1, _⟩ => rfl
  have hs := fsamp_of_flat x k ((ReadP.idx_main_v121 (ReadP.idx_main_v122 (ReadP.idx_main_v123 p))) 1) p (out_idx1 p)
  rw [hl]
  exact congrArg (fun t => ReadP.val_main_v119 (F := Ideal) x (ix2 (groupOf (p 1)) k) * (t - mu x k)) hs

/-- The reference's output is the whitening of x by its own mean and its own matrix D. -/
theorem out_eq (x : FVec Ideal S32x256x56x56 .f32) (w b : FVec Ideal S1x256x1x1 .f32) :
    ReadP.val_main_v127 (F := Ideal) x w b = whiten x (mu x) (ReadP.val_main_v119 (F := Ideal) x) w b := by
  funext p
  have hi4 : ReadP.idx_main_v124 p = ix4 (0 : Fin 1) (p 1) (0 : Fin 1) (0 : Fin 1) :=
    funext fun a => match a with | ⟨0, _⟩ => rfl | ⟨1, _⟩ => rfl | ⟨2, _⟩ => rfl | ⟨3, _⟩ => rfl
  have hi6 : ReadP.idx_main_v126 p = ix4 (0 : Fin 1) (p 1) (0 : Fin 1) (0 : Fin 1) :=
    funext fun a => match a with | ⟨0, _⟩ => rfl | ⟨1, _⟩ => rfl | ⟨2, _⟩ => rfl | ⟨3, _⟩ => rfl
  rw [ReadP.val_main_v127_apply, ReadP.val_main_v125_apply, v123_idx, ReadP.val_main_v124_apply,
    ReadP.val_main_v126_apply, hi4, hi6, Ideal.addf_def, Ideal.mulf_def]
  rfl

end Cert.ReferenceIdeal.Reads

end
-- ==== Proof.RRead.lean ====
/-
  The reference read at an index: its mean per group, its covariance and its output, in the terms of the mathematics
  (`fsamp`, `eye`, `whiten`).

  * `mean_apply` — mean g = (0 + ∑_j s_g(j)) / M;
  * `cov_apply`  — cov[g, g'] = (∑_j (s_g(j) − mean g)·(s_g'(j) − mean g')) / M + ε·I[g, g'];
  * `out_eq`     — the output is `whiten` of the input by that mean and the reference's own 16×16 matrix.
-/
import proofs.«155110_j49271864820158_1_alg».proof.Proof.RReadBase
import proofs.«155110_j49271864820158_1_alg».proof.Proof.RReadCov
import proofs.«155110_j49271864820158_1_alg».proof.Proof.RReadOut
-- ==== Proof.LibTileSum.lean ====
/-
  Sums over a range cut into equal blocks, and over a square cut into square tiles.

  In a commutative monoid the order and grouping of a finite sum are free. So the sum of `g` over the `A · B` indices
  `0 … A·B − 1` is the sum, over the `A` blocks, of the sum over the `B` indices `B·i … B·i + B − 1` of block `i`; and the sum of
  `f` over a square of side `A · B` is the sum over its `A × A` tiles of the sum over the `B × B` entries of each tile.
  Likewise the sum over the points `t = B·i + j` of an `A × B` grid visited row by row is the double sum over `(i, j)`.
  Only associativity and commutativity of `+` are used, so the laws hold on the extended reals whatever the terms are.
-/
import Mathlib.Algebra.BigOperators.Fin
import Mathlib.Algebra.BigOperators.Intervals
import Mathlib.Logic.Equiv.Fin.Basic
import Mathlib.Tactic

namespace Cert.LibTileSum

open Finset

/-- Index `r` of block `i` lies below `A · B`. -/
theorem blk_lt {A B : ℕ} (i : Fin A) (r : Fin B) : B * i.val + r.val < A * B := by
  have h1 : B * (i.val + 1) ≤ B * A := Nat.mul_le_mul_left B i.isLt
  have h2 := r.isLt
  rw [Nat.mul_add, Nat.mul_one] at h1
  rw [Nat.mul_comm A B]
  omega

/-- Index `r` of block `i`, as an index of the whole range. -/
def blk {A B N : ℕ} (h : A * B = N) (i : Fin A) (r : Fin B) : Fin N := ⟨B * i.val + r.val, h ▸ blk_lt i r⟩

@[simp] theorem blk_val {A B N : ℕ} (h : A * B = N) (i : Fin A) (r : Fin B) : (blk h i r).val = B * i.val + r.val := rfl

/-- A sum over `A · B` indices, taken block by block. -/
theorem sum_blocks {M : Type*} [AddCommMonoid M] {A B N : ℕ} (h : A * B = N) (g : Fin N → M) :
    ∑ x : Fin N, g x = ∑ i : Fin A, ∑ r : Fin B, g (blk h i r) := by
  subst h
  rw [← Equiv.sum_comp finProdFinEquiv g, Fintype.sum_prod_type]
  refine Finset.sum_congr rfl fun i _ => Finset.sum_congr rfl fun r _ => congrArg g (Fin.ext ?_)
  show r.val + B * i.val = B * i.val + r.val
  exact Nat.add_comm _ _

/-- A sum over a square of side `A · B`, taken tile by tile. -/
theorem sum_tiles {M : Type*} [AddCommMonoid M] {A B N : ℕ} (h : A * B = N) (f : Fin N → Fin N → M) :
    ∑ x : Fin N, ∑ y : Fin N, f x y
      = ∑ i : Fin A, ∑ j : Fin A, ∑ r : Fin B, ∑ c : Fin B, f (blk h i r) (blk h j c) := by
  calc ∑ x : Fin N, ∑ y : Fin N, f x y
      = ∑ i : Fin A, ∑ r : Fin B, ∑ y : Fin N, f (blk h i r) y := sum_blocks h _
    _ = ∑ i : Fin A, ∑ r : Fin B, ∑ j : Fin A, ∑ c : Fin B, f (blk h i r) (blk h j c) :=
        Finset.sum_congr rfl fun i _ => Finset.sum_congr rfl fun r _ => sum_blocks h _
    _ = ∑ i : Fin A, ∑ j : Fin A, ∑ r : Fin B, ∑ c : Fin B, f (blk h i r) (blk h j c) :=
        Finset.sum_congr rfl fun i _ => Finset.sum_comm

/-- A sum over the points of an `A × B` grid visited row by row (point `t` has coordinates `(t / B mod A, t mod B)`)
    is the double sum over the coordinates. -/
theorem sum_rowMajor {M : Type*} [AddCommMonoid M] {A B N : ℕ} (h : A * B = N) (hA : 0 < A) (hB : 0 < B)
    (g : Fin A → Fin B → M) :
    ∑ t : Fin N, g ⟨t.val / B % A, Nat.mod_lt _ hA⟩ ⟨t.val % B, Nat.mod_lt _ hB⟩ = ∑ i : Fin A, ∑ j : Fin B, g i j := by
  rw [sum_blocks h]
  refine Finset.sum_congr rfl fun i _ => Finset.sum_congr rfl fun j _ => ?_
  have e1 : (B * i.val + j.val) / B = i.val := by
    rw [Nat.add_comm, Nat.add_mul_div_left _ _ hB, Nat.div_eq_of_lt j.isLt, Nat.zero_add]
  have e2 : (B * i.val + j.val) % B = j.val := by
    rw [Nat.add_comm, Nat.add_mul_mod_self_left, Nat.mod_eq_of_lt j.isLt]
  congr 1
  · exact Fin.ext (by show (B * i.val + j.val) / B % A = i.val; rw [e1, Nat.mod_eq_of_lt i.isLt])
  · exact Fin.ext (by show (B * i.val + j.val) % B = j.val; exact e2)

end Cert.LibTileSum
-- ==== Proof.CovLawFlat.lean ====
/-
  The samples of a group, counted flat.

  A sample of group `g` sits at image `n`, block `o`, position `k`; its flat position is `j = (16·n + o)·3136 + k`.
  The map (n, o, k) ↦ j is a bijection onto the 1605632 flat positions, and the sample read at the flat position is the
  sample read at (n, o, k). So a sum over blocks, images and positions is the sum over the flat positions: a re-indexing,
  true of any terms in a commutative monoid.
-/
import proofs.«155110_j49271864820158_1_alg».proof.Proof.Spec
import proofs.«155110_j49271864820158_1_alg».proof.Proof.LibTileSum

noncomputable section

namespace Cert.GroupWhiten

open Idealize.ShloMosaic Idealize.ShloMosaic.ValueIdx

/-- Every entry of the array is a real number. -/
def Finite (x : SX.Idx → EReal) : Prop := ∀ i, ∃ r : ℝ, x i = (r : EReal)

/-- The sample at the flat position of (n, o, k) is the sample at (n, o, k). -/
theorem fsamp_flat (x : SX.Idx → EReal) (g : Fin 16) (n : Fin 32) (o : Fin 16) (k : Fin 3136) :
    fsamp x g (flat n o k) = samp x g n o k := by
  unfold fsamp samp
  refine congrArg x (funext fun e => Fin.ext ?_)
  have hn := n.isLt; have ho := o.isLt; have hk := k.isLt
  match e with
  | ⟨0, _⟩ =>
    show ((16 * n.val + o.val) * 3136 + k.val) / 50176 = n.val
    omega
  | ⟨1, _⟩ =>
    show 16 * (((16 * n.val + o.val) * 3136 + k.val) / 3136 % 16) + g.val = 16 * o.val + g.val
    omega
  | ⟨2, _⟩ =>
    show ((16 * n.val + o.val) * 3136 + k.val) / 56 % 56 = k.val / 56
    omega
  | ⟨3, _⟩ =>
    show ((16 * n.val + o.val) * 3136 + k.val) % 56 = k.val % 56
    omega

/-- A sum over the flat positions, taken block by block, image by image, position by position. -/
theorem sum_flat {M : Type*} [AddCommMonoid M] (f : Fin 1605632 → M) :
    ∑ j : Fin 1605632, f j = ∑ o : Fin 16, ∑ n : Fin 32, ∑ k : Fin 3136, f (flat n o k) := by
  rw [Cert.LibTileSum.sum_blocks (A := 512) (B := 3136) (by norm_num) f,
    Cert.LibTileSum.sum_blocks (A := 32) (B := 16) (by norm_num), Finset.sum_comm]
  refine Finset.sum_congr rfl fun o _ => Finset.sum_congr rfl fun n _ => Finset.sum_congr rfl fun k _ =>
    congrArg f (Fin.ext ?_)
  show 3136 * (16 * n.val + o.val) + k.val = (16 * n.val + o.val) * 3136 + k.val
  omega

/-- The sum of a group's samples is the sum over the flat positions. -/
theorem gsum_flat (x : SX.Idx → EReal) (g : Fin 16) : gsum x g = ∑ j : Fin 1605632, fsamp x g j := by
  rw [sum_flat]
  exact Finset.sum_congr rfl fun o _ => Finset.sum_congr rfl fun n _ => Finset.sum_congr rfl fun k _ =>
    (fsamp_flat x g n o k).symm

/-- The sum of the products of two groups' samples is the sum over the flat positions. -/
theorem gcross_flat (x : SX.Idx → EReal) (g g' : Fin 16) :
    gcross x g g' = ∑ j : Fin 1605632, fsamp x g j * fsamp x g' j := by
  rw [sum_flat]
  exact Finset.sum_congr rfl fun o _ => Finset.sum_congr rfl fun n _ => Finset.sum_congr rfl fun k _ => by
    rw [fsamp_flat, fsamp_flat]

end Cert.GroupWhiten

end
-- ==== Proof.LibERealCoe.lean ====
/-
  The reals inside the extended reals.

  The inclusion of the real numbers into the extended reals is an order embedding and an additive map on the reals, so
  it commutes with finite sums, with `min` and with `max`: an expression built from real entries by these operations may
  be computed in the reals and included afterwards.
-/
import Mathlib.Data.EReal.Operations
import Mathlib.Algebra.BigOperators.Fin

namespace Cert.LibERealCoe

/-- The inclusion of the reals commutes with a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals commutes with `min`. -/
theorem coe_min (a b : ℝ) : ((min a b : ℝ) : EReal) = min (a : EReal) (b : EReal) :=
  (EReal.coe_strictMono.monotone).map_min

/-- The inclusion of the reals commutes with `max`. -/
theorem coe_max (a b : ℝ) : ((max a b : ℝ) : EReal) = max (a : EReal) (b : EReal) :=
  (EReal.coe_strictMono.monotone).map_max

end Cert.LibERealCoe
-- ==== Proof.CovLawReal.lean ====
/-
  The covariance of two finite families, computed two ways.

  For real families `a`, `b` over `N` indices, with means `A = (∑ a) / N` and `B = (∑ b) / N`,

      (∑ a·b) / N − A·B  =  (∑ (a − A)·(b − B)) / N :

  expanding the product on the right gives `∑ a·b − B·∑ a − A·∑ b + N·A·B`, and `∑ a = N·A`, `∑ b = N·B`.
  On the extended reals the same holds when every entry is a real number and the divisor is the real `N ≠ 0`:
  every sum, product, difference and quotient in sight is then the inclusion of the real one.
-/
import Idealize.ShloMosaic.PureOps.Ideal
import proofs.«155110_j49271864820158_1_alg».proof.Proof.LibERealCoe

noncomputable section

namespace Cert.GroupWhiten

open Idealize.ShloMosaic

/-- The sum of the products of the deviations from any two constants, expanded. -/
theorem sum_dev_mul {ι : Type*} [Fintype ι] (a b : ι → ℝ) (A B : ℝ) :
    ∑ j, (a j - A) * (b j - B)
      = ∑ j, a j * b j - (∑ j, a j) * B - A * ∑ j, b j + (Fintype.card ι : ℝ) * (A * B) := by
  simp only [sub_mul, mul_sub, Finset.sum_sub_distrib, ← Finset.sum_mul, ← Finset.mul_sum, Finset.sum_const,
    Finset.card_univ, nsmul_eq_mul]
  ring

/-- The covariance law on the reals. -/
theorem cov_real {ι : Type*} [Fintype ι] (a b : ι → ℝ) (N : ℝ) (hN : (Fintype.card ι : ℝ) = N) (h0 : N ≠ 0) :
    (∑ j, a j * b j) / N - (∑ j, a j) / N * ((∑ j, b j) / N)
      = (∑ j, (a j - (∑ j, a j) / N) * (b j - (∑ j, b j) / N)) / N := by
  rw [sum_dev_mul, hN]
  field_simp
  ring

/-- A real divided by a nonzero real, on the extended reals, is the inclusion of the real quotient. -/
theorem div_real (r N : ℝ) (h0 : N ≠ 0) : Ideal.div (r : EReal) (N : EReal) = ((r / N : ℝ) : EReal) := by
  rw [Ideal.div_coe h0, ← EReal.coe_mul, mul_one_div]

/-- The covariance law on the extended reals, for families of real entries and the real divisor `N`, the number of indices. -/
theorem cov_ereal {ι : Type*} [Fintype ι] (f g : ι → EReal) (hf : ∀ j, ∃ r : ℝ, f j = (r : EReal))
    (hg : ∀ j, ∃ r : ℝ, g j = (r : EReal)) (M : EReal) (N : ℝ) (hM : M = (N : EReal))
    (hN : (Fintype.card ι : ℝ) = N) (h0 : N ≠ 0) :
    Ideal.div (∑ j, f j * g j) M - Ideal.div (∑ j, f j) M * Ideal.div (∑ j, g j) M
      = Ideal.div (∑ j, (f j - Ideal.div (∑ j, f j) M) * (g j - Ideal.div (∑ j, g j) M)) M := by
  choose a ha using hf
  choose b hb using hg
  obtain rfl : f = fun j => (a j : EReal) := funext ha
  obtain rfl : g = fun j => (b j : EReal) := funext hb
  subst hM
  have ea : (∑ j, (a j : EReal)) = ((∑ j, a j : ℝ) : EReal) := (Cert.LibERealCoe.coe_sum _ _).symm
  have eb : (∑ j, (b j : EReal)) = ((∑ j, b j : ℝ) : EReal) := (Cert.LibERealCoe.coe_sum _ _).symm
  have eab : (∑ j, (a j : EReal) * (b j : EReal)) = ((∑ j, a j * b j : ℝ) : EReal) :=
    ((Cert.LibERealCoe.coe_sum _ _).trans (Finset.sum_congr rfl fun j _ => EReal.coe_mul _ _)).symm
  have edev : (∑ j, ((a j : EReal) - (((∑ j, a j) / N : ℝ) : EReal)) * ((b j : EReal) - (((∑ j, b j) / N : ℝ) : EReal)))
      = ((∑ j, (a j - (∑ j, a j) / N) * (b j - (∑ j, b j) / N) : ℝ) : EReal) :=
    ((Cert.LibERealCoe.coe_sum _ _).trans (Finset.sum_congr rfl fun j _ => by
      rw [EReal.coe_mul, EReal.coe_sub, EReal.coe_sub])).symm
  show Ideal.div (∑ j, (a j : EReal) * (b j : EReal)) N - Ideal.div (∑ j, (a j : EReal)) N * Ideal.div (∑ j, (b j : EReal)) N
      = Ideal.div (∑ j, ((a j : EReal) - Ideal.div (∑ j, (a j : EReal)) N) * ((b j : EReal) - Ideal.div (∑ j, (b j : EReal)) N)) N
  rw [ea, eb, eab, div_real _ _ h0, div_real _ _ h0, div_real _ _ h0, edev, div_real _ _ h0, ← EReal.coe_mul, ← EReal.coe_sub,
    cov_real a b N hN h0]

end Cert.GroupWhiten

end
-- ==== Proof.CovLaw.lean ====
/-
  The mean and the covariance of the groups, from the two accumulated sums.

  The host operations form, from the row of sums `s[g] = ∑ samples of g` and the matrix `q[g, g'] = ∑ products`,

      mean[g] = s[g] / M,      cov[g, g'] = q[g, g'] / M − mean[g]·mean[g'] + ε·I[g, g'],      M = 1605632,

  the divisor being the float whose pattern is 0x49C40000: sign 0, exponent 147, significand 1.53125, that is
  12845056 · 2⁻³ = 1605632, the number of samples of a group. Read at an index, the broadcasts and the reshape only
  move coordinates. When every entry of the input is a real number the covariance is also the mean of the products of
  the deviations from the means (the law of the covariance computed two ways), which is how the reference spells it.
-/
import proofs.«155110_j49271864820158_1_alg».proof.Proof.Spec
import proofs.«155110_j49271864820158_1_alg».proof.Proof.CovLawFlat
import proofs.«155110_j49271864820158_1_alg».proof.Proof.CovLawReal
import Idealize.ShloMosaic.Lib.Pipeline.Value

noncomputable section

namespace Cert.GroupWhiten

open Idealize.ShloMosaic Idealize.ShloMosaic.ValueIdx

/-- The pattern 0x49C40000 denotes 1605632. -/
theorem ofBits_M : Ideal.ofBits .f32 0x49C40000#32 = ((1605632 : ℝ) : EReal) := by
  simp [Ideal.ofBits, Ideal.ieee]
  norm_num
  rw [← EReal.coe_mul]
  norm_num

/-- A matrix filled with one float reads that float everywhere. -/
theorem splat_apply (b : BitVec 32) (i : SG.Idx) : splat b i = Ideal.ofBits .f32 b := rfl

/-- A vector laid down the rows of a matrix reads, at (g, g'), its entry g. -/
theorem bcCol_apply (v : FVec Ideal SV .f32) (g g' : Fin 16) :
    broadcastInDim SG ![0, 1] bcColG (broadcastInDim SCol ![0] bcVCol v) (ix2 g g') = v (ix1 g) := by
  rw [broadcastInDim_apply ![0, 1] bcColG _ (ix2 g g') (ix2 g (0 : Fin 1))
      (fun a => by match a with | ⟨0, _⟩ => rfl | ⟨1, _⟩ => rfl),
    broadcastInDim_apply ![0] bcVCol v (ix2 g (0 : Fin 1)) (ix1 g) (fun a => by match a with | ⟨0, _⟩ => rfl)]

/-- A vector laid along the columns of a matrix reads, at (g, g'), its entry g'. -/
theorem bcRow_apply (v : FVec Ideal SV .f32) (g g' : Fin 16) :
    broadcastInDim SG ![0, 1] bcRowG (broadcastInDim SRow ![1] bcVRow v) (ix2 g g') = v (ix1 g') := by
  rw [broadcastInDim_apply ![0, 1] bcRowG _ (ix2 g g') (ix2 (0 : Fin 1) g')
      (fun a => by match a with | ⟨0, _⟩ => rfl | ⟨1, _⟩ => rfl),
    broadcastInDim_apply ![1] bcVRow v (ix2 (0 : Fin 1) g') (ix1 g') (fun a => by match a with | ⟨0, _⟩ => rfl)]

/-- The mean of group g: entry g of the row of sums, divided by M. -/
theorem meanVec_apply (s : FVec Ideal SRow .f32) (g : Fin 16) :
    meanVec s (ix1 g) = Ideal.div (s (ix2 (0 : Fin 1) g)) (Ideal.ofBits .f32 0x49C40000#32) := by
  show Ideal.div (shapeCast SV s castRowV (ix1 g)) (Ideal.ofBits .f32 0x49C40000#32) = _
  rw [shapeCast_apply s castRowV (ix1 g) (ix2 (0 : Fin 1) g) (by
    rw [Shape.rowMajor_val_two, Shape.rowMajor_val_one]
    show 0 * 16 + g.val = g.val
    omega)]

/-- The covariance at (g, g'), the layout operations read off. -/
theorem covOfSums_apply (s : FVec Ideal SRow .f32) (q : FVec Ideal SG .f32) (g g' : Fin 16) :
    covOfSums s q (ix2 g g')
      = Ideal.div (q (ix2 g g')) (Ideal.ofBits .f32 0x49C40000#32) - meanVec s (ix1 g) * meanVec s (ix1 g')
        + Ideal.ofBits .f32 0x3727C5AC#32 * eye (ix2 g g') := by
  show Ideal.div (q (ix2 g g')) (Ideal.ofBits .f32 0x49C40000#32)
        - broadcastInDim SG ![0, 1] bcColG (broadcastInDim SCol ![0] bcVCol (meanVec s)) (ix2 g g')
          * broadcastInDim SG ![0, 1] bcRowG (broadcastInDim SRow ![1] bcVRow (meanVec s)) (ix2 g g')
        + Ideal.ofBits .f32 0x3727C5AC#32 * eye (ix2 g g') = _
  rw [bcCol_apply, bcRow_apply]

/-- The mean of group g as the reference spells it: zero plus the sum over the flat positions, divided by M. -/
abbrev muF (x : SX.Idx → EReal) (g : Fin 16) : EReal :=
  Ideal.div (Ideal.ofBits .f32 0x00000000#32 + ∑ j : Fin 1605632, fsamp x g j) (Ideal.ofBits .f32 0x49C40000#32)

/-- The mean from the row of sums is the mean over the flat positions. -/
theorem mean_law (x : SX.Idx → EReal) (g : Fin 16) :
    meanVec (sumRow x) (ix1 g)
      = Ideal.div (Ideal.ofBits .f32 0x00000000#32 + ∑ j : Fin 1605632, fsamp x g j) (Ideal.ofBits .f32 0x49C40000#32) := by
  rw [meanVec_apply, Ideal.ofBits_zero_f32, zero_add, ← gsum_flat]
  rfl

/-- The covariance from the two sums is the mean of the products of the deviations, plus ε on the diagonal, when every
    entry of the input is a real number. -/
theorem cov_law (x : SX.Idx → EReal) (hx : Finite x) (g g' : Fin 16) :
    covOfSums (sumRow x) (crossMat x) (ix2 g g')
      = Ideal.div (∑ j : Fin 1605632, (fsamp x g j - muF x g) * (fsamp x g' j - muF x g')) (Ideal.ofBits .f32 0x49C40000#32)
        + Ideal.ofBits .f32 0x3727C5AC#32 * eye (ix2 g g') := by
  rw [covOfSums_apply, mean_law, mean_law]
  refine congrArg (· + Ideal.ofBits .f32 0x3727C5AC#32 * eye (ix2 g g')) ?_
  show Ideal.div (gcross x g g') (Ideal.ofBits .f32 0x49C40000#32) - muF x g * muF x g'
      = Ideal.div (∑ j : Fin 1605632, (fsamp x g j - muF x g) * (fsamp x g' j - muF x g')) (Ideal.ofBits .f32 0x49C40000#32)
  unfold muF
  rw [gcross_flat, Ideal.ofBits_zero_f32, zero_add, zero_add]
  exact cov_ereal (fsamp x g) (fsamp x g') (fun j => hx _) (fun j => hx _) _ 1605632 ofBits_M
    (by rw [Fintype.card_fin]; norm_num) (by norm_num)

end Cert.GroupWhiten

end
-- ==== Proof.FinitePre.lean ====
/-
  The precondition makes every entry of the input a real number.

  The precondition is the conjunction, over the three argument arrays, of "every entry has absolute value below +∞",
  each an all-reduction by `and` of the entrywise comparison `|x| < +∞` (the pattern 0x7F800000 is +∞). Its first
  conjunct, read at an entry of the first array, says `max x (−x) < ⊤`; an extended real with that property is neither
  `⊤` nor `⊥`, so it is a real number.
-/
import proofs.«155110_j49271864820158_1_alg».proof.Proof.CovLawFlat
import proofs.«155110_j49271864820158_1_alg».proof.Defs
import Idealize.ShloMosaic.Lib.ReduceAll

noncomputable section

namespace Cert.GroupWhiten

open Idealize.ShloMosaic Idealize.ShloMosaic.ValueIdx

/-- The pattern 0x7F800000 denotes +∞. -/
theorem ofBits_inf : Ideal.ofBits .f32 0x7F800000#32 = (⊤ : EReal) := by
  simp [Ideal.ofBits, Ideal.ieee]

/-- An extended real whose absolute value is below +∞ is a real number. -/
theorem real_of_abs_lt_top (a : EReal) (h : max a (-a) < ⊤) : ∃ r : ℝ, a = (r : EReal) := by
  induction a using EReal.rec with
  | bot => simp at h
  | top => simp at h
  | coe r => exact ⟨r, rfl⟩

/-- The comparison `|a| < +∞` answering 1 says that `a` is a real number. -/
theorem real_of_olt (a : EReal) (hi : Ideal.cmp .olt (max a (-a)) (Ideal.ofBits .f32 0x7F800000#32) = 1#1) :
    ∃ r : ℝ, a = (r : EReal) := by
  have hi' : BitVec.ofBool (decide (max a (-a) < Ideal.ofBits .f32 0x7F800000#32)) = 1#1 := hi
  rw [ofBits_inf] at hi'
  by_cases hlt : max a (-a) < ⊤
  · exact real_of_abs_lt_top a hlt
  · rw [decide_eq_false hlt] at hi'
    exact absurd hi' (by decide)

instance : Subsingleton Cert.Pre_finite_inputs.S_.Idx := ⟨fun a b => funext fun d => d.elim0⟩

/-- Under the precondition every entry of the first argument array is a real number. -/
theorem finite_of_pre [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Finite (m ((c.tc : Thread _ Cert.KernelIdeal.τ).loc Cert.KernelIdeal.main_arg0)) := by
  intro i
  have h0 := congrFun (h c) ix0
  dsimp only [Cert.Pre_finite_inputs.fn] at h0
  obtain ⟨h1, _⟩ := IntOp.andi_eq_one.1 h0
  obtain ⟨h3, _⟩ := IntOp.andi_eq_one.1 h1
  exact real_of_olt _ (Host.reduce_andi_all _ _ _ _ ix0 h3 i)

end Cert.GroupWhiten

end
-- ==== Proof.Whole.lean ====
/-
  Group whitening: the kernel against its reference, at the ideal values.

  Both programs compute, for every element (n, c, h, w) with channel c = 16·o + g,
      (∑_{g'} D[g, g'] · (x[n, 16·o + g', h, w] − mean[g'])) · weight[c] + bias[c],
  with mean the mean of each group's 1605632 samples and D the result of ten Newton–Schulz trips on the groups'
  covariance plus ε·I. They differ in how the mean and the covariance are reached.
  The kernel's first pass accumulates, block of channels by block of channels, the sums ∑ x and ∑ x·x' of the samples;
  the host then forms  (∑ x·x')/M − mean ⊗ mean + ε·I.  The reference centres the samples first and forms
  (∑ (x − mean)(x' − mean'))/M + ε·I.  For FINITE samples these are one matrix (the covariance law, over the reals:
  this is where the precondition is used), and the sums over (block, image, position) are the sums over the flat sample
  index (a re-indexing). The Newton–Schulz trips are the same host operations on both sides, carried as one function
  `ns`; the second pass and the reference's last product, read at an element, are the displayed formula.
-/
import proofs.«155110_j49271864820158_1_alg».proof.Defs
import proofs.«155110_j49271864820158_1_alg».proof.Proof.Spec
import proofs.«155110_j49271864820158_1_alg».proof.Proof.KRun
import proofs.«155110_j49271864820158_1_alg».proof.Proof.KApply
import proofs.«155110_j49271864820158_1_alg».proof.Proof.KHost
import proofs.«155110_j49271864820158_1_alg».proof.Proof.KSums
import proofs.«155110_j49271864820158_1_alg».proof.Proof.RefRunP
import proofs.«155110_j49271864820158_1_alg».proof.Proof.RefReadP
import proofs.«155110_j49271864820158_1_alg».proof.Proof.RHost
import proofs.«155110_j49271864820158_1_alg».proof.Proof.RRead
import proofs.«155110_j49271864820158_1_alg».proof.Proof.CovLaw
import proofs.«155110_j49271864820158_1_alg».proof.Proof.FinitePre
import proofs.«155110_j49271864820158_1_alg».proof.Proof.Gen.Kernel
import proofs.«155110_j49271864820158_1_alg».proof.Proof.Gen.KernelIdeal
import proofs.«155110_j49271864820158_1_alg».proof.Proof.Gen.ReferenceIdeal
import proofs.«155110_j49271864820158_1_alg».proof.Proof.Gen.Pre_finite_inputs
import proofs.«155110_j49271864820158_1_alg».proof.Proof.Gen.Kernel.Frame
import proofs.«155110_j49271864820158_1_alg».proof.Proof.Gen.KernelIdeal.Frame
import Idealize.ShloMosaic.Lib.Pipeline.Value

noncomputable section

namespace Cert.Proof.Whole

open Cert.GroupWhiten Idealize.ShloMosaic Idealize.ShloMosaic.TcCoe Idealize.ShloMosaic.ValueIdx Idealize.ShloMosaic.StableHlo Idealize.SL.Sem

/-! ## The two roads to the mean and to the covariance meet -/

/-- The [1,16] row of means at (0, g) is the vector of means at g. -/
theorem meanRow_apply (s : FVec Ideal SRow .f32) (g : Fin 16) : meanRow s (ix2 (0 : Fin 1) g) = meanVec s (ix1 g) := by
  unfold meanRow
  refine shapeCast_apply (meanVec s) castVRow (ix2 (0 : Fin 1) g) (ix1 g) ?_
  rw [Shape.rowMajor_val_one, Shape.rowMajor_val_two]
  show g.val = 0 * 16 + g.val
  omega

/-- The kernel's mean of group g (the accumulated sum over M) is the reference's (the flat sum over M). -/
theorem mean_bridge (x : FVec Ideal Cert.ReferenceIdeal.S32x256x56x56 .f32) (g : Fin 16) :
    meanRow (sumRow x) (ix2 (0 : Fin 1) g) = Cert.ReferenceIdeal.Reads.mu x g :=
  (meanRow_apply _ g).trans ((mean_law x g).trans (Cert.ReferenceIdeal.Reads.mean_apply x g).symm)

/-- For finite samples the kernel's covariance matrix (from the two sums) is the reference's (from the centred samples). -/
theorem cov_bridge (x : FVec Ideal Cert.ReferenceIdeal.S32x256x56x56 .f32) (hx : Finite x) :
    covOfSums (sumRow x) (crossMat x) = Cert.ReferenceIdeal.ReadP.val_main_v21 (F := Ideal) x := by
  funext i
  obtain ⟨g, g', rfl⟩ : ∃ (g g' : Fin 16), i = ix2 g g' := ⟨i 0, i 1, eq_ix2 i⟩
  rw [Cert.ReferenceIdeal.Reads.cov_apply x g g', Cert.ReferenceIdeal.Reads.mean_apply x g, Cert.ReferenceIdeal.Reads.mean_apply x g']
  exact cov_law x hx g g'

/-! ## The kernel's result -/

section Kernel
open Cert.KernelIdeal Cert.KernelIdeal.Gen

/-- The kernel's result array as a function of the arguments' launch contents. -/
def kout (m : (ℓ : Loc nD τ sig) → Buf (Elt Ideal) ℓ) (c : Dev nD) : FVec Ideal S32x256x56x56 .f32 :=
  whiten (m ((c.tc : Thread nD τ).loc main_arg0)) (fun g => meanRow (sumRow (m ((c.tc : Thread nD τ).loc main_arg0))) (ix2 (0 : Fin 1) g))
    (ns (covOfSums (sumRow (m ((c.tc : Thread nD τ).loc main_arg0))) (crossMat (m ((c.tc : Thread nD τ).loc main_arg0)))))
    (m ((c.tc : Thread nD τ).loc main_arg1)) (m ((c.tc : Thread nD τ).loc main_arg2))

/-- The last boundary's contents at the result buffer: the second pass's function of the arrays it is entered with, which
    the host stretch computes from the first pass's two sums, which are the groups' sums of the argument. -/
theorem kernel_value (m : (ℓ : Loc nD τ sig) → Buf (Elt Ideal) ℓ) (ρ : Dev nD → PrngReg) (c : Dev nD) :
    (W5 m ρ c (Proc.devRef .tc main_v120) : FVec Ideal S32x256x56x56 .f32) = kout m c := by
  refine (W5_arr m ρ c 5).trans ?_
  refine (Cert.KernelIdeal.ApplyVal.final_out (V4 m ρ) c).trans ?_
  unfold Cert.KernelIdeal.ApplyVal.G kout
  have e118 : (V4 m ρ c main_v118 : FVec Ideal S16x16 .f32)
      = ns (covOfSums (sumRow (m ((c.tc : Thread nD τ).loc main_arg0))) (crossMat (m ((c.tc : Thread nD τ).loc main_arg0)))) := by
    refine (Cert.KernelIdeal.HostVal.host_decorr (W1 m ρ c)).trans ?_
    rw [Cert.KernelIdeal.Sums.W1_sum m ρ c, Cert.KernelIdeal.Sums.W1_cross m ρ c]
  have e119 : (V4 m ρ c main_v119 : FVec Ideal S1x16 .f32) = meanRow (sumRow (m ((c.tc : Thread nD τ).loc main_arg0))) := by
    refine (Cert.KernelIdeal.HostVal.host_mean (W1 m ρ c)).trans ?_
    rw [Cert.KernelIdeal.Sums.W1_sum m ρ c]
  have e0 : V4 m ρ c main_arg0 = m ((c.tc : Thread nD τ).loc main_arg0) :=
    (Cert.KernelIdeal.HostVal.host_arg0 (W1 m ρ c)).trans (Cert.KernelIdeal.Sums.W1_arg0 m ρ c)
  have e1 : V4 m ρ c main_arg1 = m ((c.tc : Thread nD τ).loc main_arg1) :=
    (Cert.KernelIdeal.HostVal.host_arg1 (W1 m ρ c)).trans (Cert.KernelIdeal.Sums.W1_arg1 m ρ c)
  have e2 : V4 m ρ c main_arg2 = m ((c.tc : Thread nD τ).loc main_arg2) :=
    (Cert.KernelIdeal.HostVal.host_arg2 (W1 m ρ c)).trans (Cert.KernelIdeal.Sums.W1_arg2 m ρ c)
  rw [e118, e119, e0, e1, e2]

/-- The kernel's run: the result array at `kout`, the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v120) = kout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (kernel_value m ρ c), (h c).2⟩) (Cert.KernelIdeal.RunVal.run_out (F := Ideal) m ρ)

end Kernel

/-! ## The reference's result -/

section Reference
open Cert.ReferenceIdeal Cert.ReferenceIdeal.Gen

/-- The reference's result buffer after its operations: the output formula over its own mean and the Newton–Schulz
    result of its own covariance. -/
theorem ref_value (m' : (ℓ : Loc nD τ sig) → Buf (Elt Ideal) ℓ) (c : Dev nD) :
    (after (Cert.ReferenceIdeal.ValueP.ops (F := Ideal)) (launchContents m' c) (Proc.devRef .tc main_v127) : FVec Ideal S32x256x56x56 .f32)
      = whiten (m' ((c.tc : Thread nD τ).loc main_arg0)) (Cert.ReferenceIdeal.Reads.mu (m' ((c.tc : Thread nD τ).loc main_arg0)))
          (ns (Cert.ReferenceIdeal.ReadP.val_main_v21 (F := Ideal) (m' ((c.tc : Thread nD τ).loc main_arg0))))
          (m' ((c.tc : Thread nD τ).loc main_arg1)) (m' ((c.tc : Thread nD τ).loc main_arg2)) := by
  refine (Cert.ReferenceIdeal.HostVal.fold_eq (launchContents m' c)).trans ?_
  show Cert.ReferenceIdeal.ReadP.val_main_v127 (F := Ideal) (m' ((c.tc : Thread nD τ).loc main_arg0)) (m' ((c.tc : Thread nD τ).loc main_arg1)) (m' ((c.tc : Thread nD τ).loc main_arg2)) = _
  rw [Cert.ReferenceIdeal.Reads.out_eq, Cert.ReferenceIdeal.HostVal.ns_eq]

end Reference

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c =>
    ⟨(h c Cert.ReferenceIdeal.main_arg0).trans (Cert.ReferenceIdeal.HostVal.fold_arg0 _),
     (h c Cert.ReferenceIdeal.main_arg1).trans (Cert.ReferenceIdeal.HostVal.fold_arg1 _),
     (h c Cert.ReferenceIdeal.main_arg2).trans (Cert.ReferenceIdeal.HostVal.fold_arg2 _)⟩)
    (Cert.ReferenceIdeal.ValueP.run_fold (F := Ideal) m ρ)

theorem preserves : Cert.preserves_Kernel_KernelIdeal := trivial

/-- Both programs end with the result array at the output formula of arguments that agree; the means agree always, the
    covariances because the samples are finite. -/
theorem algebraic : Cert.algebraic_KernelIdeal_ReferenceIdeal := by
  intro m ρ m' ρ' hpre hagree
  refine ⟨fun c => kout m c, kernel_run m ρ, ?_⟩
  refine (θ_run Cert.ReferenceIdeal.defs _ _).mono (fun _ h c => ⟨(h c Cert.ReferenceIdeal.main_v127).trans ?_,
      (h c Cert.ReferenceIdeal.main_arg0).trans (Cert.ReferenceIdeal.HostVal.fold_arg0 _),
      (h c Cert.ReferenceIdeal.main_arg1).trans (Cert.ReferenceIdeal.HostVal.fold_arg1 _),
      (h c Cert.ReferenceIdeal.main_arg2).trans (Cert.ReferenceIdeal.HostVal.fold_arg2 _)⟩)
    (Cert.ReferenceIdeal.ValueP.run_fold (F := Ideal) m' ρ')
  refine (ref_value m' c).trans ?_
  rw [(hagree c).1, (hagree c).2.1, (hagree c).2.2]
  unfold kout
  rw [← cov_bridge _ (finite_of_pre m hpre c)]
  exact congrArg (fun mu => whiten _ mu _ _ _) (funext fun g => (mean_bridge _ g).symm)

end Cert.Proof.Whole

end
-- ==== Proof.lean ====
/-
  The proof of `Cert.Claim` for the group-whitening kernel against its reference: the three frames, the (empty)
  idealization ledger, and the equality of the two results over the extended reals for finite inputs. The mathematics
  is in Proof/Spec.lean (the groups' sums, the covariance, the Newton–Schulz function, the output formula); the
  claims are assembled in Proof/Whole.lean; the witnesses of the programs' stated facts are the generated instances.
-/
import proofs.«155110_j49271864820158_1_alg».proof.Defs
import proofs.«155110_j49271864820158_1_alg».proof.Proof.Whole
import proofs.«155110_j49271864820158_1_alg».proof.Proof.Gen.Kernel
import proofs.«155110_j49271864820158_1_alg».proof.Proof.Gen.KernelIdeal
import proofs.«155110_j49271864820158_1_alg».proof.Proof.Gen.ReferenceIdeal
import proofs.«155110_j49271864820158_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Whole.frame_k, Whole.frame_ki, Whole.frame_ri, Whole.preserves, Whole.algebraic⟩

end Cert.Proof

end
